-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S3072x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024x3072 : Shape := ⟨2, ![1024, 3072]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3x16x64 : Shape := ⟨5, ![4, 2048, 3, 16, 64]⟩
abbrev S4x2048x16x64 : Shape := ⟨4, ![4, 2048, 16, 64]⟩
abbrev S1x512x1x16x64 : Shape := ⟨5, ![1, 512, 1, 16, 64]⟩
abbrev S1x512x16x64 : Shape := ⟨4, ![1, 512, 16, 64]⟩
abbrev S512x16x1 : Shape := ⟨3, ![512, 16, 1]⟩
abbrev S512x16x64 : Shape := ⟨3, ![512, 16, 64]⟩
abbrev S512x512 : Shape := ⟨2, ![512, 512]⟩
abbrev S1x512x1x1x64 : Shape := ⟨5, ![1, 512, 1, 1, 64]⟩
abbrev S512x64 : Shape := ⟨2, ![512, 64]⟩
abbrev S512x1x1 : Shape := ⟨3, ![512, 1, 1]⟩
abbrev S512x1 : Shape := ⟨2, ![512, 1]⟩
abbrev S512 : Shape := ⟨1, ![512]⟩
abbrev S512x1x64 : Shape := ⟨3, ![512, 1, 64]⟩

abbrev nBuf : Space → Nat
  | .hbm => 14
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024x3072, .f32⟩
  | .hbm, ⟨4, _⟩ => ⟨S1024x3072, .bf16⟩
  | .hbm, ⟨5, _⟩ => ⟨S1024x1024, .f32⟩
  | .hbm, ⟨6, _⟩ => ⟨S1024x1024, .bf16⟩
  | .hbm, ⟨7, _⟩ => ⟨S8192x1024, .f32⟩
  | .hbm, ⟨8, _⟩ => ⟨S8192x3072, .f32⟩
  | .hbm, ⟨9, _⟩ => ⟨S4x2048x3x16x64, .f32⟩
  | .hbm, ⟨10, _⟩ => ⟨S4x2048x16x64, .f32⟩
  | .hbm, ⟨11, _⟩ => ⟨S8192x1024, .f32⟩
  | .hbm, ⟨12, _⟩ => ⟨S8192x1024, .f32⟩
  | .hbm, ⟨13, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | .local _ .vmem, ⟨5, _⟩ => ⟨S1x512x1x16x64, .f32⟩
  | .local _ .vmem, ⟨6, _⟩ => ⟨S1x512x1x16x64, .f32⟩
  | .local _ .vmem, ⟨7, _⟩ => ⟨S1x512x1x16x64, .f32⟩
  | .local _ .vmem, ⟨8, _⟩ => ⟨S1x512x1x16x64, .f32⟩
  | .local _ .vmem, ⟨9, _⟩ => ⟨S1x512x1x16x64, .f32⟩
  | .local _ .vmem, ⟨10, _⟩ => ⟨S1x512x1x16x64, .f32⟩
  | .local _ .vmem, ⟨11, _⟩ => ⟨S1x512x16x64, .f32⟩
  | .local _ .vmem, ⟨12, _⟩ => ⟨S1x512x16x64, .f32⟩
  | .local _ .vmem, ⟨13, _⟩ => ⟨S512x16x1, .f32⟩
  | .local _ .vmem, ⟨14, _⟩ => ⟨S512x16x1, .f32⟩
  | .local _ .vmem, ⟨15, _⟩ => ⟨S512x16x64, .f32⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond3 (i : grid1.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_4 : BitVec 32 := 0#32
  let v12 : BitVec 1 := Scalar.cmpi .ne v11 c0_i32_4
  v12

def cc1_transform_0 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  let c0_i32_0 : BitVec 32 := 0#32
  let c0_i32_1 : BitVec 32 := 0#32
  ![arg0.toNat, v0.toNat, c1_i32.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  let c0_i32_0 : BitVec 32 := 0#32
  let c0_i32_1 : BitVec 32 := 0#32
  ![arg0.toNat, v0.toNat, c2_i32.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x512x1x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  shapeCasts_S8192x3072_S4x2048x3x16x64 : S8192x3072.ShapeCasts S4x2048x3x16x64
  inb_S512x16x1_S512x16x1_0_0_0 : ∀ a, (![0, 0, 0] : Fin 3 → Nat) a + S512x16x1.size a ≤ S512x16x1.size a
  h_S512x16x1 : 0 < S512x16x1.numel
  shapeCasts_S512x16x1_S512x16x1 : S512x16x1.ShapeCasts S512x16x1
  inb_S512x16x64_S512x16x64_0_0_0 : ∀ a, (![0, 0, 0] : Fin 3 → Nat) a + S512x16x64.size a ≤ S512x16x64.size a
  h_S512x16x64 : 0 < S512x16x64.numel
  shapeCasts_S512x16x64_S512x16x64 : S512x16x64.ShapeCasts S512x16x64
  iota_S512x512_d0_w32 : S512x512.Iotas .tc 32 [0]
  iota_S512x512_d1_w32 : S512x512.Iotas .tc 32 [1]
  inb_S1x512x1x16x64_S1x512x1x1x64_0_0_0_0_0 : ∀ a, (![0, 0, 0, 0, 0] : Fin 5 → Nat) a + S1x512x1x1x64.size a ≤ S1x512x1x16x64.size a
  h_S1x512x1x1x64 : 0 < S1x512x1x1x64.numel
  shapeCasts_S1x512x1x1x64_S512x64 : S1x512x1x1x64.ShapeCasts S512x64
  inb_S512x16x1_S512x1x1_0_0_0 : ∀ a, (![0, 0, 0] : Fin 3 → Nat) a + S512x1x1.size a ≤ S512x16x1.size a
  h_S512x1x1 : 0 < S512x1x1.numel
  shapeCasts_S512x1x1_S512x1 : S512x1x1.ShapeCasts S512x1
  reduces_S512x512_S512 : S512x512.Reduces [1] S512
  shapeCasts_S512_S512x1 : S512.ShapeCasts S512x1
  broadcasts_S512x1_S512x512 : S512x1.Broadcasts S512x512
  shapeCasts_S512x1_S512x1x1 : S512x1.ShapeCasts S512x1x1
  inb_S512x16x64_S512x1x64_0_0_0 : ∀ a, (![0, 0, 0] : Fin 3 → Nat) a + S512x1x64.size a ≤ S512x16x64.size a
  h_S512x1x64 : 0 < S512x1x64.numel
  shapeCasts_S512x1x64_S512x64 : S512x1x64.ShapeCasts S512x64
  broadcasts_S512x1_S512x64 : S512x1.Broadcasts S512x64
  shapeCasts_S512x64_S512x1x64 : S512x64.ShapeCasts S512x1x64
  inb_S1x512x1x16x64_S1x512x1x1x64_0_0_0_1_0 : ∀ a, (![0, 0, 0, 1, 0] : Fin 5 → Nat) a + S1x512x1x1x64.size a ≤ S1x512x1x16x64.size a
  inb_S512x16x1_S512x1x1_0_1_0 : ∀ a, (![0, 1, 0] : Fin 3 → Nat) a + S512x1x1.size a ≤ S512x16x1.size a
  inb_S512x16x64_S512x1x64_0_1_0 : ∀ a, (![0, 1, 0] : Fin 3 → Nat) a + S512x1x64.size a ≤ S512x16x64.size a
  inb_S1x512x1x16x64_S1x512x1x1x64_0_0_0_2_0 : ∀ a, (![0, 0, 0, 2, 0] : Fin 5 → Nat) a + S1x512x1x1x64.size a ≤ S1x512x1x16x64.size a
  inb_S512x16x1_S512x1x1_0_2_0 : ∀ a, (![0, 2, 0] : Fin 3 → Nat) a + S512x1x1.size a ≤ S512x16x1.size a
  inb_S512x16x64_S512x1x64_0_2_0 : ∀ a, (![0, 2, 0] : Fin 3 → Nat) a + S512x1x64.size a ≤ S512x16x64.size a
  inb_S1x512x1x16x64_S1x512x1x1x64_0_0_0_3_0 : ∀ a, (![0, 0, 0, 3, 0] : Fin 5 → Nat) a + S1x512x1x1x64.size a ≤ S1x512x1x16x64.size a
  inb_S512x16x1_S512x1x1_0_3_0 : ∀ a, (![0, 3, 0] : Fin 3 → Nat) a + S512x1x1.size a ≤ S512x16x1.size a
  inb_S512x16x64_S512x1x64_0_3_0 : ∀ a, (![0, 3, 0] : Fin 3 → Nat) a + S512x1x64.size a ≤ S512x16x64.size a
  inb_S1x512x1x16x64_S1x512x1x1x64_0_0_0_4_0 : ∀ a, (![0, 0, 0, 4, 0] : Fin 5 → Nat) a + S1x512x1x1x64.size a ≤ S1x512x1x16x64.size a
  inb_S512x16x1_S512x1x1_0_4_0 : ∀ a, (![0, 4, 0] : Fin 3 → Nat) a + S512x1x1.size a ≤ S512x16x1.size a
  inb_S512x16x64_S512x1x64_0_4_0 : ∀ a, (![0, 4, 0] : Fin 3 → Nat) a + S512x1x64.size a ≤ S512x16x64.size a
  inb_S1x512x1x16x64_S1x512x1x1x64_0_0_0_5_0 : ∀ a, (![0, 0, 0, 5, 0] : Fin 5 → Nat) a + S1x512x1x1x64.size a ≤ S1x512x1x16x64.size a
  inb_S512x16x1_S512x1x1_0_5_0 : ∀ a, (![0, 5, 0] : Fin 3 → Nat) a + S512x1x1.size a ≤ S512x16x1.size a
  inb_S512x16x64_S512x1x64_0_5_0 : ∀ a, (![0, 5, 0] : Fin 3 → Nat) a + S512x1x64.size a ≤ S512x16x64.size a
  inb_S1x512x1x16x64_S1x512x1x1x64_0_0_0_6_0 : ∀ a, (![0, 0, 0, 6, 0] : Fin 5 → Nat) a + S1x512x1x1x64.size a ≤ S1x512x1x16x64.size a
  inb_S512x16x1_S512x1x1_0_6_0 : ∀ a, (![0, 6, 0] : Fin 3 → Nat) a + S512x1x1.size a ≤ S512x16x1.size a
  inb_S512x16x64_S512x1x64_0_6_0 : ∀ a, (![0, 6, 0] : Fin 3 → Nat) a + S512x1x64.size a ≤ S512x16x64.size a
  inb_S1x512x1x16x64_S1x512x1x1x64_0_0_0_7_0 : ∀ a, (![0, 0, 0, 7, 0] : Fin 5 → Nat) a + S1x512x1x1x64.size a ≤ S1x512x1x16x64.size a
  inb_S512x16x1_S512x1x1_0_7_0 : ∀ a, (![0, 7, 0] : Fin 3 → Nat) a + S512x1x1.size a ≤ S512x16x1.size a
  inb_S512x16x64_S512x1x64_0_7_0 : ∀ a, (![0, 7, 0] : Fin 3 → Nat) a + S512x1x64.size a ≤ S512x16x64.size a
  inb_S1x512x1x16x64_S1x512x1x1x64_0_0_0_8_0 : ∀ a, (![0, 0, 0, 8, 0] : Fin 5 → Nat) a + S1x512x1x1x64.size a ≤ S1x512x1x16x64.size a
  inb_S512x16x1_S512x1x1_0_8_0 : ∀ a, (![0, 8, 0] : Fin 3 → Nat) a + S512x1x1.size a ≤ S512x16x1.size a
  inb_S512x16x64_S512x1x64_0_8_0 : ∀ a, (![0, 8, 0] : Fin 3 → Nat) a + S512x1x64.size a ≤ S512x16x64.size a
  inb_S1x512x1x16x64_S1x512x1x1x64_0_0_0_9_0 : ∀ a, (![0, 0, 0, 9, 0] : Fin 5 → Nat) a + S1x512x1x1x64.size a ≤ S1x512x1x16x64.size a
  inb_S512x16x1_S512x1x1_0_9_0 : ∀ a, (![0, 9, 0] : Fin 3 → Nat) a + S512x1x1.size a ≤ S512x16x1.size a
  inb_S512x16x64_S512x1x64_0_9_0 : ∀ a, (![0, 9, 0] : Fin 3 → Nat) a + S512x1x64.size a ≤ S512x16x64.size a
  inb_S1x512x1x16x64_S1x512x1x1x64_0_0_0_10_0 : ∀ a, (![0, 0, 0, 10, 0] : Fin 5 → Nat) a + S1x512x1x1x64.size a ≤ S1x512x1x16x64.size a
  inb_S512x16x1_S512x1x1_0_10_0 : ∀ a, (![0, 10, 0] : Fin 3 → Nat) a + S512x1x1.size a ≤ S512x16x1.size a
  inb_S512x16x64_S512x1x64_0_10_0 : ∀ a, (![0, 10, 0] : Fin 3 → Nat) a + S512x1x64.size a ≤ S512x16x64.size a
  inb_S1x512x1x16x64_S1x512x1x1x64_0_0_0_11_0 : ∀ a, (![0, 0, 0, 11, 0] : Fin 5 → Nat) a + S1x512x1x1x64.size a ≤ S1x512x1x16x64.size a
  inb_S512x16x1_S512x1x1_0_11_0 : ∀ a, (![0, 11, 0] : Fin 3 → Nat) a + S512x1x1.size a ≤ S512x16x1.size a
  inb_S512x16x64_S512x1x64_0_11_0 : ∀ a, (![0, 11, 0] : Fin 3 → Nat) a + S512x1x64.size a ≤ S512x16x64.size a
  inb_S1x512x1x16x64_S1x512x1x1x64_0_0_0_12_0 : ∀ a, (![0, 0, 0, 12, 0] : Fin 5 → Nat) a + S1x512x1x1x64.size a ≤ S1x512x1x16x64.size a
  inb_S512x16x1_S512x1x1_0_12_0 : ∀ a, (![0, 12, 0] : Fin 3 → Nat) a + S512x1x1.size a ≤ S512x16x1.size a
  inb_S512x16x64_S512x1x64_0_12_0 : ∀ a, (![0, 12, 0] : Fin 3 → Nat) a + S512x1x64.size a ≤ S512x16x64.size a
  inb_S1x512x1x16x64_S1x512x1x1x64_0_0_0_13_0 : ∀ a, (![0, 0, 0, 13, 0] : Fin 5 → Nat) a + S1x512x1x1x64.size a ≤ S1x512x1x16x64.size a
  inb_S512x16x1_S512x1x1_0_13_0 : ∀ a, (![0, 13, 0] : Fin 3 → Nat) a + S512x1x1.size a ≤ S512x16x1.size a
  inb_S512x16x64_S512x1x64_0_13_0 : ∀ a, (![0, 13, 0] : Fin 3 → Nat) a + S512x1x64.size a ≤ S512x16x64.size a
  inb_S1x512x1x16x64_S1x512x1x1x64_0_0_0_14_0 : ∀ a, (![0, 0, 0, 14, 0] : Fin 5 → Nat) a + S1x512x1x1x64.size a ≤ S1x512x1x16x64.size a
  inb_S512x16x1_S512x1x1_0_14_0 : ∀ a, (![0, 14, 0] : Fin 3 → Nat) a + S512x1x1.size a ≤ S512x16x1.size a
  inb_S512x16x64_S512x1x64_0_14_0 : ∀ a, (![0, 14, 0] : Fin 3 → Nat) a + S512x1x64.size a ≤ S512x16x64.size a
  inb_S1x512x1x16x64_S1x512x1x1x64_0_0_0_15_0 : ∀ a, (![0, 0, 0, 15, 0] : Fin 5 → Nat) a + S1x512x1x1x64.size a ≤ S1x512x1x16x64.size a
  inb_S512x16x1_S512x1x1_0_15_0 : ∀ a, (![0, 15, 0] : Fin 3 → Nat) a + S512x1x1.size a ≤ S512x16x1.size a
  inb_S512x16x64_S512x1x64_0_15_0 : ∀ a, (![0, 15, 0] : Fin 3 → Nat) a + S512x1x64.size a ≤ S512x16x64.size a
  broadcasts_S512x16x1_S512x16x64 : S512x16x1.Broadcasts S512x16x64
  inb_S1x512x16x64_S1x512x16x64_0_0_0_0 : ∀ a, (![0, 0, 0, 0] : Fin 4 → Nat) a + S1x512x16x64.size a ≤ S1x512x16x64.size a
  h_S1x512x16x64 : 0 < S1x512x16x64.numel
  shapeCasts_S1x512x16x64_S512x16x64 : S1x512x16x64.ShapeCasts S512x16x64
  shapeCasts_S512x16x64_S1x512x16x64 : S512x16x64.ShapeCasts S1x512x16x64
  shapeCasts_S4x2048x16x64_S8192x1024 : S4x2048x16x64.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .f32 = 32 ∨ (Rect.block (s := S8192x3072) S512x3072.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1x16x64.size a ≤ S4x2048x3x16x64.size a
  hwx1_0 : ∀ i : grid1.Coords, EltTy.bits .f32 = 32 ∨ (Rect.block (s := S4x2048x3x16x64) S1x512x1x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1x16x64.size a ≤ S4x2048x3x16x64.size a
  hwx1_1 : ∀ i : grid1.Coords, EltTy.bits .f32 = 32 ∨ (Rect.block (s := S4x2048x3x16x64) S1x512x1x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1x16x64.size a ≤ S4x2048x3x16x64.size a
  hwx1_2 : ∀ i : grid1.Coords, EltTy.bits .f32 = 32 ∨ (Rect.block (s := S4x2048x3x16x64) S1x512x1x16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x16x64.size a ≤ S4x2048x16x64.size a
  hwx1_3 : ∀ i : grid1.Coords, EltTy.bits .f32 = 32 ∨ (Rect.block (s := S4x2048x16x64) S1x512x16x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x1024.size a
  hwx2_2 : ∀ i : grid2.Coords, EltTy.bits .f32 = 32 ∨ (Rect.block (s := S8192x1024) S512x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x512x1x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x16x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v8) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x16x64, .f32⟩
  | .hbm, ⟨8, _⟩ => ⟨S4x16x2048x64, .f32⟩
  | .hbm, ⟨9, _⟩ => ⟨S4x2048x16x64, .f32⟩
  | .hbm, ⟨10, _⟩ => ⟨S4x16x2048x64, .f32⟩
  | .hbm, ⟨11, _⟩ => ⟨S4x2048x16x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S1x1x2048x2048, .i1⟩
  | .hbm, ⟨29, _⟩ => ⟨S_, .f32⟩
  | .hbm, ⟨30, _⟩ => ⟨S_, .f32⟩
  | .hbm, ⟨31, _⟩ => ⟨S4x16x2048x2048, .i1⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.LibOnlineSoftmax.lean ====
/-
  The online-softmax recurrence on the extended reals.

  A row of attention scores `t k` (a real number, or `⊥` for a masked key) is absorbed one finite batch of keys at a
  time.  The running state is a triple: the running maximum `m`, the normaliser `l = ∑ exp (t k - m)` and, for one
  output column, the weighted sum `a = ∑ exp (t k - m) * v k`.  Absorbing a batch `T` replaces `m` by
  `m' = max m (sup T)`, rescales the two sums by `exp (m - m')` and adds the batch's own terms.  Because
  `exp (m - m') * exp (x - m) = exp (x - m')` for `x ≤ m ≤ m' < ⊤` (also when `x` or `m` is `⊥`, where both sides are
  `0`), the state after absorbing pairwise disjoint batches is the closed form over their union, whatever the order
  and the cut.  Keys whose score is `⊥` contribute `0` to both sums, so leaving a batch of them out changes nothing; and
  once some key has a real score the normaliser is a positive real, so dividing the weighted sum by it is the sum of
  the normalised weights times the values.
-/
import Idealize.ShloMosaic.PureOps.Ideal

noncomputable section

namespace Cert.Lib.OnlineSoftmax

open Idealize.ShloMosaic
open scoped BigOperators

variable {κ : Type*} [DecidableEq κ]

/-! ## Sums of reals inside the extended reals -/

/-- A finite sum of real numbers, taken in the extended reals, is the real sum. -/
theorem coe_sum (s : Finset κ) (f : κ → ℝ) : (∑ k ∈ s, (f k : EReal)) = ((∑ k ∈ s, f k : ℝ) : EReal) := by
  induction s using Finset.induction_on with
  | empty => simp
  | insert a s ha ih => rw [Finset.sum_insert ha, Finset.sum_insert ha, ih, EReal.coe_add]

/-- A real factor moves inside a finite sum of extended reals all of whose terms are real. -/
theorem mul_sum_of_real (a : ℝ) (s : Finset κ) (g : κ → EReal) (hg : ∀ k ∈ s, ∃ r : ℝ, g k = r) :
    (a : EReal) * ∑ k ∈ s, g k = ∑ k ∈ s, (a : EReal) * g k := by
  choose! f hf using hg
  rw [Finset.sum_congr rfl hf, coe_sum, ← EReal.coe_mul, Finset.mul_sum, ← coe_sum]
  refine Finset.sum_congr rfl fun k hk => ?_
  rw [hf k hk, EReal.coe_mul]

/-- A real factor moves out of a finite sum of extended reals all of whose terms are real, on the right. -/
theorem sum_mul_of_real (a : ℝ) (s : Finset κ) (g : κ → EReal) (hg : ∀ k ∈ s, ∃ r : ℝ, g k = r) :
    (∑ k ∈ s, g k) * (a : EReal) = ∑ k ∈ s, g k * (a : EReal) := by
  rw [mul_comm, mul_sum_of_real a s g hg]
  exact Finset.sum_congr rfl fun k _ => mul_comm _ _

/-! ## One weight -/

/-- Below a maximum that is not `⊤`, the weight `exp (x - M)` is a non-negative real. -/
theorem exp_sub_real {x M : EReal} (hx : x ≤ M) (hM : M ≠ ⊤) : ∃ r : ℝ, 0 ≤ r ∧ Ideal.exp (x - M) = r := by
  induction M using EReal.rec with
  | bot => obtain rfl := le_bot_iff.mp hx; exact ⟨0, le_rfl, by simp⟩
  | top => exact absurd rfl hM
  | coe m =>
    induction x using EReal.rec with
    | bot => exact ⟨0, le_rfl, by simp⟩
    | top => exact absurd hx (by simp)
    | coe a => exact ⟨Real.exp (a - m), (Real.exp_pos _).le, by rw [← EReal.coe_sub, Ideal.exp_coe]⟩

/-- A real score below a real maximum has a positive weight. -/
theorem exp_sub_pos (a m : ℝ) : ∃ r : ℝ, 0 < r ∧ Ideal.exp ((a : EReal) - (m : EReal)) = r :=
  ⟨Real.exp (a - m), Real.exp_pos _, by rw [← EReal.coe_sub, Ideal.exp_coe]⟩

/-- Raising the maximum from `M` to `M'` rescales a weight by `exp (M - M')`; at a masked score, and from the empty
    maximum `⊥`, both sides are `0`. -/
theorem exp_shift {x M M' : EReal} (hx : x ≤ M) (hM : M ≤ M') (hM' : M' ≠ ⊤) :
    Ideal.exp (M - M') * Ideal.exp (x - M) = Ideal.exp (x - M') := by
  induction M' using EReal.rec with
  | top => exact absurd rfl hM'
  | bot => obtain rfl := le_bot_iff.mp hM; obtain rfl := le_bot_iff.mp hx; simp
  | coe m' =>
    induction M using EReal.rec with
    | top => exact absurd hM (by simp)
    | bot => obtain rfl := le_bot_iff.mp hx; simp
    | coe m =>
      induction x using EReal.rec with
      | top => exact absurd hx (by simp)
      | bot => simp
      | coe a =>
        rw [← EReal.coe_sub, ← EReal.coe_sub, ← EReal.coe_sub, Ideal.exp_coe, Ideal.exp_coe, Ideal.exp_coe,
          ← EReal.coe_mul, ← Real.exp_add]
        congr 2; ring

/-! ## The closed form over a set of keys, and one absorbed batch -/

variable (t v : κ → EReal)

/-- The maximum score over the keys `U` (`⊥` over no key). -/
def mx (U : Finset κ) : EReal := U.sup t
/-- The normaliser over `U`: the sum of the weights against `U`'s own maximum. -/
def den (U : Finset κ) : EReal := ∑ k ∈ U, Ideal.exp (t k - mx t U)
/-- The weighted sum of one value column over `U`. -/
def num (U : Finset κ) : EReal := ∑ k ∈ U, Ideal.exp (t k - mx t U) * v k

@[simp] theorem mx_empty : mx t ∅ = ⊥ := rfl
@[simp] theorem den_empty : den t ∅ = 0 := rfl
@[simp] theorem num_empty : num t v ∅ = 0 := rfl

theorem mx_union (U T : Finset κ) : mx t (U ∪ T) = max (mx t U) (T.sup t) := Finset.sup_union

variable {t v}

theorem le_mx {U : Finset κ} {k : κ} (hk : k ∈ U) : t k ≤ mx t U := Finset.le_sup (f := t) hk

/-- No score is `⊤`, so no maximum is. -/
theorem mx_ne_top (ht : ∀ k, t k ≠ ⊤) (U : Finset κ) : mx t U ≠ ⊤ :=
  ((Finset.sup_lt_iff (f := t) (s := U) (a := (⊤ : EReal)) bot_lt_top).2 fun k _ => lt_top_iff_ne_top.2 (ht k)).ne

/-- The normaliser over the union of two disjoint key sets: the first set's normaliser rescaled to the joint maximum,
    plus the second set's weights against the joint maximum. -/
theorem den_union (ht : ∀ k, t k ≠ ⊤) {U T : Finset κ} (hd : Disjoint U T) :
    den t (U ∪ T) = Ideal.exp (mx t U - mx t (U ∪ T)) * den t U + ∑ c ∈ T, Ideal.exp (t c - mx t (U ∪ T)) := by
  have hle : mx t U ≤ mx t (U ∪ T) := by rw [mx_union]; exact le_max_left _ _
  have hM' := mx_ne_top ht (U ∪ T)
  obtain ⟨a, -, ha⟩ := exp_sub_real hle hM'
  rw [den, Finset.sum_union hd, den, ha,
    mul_sum_of_real a U _ fun k hk => (exp_sub_real (le_mx hk) (mx_ne_top ht U)).imp fun _ h => h.2]
  refine congrArg (· + _) (Finset.sum_congr rfl fun k hk => ?_)
  rw [← ha, exp_shift (le_mx hk) hle hM']

/-- The weighted sum over the union of two disjoint key sets, in the same form. -/
theorem num_union (ht : ∀ k, t k ≠ ⊤) (hv : ∀ k, ∃ r : ℝ, v k = r) {U T : Finset κ} (hd : Disjoint U T) :
    num t v (U ∪ T)
      = Ideal.exp (mx t U - mx t (U ∪ T)) * num t v U + ∑ c ∈ T, Ideal.exp (t c - mx t (U ∪ T)) * v c := by
  have hle : mx t U ≤ mx t (U ∪ T) := by rw [mx_union]; exact le_max_left _ _
  have hM' := mx_ne_top ht (U ∪ T)
  obtain ⟨a, -, ha⟩ := exp_sub_real hle hM'
  have hreal : ∀ k ∈ U, ∃ r : ℝ, Ideal.exp (t k - mx t U) * v k = r := fun k hk => by
    obtain ⟨e, -, he⟩ := exp_sub_real (le_mx hk) (mx_ne_top ht U)
    obtain ⟨r, hr⟩ := hv k
    exact ⟨e * r, by rw [he, hr, EReal.coe_mul]⟩
  rw [num, Finset.sum_union hd, num, ha, mul_sum_of_real a U _ hreal]
  refine congrArg (· + _) (Finset.sum_congr rfl fun k hk => ?_)
  rw [← ha, ← mul_assoc, exp_shift (le_mx hk) hle hM']

variable (t v)

/-- One step of the recurrence: absorb the batch `T` into the running (maximum, normaliser, weighted sum). -/
def absorb (T : Finset κ) (st : EReal × EReal × EReal) : EReal × EReal × EReal :=
  (max st.1 (T.sup t),
   Ideal.exp (st.1 - max st.1 (T.sup t)) * st.2.1 + ∑ c ∈ T, Ideal.exp (t c - max st.1 (T.sup t)),
   Ideal.exp (st.1 - max st.1 (T.sup t)) * st.2.2 + ∑ c ∈ T, Ideal.exp (t c - max st.1 (T.sup t)) * v c)

/-- The closed form over `U` as a state. -/
def closed (U : Finset κ) : EReal × EReal × EReal := (mx t U, den t U, num t v U)

variable {t v}

/-- Absorbing a batch disjoint from the keys already seen takes the closed form to the closed form. -/
theorem absorb_closed (ht : ∀ k, t k ≠ ⊤) (hv : ∀ k, ∃ r : ℝ, v k = r) {U T : Finset κ} (hd : Disjoint U T) :
    absorb t v T (closed t v U) = closed t v (U ∪ T) := by
  simp only [absorb, closed, ← mx_union]
  rw [← den_union ht hd, ← num_union ht hv hd]

/-- The recurrence run over a list of pairwise disjoint batches from the empty state ends at the closed form over their
    union. -/
theorem foldl_absorb (ht : ∀ k, t k ≠ ⊤) (hv : ∀ k, ∃ r : ℝ, v k = r) :
    ∀ (Ts : List (Finset κ)) (U : Finset κ), (∀ T ∈ Ts, Disjoint U T) → Ts.Pairwise Disjoint →
      Ts.foldl (fun st T => absorb t v T st) (closed t v U) = closed t v (Ts.foldl (· ∪ ·) U)
  | [], _, _, _ => rfl
  | T :: Ts, U, hU, hp => by
    rw [List.foldl_cons, List.foldl_cons, absorb_closed ht hv (hU T (List.mem_cons_self ..))]
    refine foldl_absorb ht hv Ts (U ∪ T) (fun T' hT' => ?_) (List.pairwise_cons.1 hp).2
    exact Finset.disjoint_union_left.2 ⟨hU T' (List.mem_cons_of_mem _ hT'), (List.pairwise_cons.1 hp).1 T' hT'⟩

/-- The empty state is `(⊥, 0, 0)`. -/
theorem closed_empty : closed t v ∅ = (⊥, 0, 0) := rfl

/-! ## Masked keys drop out; the normalised form -/

/-- Keys scored `⊥` do not move the maximum. -/
theorem mx_of_bot {U S : Finset κ} (hUS : U ⊆ S) (hb : ∀ k ∈ S, k ∉ U → t k = ⊥) : mx t S = mx t U := by
  have hS : S = U ∪ (S \ U) := (Finset.union_sdiff_of_subset hUS).symm
  have hbot : (S \ U).sup t = ⊥ :=
    (Finset.sup_eq_bot_iff t (S \ U)).2 fun k hk => hb k (Finset.mem_sdiff.1 hk).1 (Finset.mem_sdiff.1 hk).2
  rw [hS, mx_union, hbot, max_eq_left bot_le]

/-- Keys scored `⊥` add nothing to the normaliser: a batch of masked keys may be left out. -/
theorem den_of_bot {U S : Finset κ} (hUS : U ⊆ S) (hb : ∀ k ∈ S, k ∉ U → t k = ⊥) : den t S = den t U := by
  rw [den, den, mx_of_bot hUS hb]
  exact (Finset.sum_subset hUS fun k hk hkU => by rw [hb k hk hkU, EReal.bot_sub, Ideal.exp_bot]).symm

/-- Keys scored `⊥` add nothing to the weighted sum. -/
theorem num_of_bot {U S : Finset κ} (hUS : U ⊆ S) (hb : ∀ k ∈ S, k ∉ U → t k = ⊥) : num t v S = num t v U := by
  rw [num, num, mx_of_bot hUS hb]
  exact (Finset.sum_subset hUS fun k hk hkU => by rw [hb k hk hkU, EReal.bot_sub, Ideal.exp_bot, zero_mul]).symm

/-- Once some key has a real score, the normaliser is a positive real. -/
theorem den_pos (ht : ∀ k, t k ≠ ⊤) {U : Finset κ} (hne : ∃ k ∈ U, t k ≠ ⊥) : ∃ d : ℝ, 0 < d ∧ den t U = d := by
  choose! e he using fun k (hk : k ∈ U) => exp_sub_real (le_mx (t := t) hk) (mx_ne_top ht U)
  refine ⟨∑ k ∈ U, e k, ?_, ?_⟩
  · obtain ⟨k0, hk0, hb⟩ := hne
    refine Finset.sum_pos' (fun k hk => (he k hk).1) ⟨k0, hk0, ?_⟩
    have hM : mx t U ≠ ⊥ := fun h => hb (le_bot_iff.1 (h ▸ le_mx hk0))
    lift t k0 to ℝ using ⟨ht k0, hb⟩ with a ha
    lift mx t U to ℝ using ⟨mx_ne_top ht U, hM⟩ with m hm
    obtain ⟨r, hr, hre⟩ := exp_sub_pos a m
    have := (he k0 hk0).2
    rw [← ha, hre] at this
    exact (EReal.coe_injective this) ▸ hr
  · rw [den, ← coe_sum]
    exact Finset.sum_congr rfl fun k hk => (he k hk).2

/-- The softmax identity on the extended reals: normalising each weight and then summing against the values is the
    weighted sum divided by the normaliser, as soon as some key has a real score. -/
theorem softmax_eq (ht : ∀ k, t k ≠ ⊤) (hv : ∀ k, ∃ r : ℝ, v k = r) {U : Finset κ} (hne : ∃ k ∈ U, t k ≠ ⊥) :
    ∑ k ∈ U, Ideal.div (Ideal.exp (t k - mx t U)) (den t U) * v k = Ideal.div (num t v U) (den t U) := by
  obtain ⟨d, hd, hden⟩ := den_pos ht hne
  have hreal : ∀ k ∈ U, ∃ r : ℝ, Ideal.exp (t k - mx t U) * v k = r := fun k hk => by
    obtain ⟨e, -, he⟩ := exp_sub_real (le_mx hk) (mx_ne_top ht U)
    obtain ⟨r, hr⟩ := hv k
    exact ⟨e * r, by rw [he, hr, EReal.coe_mul]⟩
  rw [hden]
  simp only [Ideal.div_coe hd.ne']
  rw [num, sum_mul_of_real (1 / d) U _ hreal]
  exact Finset.sum_congr rfl fun k _ => mul_right_comm _ _ _

/-- The whole law in one statement.  A row's scores `t` over all keys `S` (none `⊤`), real values `v`; the recurrence is
    run over pairwise disjoint batches whose union `U ⊆ S` holds every key with a real score, and at least one.  Then the
    final weighted sum divided by the final normaliser is the softmax-weighted sum over ALL of `S`, each weight
    normalised against the maximum and the normaliser over `S`. -/
theorem online_softmax (ht : ∀ k, t k ≠ ⊤) (hv : ∀ k, ∃ r : ℝ, v k = r) (Ts : List (Finset κ)) (hp : Ts.Pairwise Disjoint)
    {S : Finset κ} (hUS : Ts.foldl (· ∪ ·) ∅ ⊆ S) (hb : ∀ k ∈ S, k ∉ Ts.foldl (· ∪ ·) ∅ → t k = ⊥)
    (hne : ∃ k ∈ S, t k ≠ ⊥) :
    Ideal.div (Ts.foldl (fun st T => absorb t v T st) (⊥, 0, 0)).2.2 (Ts.foldl (fun st T => absorb t v T st) (⊥, 0, 0)).2.1
      = ∑ k ∈ S, Ideal.div (Ideal.exp (t k - mx t S)) (den t S) * v k := by
  rw [← closed_empty (t := t) (v := v), foldl_absorb ht hv Ts ∅ (fun T _ => Finset.disjoint_empty_left T) hp,
    softmax_eq ht hv hne]
  simp only [closed]
  rw [num_of_bot hUS hb, den_of_bot hUS hb]

end Cert.Lib.OnlineSoftmax

end
-- ==== Proof.AttnSpec.lean ====
/-
  The function both programs compute, index by index, on the extended reals.

  From `x : [4, 2048, 1024]`, `wq : [3072, 1024]` and `wo : [1024, 1024]`:
  * the projection `proj b t f = ∑ c, x[b,t,c] * wq[f,c]`; its 3072 columns are three stacks (queries, keys, values) of 16 heads
    of 64 lanes, column `s * 1024 + h * 64 + d`;
  * the score of query row `q` against key row `k` in head `h`: the 64-lane dot product times the f32 word of 1/8;
    a key after the query is masked: its score is `⊥`;
  * the attention output of head `h`, lane `d`: the softmax-weighted sum of the value rows, each weight
    `exp (s_k - max) / ∑ exp (s_j - max)` over all 2048 keys (the masked ones weigh `0`);
  * the output projection `out b t f = ∑ c, attn b (c / 64) t (c % 64) * wo[f,c]`.
-/
import Idealize.ShloMosaic.PureOps.Ideal
import Idealize.ShloMosaic.Lib.ValueIdx
import proofs.«109116_j51110110822880_2_alg».proof.Proof.LibOnlineSoftmax

noncomputable section

namespace Cert.AttnSpec

open Idealize.ShloMosaic Idealize.ShloMosaic.ValueIdx Cert.Lib.OnlineSoftmax
open scoped BigOperators

abbrev SX : Shape := ⟨3, ![4, 2048, 1024]⟩
abbrev SWq : Shape := ⟨2, ![3072, 1024]⟩
abbrev SWo : Shape := ⟨2, ![1024, 1024]⟩

variable (x : SX.Idx → EReal) (wq : SWq.Idx → EReal) (wo : SWo.Idx → EReal)

/-- The f32 word of 1/8, the score scale both programs carry. -/
abbrev scale : EReal := Ideal.ofBits .f32 0x3E000000#32

/-- Column `s * 1024 + h * 64 + d` of the projection: stack `s` (0 queries, 1 keys, 2 values), head `h`, lane `d`. -/
def col (s : Fin 3) (h : Fin 16) (d : Fin 64) : Fin 3072 :=
  ⟨s.val * 1024 + h.val * 64 + d.val, by have := s.isLt; have := h.isLt; have := d.isLt; omega⟩

/-- The input projection at row `(b, t)`, column `f`. -/
def proj (b : Fin 4) (t : Fin 2048) (f : Fin 3072) : EReal :=
  ∑ c : Fin 1024, x (ix3 b t c) * wq (ix2 f c)

/-- The scaled score of query row `q` against key row `k` in head `h` of batch `b`. -/
def score (b : Fin 4) (h : Fin 16) (q k : Fin 2048) : EReal :=
  (∑ d : Fin 64, proj x wq b q (col 0 h d) * proj x wq b k (col 1 h d)) * scale

/-- The causally masked score: a key after the query scores `⊥`. -/
def masked (b : Fin 4) (h : Fin 16) (q : Fin 2048) (k : Fin 2048) : EReal :=
  if k.val ≤ q.val then score x wq b h q k else ⊥

/-- The value rows of head `h`, lane `d`. -/
def value (b : Fin 4) (h : Fin 16) (d : Fin 64) (k : Fin 2048) : EReal := proj x wq b k (col 2 h d)

/-- The attention output: the softmax-weighted sum of the value rows over all keys. -/
def attn (b : Fin 4) (h : Fin 16) (q : Fin 2048) (d : Fin 64) : EReal :=
  ∑ k : Fin 2048, Ideal.div (Ideal.exp (masked x wq b h q k - mx (masked x wq b h q) Finset.univ))
      (den (masked x wq b h q) Finset.univ) * value x wq b h d k

/-- Head and lane of a merged column `c = h * 64 + d`. -/
def headOf (c : Fin 1024) : Fin 16 := ⟨c.val / 64, by have := c.isLt; omega⟩
def laneOf (c : Fin 1024) : Fin 64 := ⟨c.val % 64, Nat.mod_lt _ (by decide)⟩

/-- The result: the output projection of the merged heads. -/
def out (b : Fin 4) (t : Fin 2048) (f : Fin 1024) : EReal :=
  ∑ c : Fin 1024, attn x wq b (headOf c) t (laneOf c) * wo (ix2 f c)

/-- The result as one array. -/
def G : SX.Idx → EReal := fun i => out x wq wo (i 0) (i 1) (i 2)

end Cert.AttnSpec

end
-- ==== Proof.RefRead.lean ====
/-
  The reference's result read at an index.

  Each stage of the reference program is read at explicit coordinates (batch `b`, head `h`, query row `q`, key row `k`,
  lane `d`) and identified with the corresponding stage of the specification: the projection, its three stacks split
  into heads, the scaled scores, the causal mask, the row maximum, the normaliser, the softmax-weighted sum of the
  value rows, and the output projection of the merged heads.
-/
import proofs.«109116_j51110110822880_2_alg».proof.Proof.Gen.ReferenceIdeal.Read
import Idealize.ShloMosaic.Lib.ValueIdx
import Idealize.ShloMosaic.PureOps.Ideal.Laws
import Idealize.ShloMosaic.Lib.Affine
import proofs.«109116_j51110110822880_2_alg».proof.Proof.AttnSpec

noncomputable section

namespace Cert.ReferenceIdeal.RefRead

open Idealize.ShloMosaic Idealize.ShloMosaic.ValueIdx Cert.ReferenceIdeal Cert.AttnSpec Cert.Lib.OnlineSoftmax
open scoped BigOperators

variable (x0 : (⟨S4x2048x1024, .f32⟩ : BufTy).Contents (Elt Ideal)) (x1 : (⟨S3072x1024, .f32⟩ : BufTy).Contents (Elt Ideal))

/-! ## The projection and its three stacks -/

/-- The first matrix product is the input projection. -/
theorem v0_at (b : Fin 4) (t : Fin 2048) (f : Fin 3072) :
    Read.val_main_v0 (F := Ideal) x0 x1 (ix3 b t f) = proj x0 x1 b t f := by
  rw [Read.val_main_v0_apply]
  unfold proj
  refine Finset.sum_congr rfl fun c _ => ?_
  have h1 : Read.lidx_main_v0 (ix3 b t f) c = ix3 b t c :=
    funext fun a => Fin.ext (by match a with | ⟨0, _⟩ => rfl | ⟨1, _⟩ => rfl | ⟨2, _⟩ => rfl)
  have h2 : Read.ridx_main_v0 (ix3 b t f) c = ix2 f c :=
    funext fun a => Fin.ext (by match a with | ⟨0, _⟩ => rfl | ⟨1, _⟩ => rfl)
  rw [h1, h2]

/-- The queries: head `h`, lane `d` of row `t` is column `h * 64 + d` of the first stack. -/
theorem v5_at (b : Fin 4) (h : Fin 16) (t : Fin 2048) (d : Fin 64) :
    Read.val_main_v5 (F := Ideal) x0 x1 (ix4 b h t d) = proj x0 x1 b t (col 0 h d) := by
  rw [Read.val_main_v5_apply, Read.val_main_v4_apply, Read.val_main_v1_apply, ← v0_at]
  congr 1
  have hb := b.isLt; have hh := h.isLt; have ht := t.isLt; have hd := d.isLt
  funext a
  refine Fin.ext ?_
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show (((b.val * 2048 + t.val) * 16 + h.val) * 64 + d.val) % 1024 = 0 * 1024 + h.val * 64 + d.val; omega

/-- The keys: the second stack. -/
theorem v7_at (b : Fin 4) (h : Fin 16) (t : Fin 2048) (d : Fin 64) :
    Read.val_main_v7 (F := Ideal) x0 x1 (ix4 b h t d) = proj x0 x1 b t (col 1 h d) := by
  rw [Read.val_main_v7_apply, Read.val_main_v6_apply, Read.val_main_v2_apply, ← v0_at]
  congr 1
  have hb := b.isLt; have hh := h.isLt; have ht := t.isLt; have hd := d.isLt
  funext a
  refine Fin.ext ?_
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show 1024 + (((b.val * 2048 + t.val) * 16 + h.val) * 64 + d.val) % 1024 = 1 * 1024 + h.val * 64 + d.val; omega

/-- The values: the third stack. -/
theorem v9_at (b : Fin 4) (h : Fin 16) (t : Fin 2048) (d : Fin 64) :
    Read.val_main_v9 (F := Ideal) x0 x1 (ix4 b h t d) = proj x0 x1 b t (col 2 h d) := by
  rw [Read.val_main_v9_apply, Read.val_main_v8_apply, Read.val_main_v3_apply, ← v0_at]
  congr 1
  have hb := b.isLt; have hh := h.isLt; have ht := t.isLt; have hd := d.isLt
  funext a
  refine Fin.ext ?_
  match a with
  | ⟨0, _⟩ => show (((b.val * 2048 + t.val) * 16 + h.val) * 64 + d.val) / 2097152 = b.val; omega
  | ⟨1, _⟩ => show (((b.val * 2048 + t.val) * 16 + h.val) * 64 + d.val) / 1024 % 2048 = t.val; omega
  | ⟨2, _⟩ => show 2048 + (((b.val * 2048 + t.val) * 16 + h.val) * 64 + d.val) % 1024 = 2 * 1024 + h.val * 64 + d.val; omega

/-! ## The scaled scores -/

/-- The second matrix product times the splat of the scale word is the scaled score. -/
theorem v12_at (b : Fin 4) (h : Fin 16) (q k : Fin 2048) :
    Read.val_main_v12 (F := Ideal) x0 x1 (ix4 b h q k) = score x0 x1 b h q k := by
  rw [Read.val_main_v12_apply, Read.val_main_v11_apply, Read.val_main_cst_apply, Read.val_main_v10_apply,
    Ideal.mulf_def, Ideal.ofBits_def]
  unfold score
  congr 1
  refine Finset.sum_congr rfl fun d _ => ?_
  have h1 : Read.lidx_main_v10 (ix4 b h q k) d = ix4 b h q d :=
    funext fun a => Fin.ext (by match a with | ⟨0, _⟩ => rfl | ⟨1, _⟩ => rfl | ⟨2, _⟩ => rfl | ⟨3, _⟩ => rfl)
  have h2 : Read.ridx_main_v10 (ix4 b h q k) d = ix4 b h k d :=
    funext fun a => Fin.ext (by match a with | ⟨0, _⟩ => rfl | ⟨1, _⟩ => rfl | ⟨2, _⟩ => rfl | ⟨3, _⟩ => rfl)
  rw [h1, h2, v5_at, v7_at]

/-! ## The causal mask -/

/-- A natural number below 2048, written as a 32-bit word and read back signed, is itself. -/
theorem toInt_ofNat_small (n : Nat) (hn : n < 2048) : (BitVec.ofNat 32 n).toInt = (n : Int) := by
  have hmod : n % 2 ^ 32 = n := Nat.mod_eq_of_lt (by omega)
  rw [BitVec.toInt_eq_toNat_cond, BitVec.toNat_ofNat, hmod, if_pos (by omega)]

/-- The lower-triangular mask: the row counter (plus the zero offset) compared signed against the column counter
    keeps key `k` for query `q` exactly when `k ≤ q`. -/
theorem mask_at (b : Fin 4) (h : Fin 16) (q k : Fin 2048) :
    Read.val_main_call1_v1 (F := Ideal) (ix4 b h q k) = if k.val ≤ q.val then 1#1 else 0#1 := by
  rw [Read.val_main_call1_v1_apply, Read.val_main_v15_apply, Read.val_main_v14_apply, Read.val_main_v13_apply,
    Read.val_main_c_apply, Read.val_main_call0_v5_apply, Read.val_main_call0_c_0_apply, Read.val_main_call0_v4_apply,
    Read.val_main_call0_v2_apply, Read.val_main_call0_v0_apply, Read.val_main_call0_v1_apply,
    Read.val_main_call0_c_apply, Read.val_main_call0_v3_apply]
  show Scalar.select (IntOp.cmpi .sge (IntOp.addi (BitVec.ofNat 32 q.val) 0#32) (BitVec.ofNat 32 k.val)) 1#1 0#1 = _
  have key : IntOp.cmpi .sge (IntOp.addi (BitVec.ofNat 32 q.val) 0#32) (BitVec.ofNat 32 k.val) = 1#1 ↔ k.val ≤ q.val := by
    have h0 : IntOp.addi (BitVec.ofNat 32 q.val) 0#32 = BitVec.ofNat 32 q.val := by
      show BitVec.ofNat 32 q.val + 0#32 = _
      exact BitVec.add_zero _
    rw [IntOp.cmpi_sge, h0, toInt_ofNat_small _ q.isLt, toInt_ofNat_small _ k.isLt]
    exact Int.ofNat_le
  by_cases hkq : k.val ≤ q.val
  · rw [if_pos hkq, key.mpr hkq]; exact select_one _ _
  · rw [if_neg hkq, eq_zero_of_ne_one (fun hc => hkq (key.mp hc))]; exact select_zero _ _

/-- The word of the fill value is `⊥`. -/
theorem fill_eq_bot : Ideal.ofBits .f32 0xFF800000#32 = (⊥ : EReal) := by
  simp [Ideal.ofBits, Ideal.ieee]

/-- The masked scores. -/
theorem v16_at (b : Fin 4) (h : Fin 16) (q k : Fin 2048) :
    Read.val_main_v16 (F := Ideal) x0 x1 (ix4 b h q k) = masked x0 x1 b h q k := by
  rw [Read.val_main_v16_apply, mask_at, v12_at, Read.val_main_call1_v2_apply, Read.val_main_call1_v0_apply,
    Read.val_main_cst_0_apply, Ideal.ofBits_def, fill_eq_bot]
  unfold masked
  by_cases hkq : k.val ≤ q.val
  · rw [if_pos hkq, if_pos hkq]; exact select_one _ _
  · rw [if_neg hkq, if_neg hkq]; exact select_zero _ _

/-! ## The row maximum -/

/-- The scores' shape with its last axis dropped is the rows' shape. -/
theorem red_d3 : S4x16x2048x2048.Reduces [3] S4x16x2048 := by decide

/-- The row `(b, h, q)` with key `k` put back on the dropped axis is `(b, h, q, k)`. -/
theorem lift_ix3 (b : Fin 4) (h : Fin 16) (q : Fin 2048) (k : Fin (S4x16x2048x2048.size 3)) :
    red_d3.lift (ix3 b h q) k = ix4 b h q (⟨k.val, k.isLt⟩ : Fin 2048) := by
  funext c
  apply Fin.ext
  match c with
  | ⟨0, _⟩ => rfl
  | ⟨1, _⟩ => rfl
  | ⟨2, _⟩ => rfl
  | ⟨3, _⟩ => rfl

/-- The maximum-reduce from `⊥` over the keys is the supremum of the row of masked scores. -/
theorem v17_at (b : Fin 4) (h : Fin 16) (q : Fin 2048) :
    Read.val_main_v17 (F := Ideal) x0 x1 (ix3 b h q) = mx (masked x0 x1 b h q) Finset.univ := by
  unfold Read.val_main_v17
  rw [Host.reduce_eq_fold_single FloatOps.maximumf _ _ Gen.reducesTo_S4x16x2048x2048_S4x16x2048_d3 red_d3 Gen.h_S_]
  have hf : (Read.val_main_v16 (F := Ideal) x0 x1 ∘ red_d3.lift (ix3 b h q))
      = fun k : Fin 2048 => masked x0 x1 b h q k :=
    funext fun k => by
      show Read.val_main_v16 (F := Ideal) x0 x1 (red_d3.lift (ix3 b h q) k) = _
      rw [lift_ix3, v16_at]
      rfl
  rw [hf, Read.val_main_cst_1_apply, Ideal.ofBits_def, fill_eq_bot]
  rfl

/-- Taking the maximum with the splat of `⊥` changes nothing. -/
theorem v19_at (b : Fin 4) (h : Fin 16) (q : Fin 2048) :
    Read.val_main_v19 (F := Ideal) x0 x1 (ix3 b h q) = mx (masked x0 x1 b h q) Finset.univ := by
  rw [Read.val_main_v19_apply, Read.val_main_v18_apply, Read.val_main_cst_2_apply, v17_at, Ideal.maximumf_def,
    Ideal.ofBits_def, fill_eq_bot]
  exact max_bot_left _

/-! ## The weights and the normaliser -/

/-- The weight of key `k`: the exponential of its masked score less the row maximum. -/
theorem v23_at (b : Fin 4) (h : Fin 16) (q k : Fin 2048) :
    Read.val_main_v23 (F := Ideal) x0 x1 (ix4 b h q k)
      = Ideal.exp (masked x0 x1 b h q k - mx (masked x0 x1 b h q) Finset.univ) := by
  rw [Read.val_main_v23_apply, Read.val_main_v22_apply, Read.val_main_v21_apply, Read.val_main_v20_apply,
    Ideal.hostUnary_exp_def, Ideal.subf_def, v16_at]
  have hi : Read.idx_main_v20 (Read.idx_main_v21 (ix4 b h q k)) = ix3 b h q :=
    funext fun a => Fin.ext (by match a with | ⟨0, _⟩ => rfl | ⟨1, _⟩ => rfl | ⟨2, _⟩ => rfl)
  rw [hi, v19_at]

/-- The sum-reduce from `0` over the keys is the normaliser. -/
theorem v24_at (b : Fin 4) (h : Fin 16) (q : Fin 2048) :
    Read.val_main_v24 (F := Ideal) x0 x1 (ix3 b h q) = den (masked x0 x1 b h q) Finset.univ := by
  rw [Read.val_main_v24_apply, Read.val_main_cst_3_apply, Ideal.ofBits_def, Ideal.ofBits_zero_f32, zero_add]
  unfold den
  refine Finset.sum_congr rfl fun k _ => ?_
  have hi : Read.idx_main_v24 (ix3 b h q) k = ix4 b h q k :=
    funext fun a => Fin.ext (by match a with | ⟨0, _⟩ => rfl | ⟨1, _⟩ => rfl | ⟨2, _⟩ => rfl | ⟨3, _⟩ => rfl)
  rw [hi, v23_at]

/-- The normalised weight of key `k`. -/
theorem v27_at (b : Fin 4) (h : Fin 16) (q k : Fin 2048) :
    Read.val_main_v27 (F := Ideal) x0 x1 (ix4 b h q k)
      = Ideal.div (Ideal.exp (masked x0 x1 b h q k - mx (masked x0 x1 b h q) Finset.univ))
          (den (masked x0 x1 b h q) Finset.univ) := by
  rw [Read.val_main_v27_apply, Read.val_main_v26_apply, Read.val_main_v25_apply, Ideal.hostDivf_def, v23_at]
  have hi : Read.idx_main_v25 (Read.idx_main_v26 (ix4 b h q k)) = ix3 b h q :=
    funext fun a => Fin.ext (by match a with | ⟨0, _⟩ => rfl | ⟨1, _⟩ => rfl | ⟨2, _⟩ => rfl)
  rw [hi, v24_at]

/-! ## The attention output and the output projection -/

/-- The third matrix product is the softmax-weighted sum of the value rows. -/
theorem v28_at (b : Fin 4) (h : Fin 16) (q : Fin 2048) (d : Fin 64) :
    Read.val_main_v28 (F := Ideal) x0 x1 (ix4 b h q d) = attn x0 x1 b h q d := by
  rw [Read.val_main_v28_apply]
  unfold attn value
  refine Finset.sum_congr rfl fun k _ => ?_
  have h1 : Read.lidx_main_v28 (ix4 b h q d) k = ix4 b h q k :=
    funext fun a => Fin.ext (by match a with | ⟨0, _⟩ => rfl | ⟨1, _⟩ => rfl | ⟨2, _⟩ => rfl | ⟨3, _⟩ => rfl)
  have h2 : Read.ridx_main_v28 (ix4 b h q d) k = ix4 b h k d :=
    funext fun a => Fin.ext (by match a with | ⟨0, _⟩ => rfl | ⟨1, _⟩ => rfl | ⟨2, _⟩ => rfl | ⟨3, _⟩ => rfl)
  rw [h1, h2, v27_at, v9_at]

/-- The heads merged back: column `c` of row `t` is head `c / 64`, lane `c % 64`. -/
theorem v30_at (b : Fin 4) (t : Fin 2048) (c : Fin 1024) :
    Read.val_main_v30 (F := Ideal) x0 x1 (ix3 b t c) = attn x0 x1 b (headOf c) t (laneOf c) := by
  rw [Read.val_main_v30_apply, Read.val_main_v29_apply, ← v28_at]
  congr 1
  have hb := b.isLt; have ht := t.isLt; have hc := c.isLt
  funext a
  refine Fin.ext ?_
  match a with
  | ⟨0, _⟩ => show ((b.val * 2048 + t.val) * 1024 + c.val) / 2097152 = b.val; omega
  | ⟨1, _⟩ => show ((b.val * 2048 + t.val) * 1024 + c.val) / 64 % 16 = c.val / 64; omega
  | ⟨2, _⟩ => show ((b.val * 2048 + t.val) * 1024 + c.val) / 1024 % 2048 = t.val; omega
  | ⟨3, _⟩ => show ((b.val * 2048 + t.val) * 1024 + c.val) % 64 = c.val % 64; omega

/-- The last matrix product is the output projection. -/
theorem v31_at (x2 : (⟨S1024x1024, .f32⟩ : BufTy).Contents (Elt Ideal)) (b : Fin 4) (t : Fin 2048) (f : Fin 1024) :
    Read.val_main_v31 (F := Ideal) x0 x1 x2 (ix3 b t f) = out x0 x1 x2 b t f := by
  rw [Read.val_main_v31_apply]
  unfold out
  refine Finset.sum_congr rfl fun c _ => ?_
  have h1 : Read.lidx_main_v31 (ix3 b t f) c = ix3 b t c :=
    funext fun a => Fin.ext (by match a with | ⟨0, _⟩ => rfl | ⟨1, _⟩ => rfl | ⟨2, _⟩ => rfl)
  have h2 : Read.ridx_main_v31 (ix3 b t f) c = ix2 f c :=
    funext fun a => Fin.ext (by match a with | ⟨0, _⟩ => rfl | ⟨1, _⟩ => rfl)
  rw [h1, h2, v30_at]

/-- The reference program's result is the specification. -/
theorem ref_eq_G (x2 : (⟨S1024x1024, .f32⟩ : BufTy).Contents (Elt Ideal)) :
    Read.val_main_v31 (F := Ideal) x0 x1 x2 = G x0 x1 x2 := by
  funext i
  obtain ⟨b, t, f, rfl⟩ : ∃ b t f, i = ix3 b t f := ⟨i 0, i 1, i 2, eq_ix3 i⟩
  exact v31_at x0 x1 x2 b t f

end Cert.ReferenceIdeal.RefRead

end
-- ==== Proof.K.FlashRuns.lean ====
/-
  The attention region (the second of the three kernel regions): what its five cases are stated over.

  The grid is (batch, query tile, key tile) = 4 x 4 x 4, 64 points in row-major order, so point t has key tile t % 4 and
  query tile (t / 4) % 4.  Three conditions on the point decide what the body does:
    * the FIRST key tile (t % 4 = 0): the running maximum, normaliser and accumulator are reset;
    * a key tile at or below the diagonal (t % 4 ≤ (t / 4) % 4): the tile is absorbed into the running state, head by head;
    * the LAST key tile (t % 4 = 3): the accumulator divided by the normaliser is written to the output block.
  The output window is idle, and not written back, except at the last key tile.  The three input windows (queries,
  keys, values) read ONE array, the reshaped projection, at blocks (b, qi, 0), (b, min ki qi, 1), (b, min ki qi, 2).
-/
import proofs.«109116_j51110110822880_2_alg».proof.Proof.Gen.Kernel.Launch
import proofs.«109116_j51110110822880_2_alg».proof.Proof.Gen.Kernel.Skeleton
import proofs.«109116_j51110110822880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's, likewise: where it is not fetched the clamped block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's three conditions, decided over the grid -/

/-- The first key tile: the running state is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key tile starts at or before the query tile's last row: the tile is absorbed. -/
abbrev cond1_1 (i : grid1.Coords) : Prop := (Scalar.cmpi .ne (Scalar.extui (Scalar.cmpi .sle (Scalar.muli (BitVec.ofNat 32 (i 2).val) 512#32) (Scalar.subi (Scalar.addi (Scalar.muli (BitVec.ofNat 32 (i 1).val) 512#32) 512#32) 1#32))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- The last key tile: the output block is written. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle: nothing is stored into it, -/
theorem idleAt1_3 : ∀ t : Fin cfg1.N, ¬cond1_2 (grid1.coords t) → cfg1.idle 3 (grid1.coords t) = true := by decide +kernel
/-- and it is not written back; -/
theorem noFlush1_3 : ∀ t : Fin cfg1.N, ¬cond1_2 (grid1.coords t) → (cfg1.win 3).flush t = false := by decide +kernel
/-- at the last key tile it is live. -/
theorem liveAt1_3 : ∀ t : Fin cfg1.N, cond1_2 (grid1.coords t) → cfg1.idle 3 (grid1.coords t) = false := by decide +kernel

/-! ## The staging and scratch memrefs the body is called with -/

abbrev ms1_0 (t : Fin cfg1.N) : Memref sig .tc .vmem S1x512x1x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1x16x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x16x64 .f32 := win1_3.stage (cfg1.slots t 3)
abbrev hs1_3 (t : Fin cfg1.N) : (ms1_3 t).IsWhole := hstage1_3 ((cfg1.slots t 3).cast nbuf1_3)
/-- The three scratch buffers carried between points: the running maximum, the normaliser, the accumulator. -/
abbrev scM1_0 : Memref sig .tc .vmem S512x16x1 .f32 := Memref.whole cc1_scratch0
abbrev scM1_1 : Memref sig .tc .vmem S512x16x1 .f32 := Memref.whole cc1_scratch1
abbrev scM1_2 : Memref sig .tc .vmem S512x16x64 .f32 := Memref.whole cc1_scratch2
abbrev VS1_0 : View sig .tc .vmem S512x16x1 .f32 := scM1_0.view
abbrev VS1_1 : View sig .tc .vmem S512x16x1 .f32 := scM1_1.view
abbrev VS1_2 : View sig .tc .vmem S512x16x64 .f32 := scM1_2.view
/-- One staging buffer of the output window, through which its contents are stated. -/
abbrev VO1_3 : View sig .tc .vmem S1x512x16x64 .f32 := (Memref.whole cc1_stg3_0 : Memref sig .tc .vmem S1x512x16x64 .f32).view

end Cert.Kernel.Hand

end
-- ==== Proof.K.FlashRunA.lean ====
/-
  The attention body in case A: the FIRST key tile (it is always at or below the diagonal, and never the last): the running state is reset, then the tile is absorbed head by head.  The body is run step by step from these
  contents; what each written buffer ends with is the list of its stores, last store first.
-/
import proofs.«109116_j51110110822880_2_alg».proof.Proof.K.FlashRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
noncomputable def kernelRun1_A (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : cond1_0 i) (hc1 : cond1_1 i) (hc2 : ¬cond1_2 i)
    (x0 x1 x2 : Vec F S1x512x1x16x64 .f32)  :
    Σ' (LS0 : List (View.Piece (Elt F) S512x16x1 .f32)) (LS1 : List (View.Piece (Elt F) S512x16x1 .f32)), { LS2 : List (View.Piece (Elt F) S512x16x64 .f32) //
      ∀ (xi3 : Vec F S1x512x16x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunB.lean ====
/-
  The attention body in case B: a key tile after the first, at or below the diagonal, not the last: the tile is absorbed into the carried state head by head.  The body is run step by step from these
  contents; what each written buffer ends with is the list of its stores, last store first.
-/
import proofs.«109116_j51110110822880_2_alg».proof.Proof.K.FlashRunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
noncomputable def kernelRun1_B (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : ¬cond1_0 i) (hc1 : cond1_1 i) (hc2 : ¬cond1_2 i)
    (x0 x1 x2 : Vec F S1x512x1x16x64 .f32) (xs0 xs1 : Vec F S512x16x1 .f32) (xs2 : Vec F S512x16x64 .f32) :
    Σ' (LS0 : List (View.Piece (Elt F) S512x16x1 .f32)) (LS1 : List (View.Piece (Elt F) S512x16x1 .f32)), { LS2 : List (View.Piece (Elt F) S512x16x64 .f32) //
      ∀ (xi3 : Vec F S1x512x16x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.FlashRunC.lean ====
/-
  The attention body in case C: a key tile after the first, above the diagonal, not the last.  None of the three
  branches is taken: the body returns at once, touching nothing.
-/
import proofs.«109116_j51110110822880_2_alg».proof.Proof.K.FlashRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1_C (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  iintro Hk
  sl_exec (disch := first | exact hc0 | exact hc1 | exact hc2)
  sl_step
  iexact Hk

end Cert.Kernel.Hand

end
-- ==== Proof.K.FlashRunD.lean ====
/-
  The attention body in case D: the LAST key tile on the diagonal: the tile is absorbed, then the accumulator divided by the normaliser is stored into the output block.  The body is run step by step from these
  contents; what each written buffer ends with is the list of its stores, last store first.
-/
import proofs.«109116_j51110110822880_2_alg».proof.Proof.K.FlashRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
noncomputable def kernelRun1_D (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : ¬cond1_0 i) (hc1 : cond1_1 i) (hc2 : cond1_2 i)
    (x0 x1 x2 : Vec F S1x512x1x16x64 .f32) (xs0 xs1 : Vec F S512x16x1 .f32) (xs2 : Vec F S512x16x64 .f32) :
    Σ' (L3 : List (View.Piece (Elt F) S1x512x16x64 .f32)) (LS0 : List (View.Piece (Elt F) S512x16x1 .f32)) (LS1 : List (View.Piece (Elt F) S512x16x1 .f32)), { LS2 : List (View.Piece (Elt F) S512x16x64 .f32) //
      ∀  (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.FlashRunE.lean ====
/-
  The attention body in case E: the LAST key tile above the diagonal: nothing is absorbed; the accumulator divided by the normaliser is stored into the output block, the carried state left as it was.  The body is run step by step from these
  contents; what each written buffer ends with is the list of its stores, last store first.
-/
import proofs.«109116_j51110110822880_2_alg».proof.Proof.K.FlashRunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
noncomputable def kernelRun1_E (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : ¬cond1_0 i) (hc1 : ¬cond1_1 i) (hc2 : cond1_2 i)
    (x0 x1 x2 : Vec F S1x512x1x16x64 .f32) (xs0 xs1 : Vec F S512x16x1 .f32) (xs2 : Vec F S512x16x64 .f32) :
    { L3 : List (View.Piece (Elt F) S1x512x16x64 .f32) //
      ∀  (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0
                ∗ owns (c : Thread nD τ) arg8 fullShare xs1
                ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.FlashOuts.lean ====
/-
  The attention region: what each case of the body leaves in the buffers it writes — the output block and the three
  scratch buffers (running maximum, normaliser, accumulator) — as its stores read back, with the fact that those
  stores cover the buffer: the reset stores the whole buffer, the per-head stores are sixteen blocks [512, 1, ·] that
  tile it.  A case that stores nothing into a buffer leaves it as it was and has no entry here.
-/
import proofs.«109116_j51110110822880_2_alg».proof.Proof.K.FlashRunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

variable (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole)

/-- Case A's stores into the running maximum cover it. -/
theorem scover1_A_0 (hc0 : cond1_0 i) (hc1 : cond1_1 i) (hc2 : ¬cond1_2 i) (x0 x1 x2 : Vec F S1x512x1x16x64 .f32) (y : S512x16x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S512x16x1.size (by sl_kernel_rfl) y
/-- What case A leaves there: its stores read back. -/
def sout1_A_0 (hc0 : cond1_0 i) (hc1 : cond1_1 i) (hc2 : ¬cond1_2 i) (x0 x1 x2 : Vec F S1x512x1x16x64 .f32) : Vec F S512x16x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

/-- Case A's stores into the normaliser cover it. -/
theorem scover1_A_1 (hc0 : cond1_0 i) (hc1 : cond1_1 i) (hc2 : ¬cond1_2 i) (x0 x1 x2 : Vec F S1x512x1x16x64 .f32) (y : S512x16x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x16x1.size (by sl_kernel_rfl) y
/-- What case A leaves there: its stores read back. -/
def sout1_A_1 (hc0 : cond1_0 i) (hc1 : cond1_1 i) (hc2 : ¬cond1_2 i) (x0 x1 x2 : Vec F S1x512x1x16x64 .f32) : Vec F S512x16x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

/-- Case A's stores into the accumulator cover it. -/
theorem scover1_A_2 (hc0 : cond1_0 i) (hc1 : cond1_1 i) (hc2 : ¬cond1_2 i) (x0 x1 x2 : Vec F S1x512x1x16x64 .f32) (y : S512x16x64.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x16x64.size (by sl_kernel_rfl) y
/-- What case A leaves there: its stores read back. -/
def sout1_A_2 (hc0 : cond1_0 i) (hc1 : cond1_1 i) (hc2 : ¬cond1_2 i) (x0 x1 x2 : Vec F S1x512x1x16x64 .f32) : Vec F S512x16x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- Case B's stores into the running maximum cover it. -/
theorem scover1_B_0 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) (y : S512x16x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S512x1x1.size (by sl_kernel_rfl) y
/-- What case B leaves there: its stores read back. -/
def sout1_B_0 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) : Vec F S512x16x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

/-- Case B's stores into the normaliser cover it. -/
theorem scover1_B_1 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) (y : S512x16x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1x1.size (by sl_kernel_rfl) y
/-- What case B leaves there: its stores read back. -/
def sout1_B_1 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) : Vec F S512x16x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

/-- Case B's stores into the accumulator cover it. -/
theorem scover1_B_2 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) (y : S512x16x64.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1x64.size (by sl_kernel_rfl) y
/-- What case B leaves there: its stores read back. -/
def sout1_B_2 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) : Vec F S512x16x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- Case D's stores into the output block cover it. -/
theorem cover1_D_3 (hc0 : ¬cond1_0 i) (hc1 : cond1_1 i) (hc2 : cond1_2 i) (x0 x1 x2 : Vec F S1x512x1x16x64 .f32) (xs0 xs1 : Vec F S512x16x1 .f32) (xs2 : Vec F S512x16x64 .f32) (y : S1x512x16x64.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).1 S1x512x16x64.size (by sl_kernel_rfl) y
/-- What case D leaves there: its stores read back. -/
def out1_D_3 (hc0 : ¬cond1_0 i) (hc1 : cond1_1 i) (hc2 : cond1_2 i) (x0 x1 x2 : Vec F S1x512x1x16x64 .f32) (xs0 xs1 : Vec F S512x16x1 .f32) (xs2 : Vec F S512x16x64 .f32) : Vec F S1x512x16x64 .f32 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1)

/-- Case D's stores into the running maximum cover it. -/
theorem scover1_D_0 (hc0 : ¬cond1_0 i) (hc1 : cond1_1 i) (hc2 : cond1_2 i) (x0 x1 x2 : Vec F S1x512x1x16x64 .f32) (xs0 xs1 : Vec F S512x16x1 .f32) (xs2 : Vec F S512x16x64 .f32) (y : S512x16x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.1 S512x1x1.size (by sl_kernel_rfl) y
/-- What case D leaves there: its stores read back. -/
def sout1_D_0 (hc0 : ¬cond1_0 i) (hc1 : cond1_1 i) (hc2 : cond1_2 i) (x0 x1 x2 : Vec F S1x512x1x16x64 .f32) (xs0 xs1 : Vec F S512x16x1 .f32) (xs2 : Vec F S512x16x64 .f32) : Vec F S512x16x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).2.1)

/-- Case D's stores into the normaliser cover it. -/
theorem scover1_D_1 (hc0 : ¬cond1_0 i) (hc1 : cond1_1 i) (hc2 : cond1_2 i) (x0 x1 x2 : Vec F S1x512x1x16x64 .f32) (xs0 xs1 : Vec F S512x16x1 .f32) (xs2 : Vec F S512x16x64 .f32) (y : S512x16x1.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.1 S512x1x1.size (by sl_kernel_rfl) y
/-- What case D leaves there: its stores read back. -/
def sout1_D_1 (hc0 : ¬cond1_0 i) (hc1 : cond1_1 i) (hc2 : cond1_2 i) (x0 x1 x2 : Vec F S1x512x1x16x64 .f32) (xs0 xs1 : Vec F S512x16x1 .f32) (xs2 : Vec F S512x16x64 .f32) : Vec F S512x16x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.2.1)

/-- Case D's stores into the accumulator cover it. -/
theorem scover1_D_2 (hc0 : ¬cond1_0 i) (hc1 : cond1_1 i) (hc2 : cond1_2 i) (x0 x1 x2 : Vec F S1x512x1x16x64 .f32) (xs0 xs1 : Vec F S512x16x1 .f32) (xs2 : Vec F S512x16x64 .f32) (y : S512x16x64.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.2.1 S512x1x64.size (by sl_kernel_rfl) y
/-- What case D leaves there: its stores read back. -/
def sout1_D_2 (hc0 : ¬cond1_0 i) (hc1 : cond1_1 i) (hc2 : cond1_2 i) (x0 x1 x2 : Vec F S1x512x1x16x64 .f32) (xs0 xs1 : Vec F S512x16x1 .f32) (xs2 : Vec F S512x16x64 .f32) : Vec F S512x16x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.2.1)

/-- Case E's stores into the output block cover it. -/
theorem cover1_E_3 (hc0 : ¬cond1_0 i) (hc1 : ¬cond1_1 i) (hc2 : cond1_2 i) (x0 x1 x2 : Vec F S1x512x1x16x64 .f32) (xs0 xs1 : Vec F S512x16x1 .f32) (xs2 : Vec F S512x16x64 .f32) (y : S1x512x16x64.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x16x64.size (by sl_kernel_rfl) y
/-- What case E leaves there: its stores read back. -/
def out1_E_3 (hc0 : ¬cond1_0 i) (hc1 : ¬cond1_1 i) (hc2 : cond1_2 i) (x0 x1 x2 : Vec F S1x512x1x16x64 .f32) (xs0 xs1 : Vec F S512x16x1 .f32) (xs2 : Vec F S512x16x64 .f32) : Vec F S1x512x16x64 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

end Cases

end Cert.Kernel.Hand

end
-- ==== Proof.K.Flash.lean ====
/-
  The attention region: the state after each grid point, the invariant carried between points, the proof data and the
  body obligation.

  After point t the tuple (output block, running maximum, normaliser, accumulator) is what the point's case leaves,
  computed from the point's three input blocks and, but at a first key tile, from what the point before left in the
  three scratch buffers.  The invariant before a point names exactly that: the three scratch buffers at the previous
  point's contents (anything before the first point), the other scoped buffers at anything.  The three input windows
  read one array, so the array's full share is dealt among them: left half, and the two halves of the right half.
-/
import proofs.«109116_j51110110822880_2_alg».proof.Proof.K.FlashOuts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A scoped buffer at some contents. -/
abbrev anyB (c : Dev nD) (b : Ref sig .tc) : sProp 𝕄 :=
  iprop(∃ f : Buf (Elt F) ((c : Thread nD τ).loc b), ((c : Thread nD τ).loc b) ↦{fullShare} f)

/-- The region's class invariant with the three scratch buffers as memrefs owned at some contents. -/
theorem PhiA1_eq (c : Dev nD) :
    (Pipeline.ΦA spec1 c : sProp 𝕄)
      = iprop((anyB c cc0_stg0_0 ∗ anyB c cc0_stg0_1 ∗ anyB c cc0_stg1_0 ∗ anyB c cc0_stg2_0 ∗ anyB c cc0_stg2_1 ∗ (∃ d, owns (c : Thread nD τ) scM1_0 fullShare d) ∗ (∃ d, owns (c : Thread nD τ) scM1_1 fullShare d) ∗ (∃ d, owns (c : Thread nD τ) scM1_2 fullShare d) ∗ anyB c cc2_stg0_0 ∗ anyB c cc2_stg0_1 ∗ anyB c cc2_stg1_0 ∗ anyB c cc2_stg2_0 ∗ anyB c cc2_stg2_1) ∗ (∃ r, prngReg c r)) := by
  unfold Pipeline.ΦA; rw [scopedRest1_eq]; simp only [scM1_0, scM1_1, scM1_2, owns_whole]; try rfl

/-! ## Which case a point is in -/

theorem hA (t : Fin cfg1.N) (h0 : t.val % 4 = 0) : cond1_0 (grid1.coords t) ∧ cond1_1 (grid1.coords t) ∧ ¬cond1_2 (grid1.coords t) :=
  ⟨(hcond1_0 t).mpr h0, (hcond1_1 t).mpr (by omega), fun h => by have := (hcond1_2 t).mp h; omega⟩
theorem hB (t : Fin cfg1.N) (h0 : ¬t.val % 4 = 0) (h1 : t.val % 4 ≤ t.val / 4 % 4) (h2 : ¬t.val % 4 = 3) :
    ¬cond1_0 (grid1.coords t) ∧ cond1_1 (grid1.coords t) ∧ ¬cond1_2 (grid1.coords t) :=
  ⟨fun h => h0 ((hcond1_0 t).mp h), (hcond1_1 t).mpr h1, fun h => h2 ((hcond1_2 t).mp h)⟩
theorem hC (t : Fin cfg1.N) (h0 : ¬t.val % 4 = 0) (h1 : ¬t.val % 4 ≤ t.val / 4 % 4) (h2 : ¬t.val % 4 = 3) :
    ¬cond1_0 (grid1.coords t) ∧ ¬cond1_1 (grid1.coords t) ∧ ¬cond1_2 (grid1.coords t) :=
  ⟨fun h => h0 ((hcond1_0 t).mp h), fun h => h1 ((hcond1_1 t).mp h), fun h => h2 ((hcond1_2 t).mp h)⟩
theorem hD (t : Fin cfg1.N) (h0 : ¬t.val % 4 = 0) (h1 : t.val % 4 ≤ t.val / 4 % 4) (h2 : t.val % 4 = 3) :
    ¬cond1_0 (grid1.coords t) ∧ cond1_1 (grid1.coords t) ∧ cond1_2 (grid1.coords t) :=
  ⟨fun h => h0 ((hcond1_0 t).mp h), (hcond1_1 t).mpr h1, (hcond1_2 t).mpr h2⟩
theorem hE (t : Fin cfg1.N) (h0 : ¬t.val % 4 = 0) (h1 : ¬t.val % 4 ≤ t.val / 4 % 4) (h2 : t.val % 4 = 3) :
    ¬cond1_0 (grid1.coords t) ∧ ¬cond1_1 (grid1.coords t) ∧ cond1_2 (grid1.coords t) :=
  ⟨fun h => h0 ((hcond1_0 t).mp h), fun h => h1 ((hcond1_1 t).mp h), (hcond1_2 t).mpr h2⟩

section Regions
variable (V : (c : Dev nD) → (b : Ref sig .tc) → Buf (Elt F) ((c : Thread nD τ).loc b))

/-- The output component at a point where the output window is idle: a placeholder nothing consults. -/
def outJ1 : Vec F S1x512x16x64 .f32 := VO1_3.read (Elt F) VO1_3.junk

/-! ## What the buffers hold after each point -/

/-- (output block, running maximum, normaliser, accumulator) after the body at position `n`. -/
def outsAt1 (c : Dev nD) : (n : ℕ) → n < cfg1.N → Vec F S1x512x16x64 .f32 × Vec F S512x16x1 .f32 × Vec F S512x16x1 .f32 × Vec F S512x16x64 .f32
  | 0, hn => (outJ1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA ⟨0, hn⟩ (Nat.zero_mod 4)).1 (hA ⟨0, hn⟩ (Nat.zero_mod 4)).2.1 (hA ⟨0, hn⟩ (Nat.zero_mod 4)).2.2 (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA ⟨0, hn⟩ (Nat.zero_mod 4)).1 (hA ⟨0, hn⟩ (Nat.zero_mod 4)).2.1 (hA ⟨0, hn⟩ (Nat.zero_mod 4)).2.2 (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA ⟨0, hn⟩ (Nat.zero_mod 4)).1 (hA ⟨0, hn⟩ (Nat.zero_mod 4)).2.1 (hA ⟨0, hn⟩ (Nat.zero_mod 4)).2.2 (iblk1 V c 0 ⟨0, hn⟩) (iblk1 V c 1 ⟨0, hn⟩) (iblk1 V c 2 ⟨0, hn⟩))
  | n + 1, hn =>
    if h0 : (n + 1) % 4 = 0 then
      (outJ1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA ⟨n + 1, hn⟩ h0).1 (hA ⟨n + 1, hn⟩ h0).2.1 (hA ⟨n + 1, hn⟩ h0).2.2 (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA ⟨n + 1, hn⟩ h0).1 (hA ⟨n + 1, hn⟩ h0).2.1 (hA ⟨n + 1, hn⟩ h0).2.2 (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA ⟨n + 1, hn⟩ h0).1 (hA ⟨n + 1, hn⟩ h0).2.1 (hA ⟨n + 1, hn⟩ h0).2.2 (iblk1 V c 0 ⟨n + 1, hn⟩) (iblk1 V c 1 ⟨n + 1, hn⟩) (iblk1 V c 2 ⟨n + 1, hn⟩))
    else if h1 : (n + 1) % 4 ≤ (n + 1) / 4 % 4 then
      if h2 : (n + 1) % 4 = 3 then
        (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hD ⟨n + 1, hn⟩ h0 h1 h2).1 (hD ⟨n + 1, hn⟩ h0 h1 h2).2.1 (hD ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hD ⟨n + 1, hn⟩ h0 h1 h2).1 (hD ⟨n + 1, hn⟩ h0 h1 h2).2.1 (hD ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hD ⟨n + 1, hn⟩ h0 h1 h2).1 (hD ⟨n + 1, hn⟩ h0 h1 h2).2.1 (hD ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hD ⟨n + 1, hn⟩ h0 h1 h2).1 (hD ⟨n + 1, hn⟩ h0 h1 h2).2.1 (hD ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (outJ1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB ⟨n + 1, hn⟩ h0 h1 h2).1 (hB ⟨n + 1, hn⟩ h0 h1 h2).2.1 (hB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB ⟨n + 1, hn⟩ h0 h1 h2).1 (hB ⟨n + 1, hn⟩ h0 h1 h2).2.1 (hB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB ⟨n + 1, hn⟩ h0 h1 h2).1 (hB ⟨n + 1, hn⟩ h0 h1 h2).2.1 (hB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
    else
      if h2 : (n + 1) % 4 = 3 then
        (out1_E_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hE ⟨n + 1, hn⟩ h0 h1 h2).1 (hE ⟨n + 1, hn⟩ h0 h1 h2).2.1 (hE ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, (outsAt1 c n (Nat.lt_of_succ_lt hn)).2.1, (outsAt1 c n (Nat.lt_of_succ_lt hn)).2.2.1, (outsAt1 c n (Nat.lt_of_succ_lt hn)).2.2.2)
      else
        (outJ1, (outsAt1 c n (Nat.lt_of_succ_lt hn)).2.1, (outsAt1 c n (Nat.lt_of_succ_lt hn)).2.2.1, (outsAt1 c n (Nat.lt_of_succ_lt hn)).2.2.2)

theorem outsAt1_A (c : Dev nD) (t : Fin cfg1.N) (h0 : t.val % 4 = 0) :
    outsAt1 V c t.val t.isLt = (outJ1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA t h0).1 (hA t h0).2.1 (hA t h0).2.2 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA t h0).1 (hA t h0).2.1 (hA t h0).2.2 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA t h0).1 (hA t h0).2.1 (hA t h0).2.2 (iblk1 V c 0 t) (iblk1 V c 1 t) (iblk1 V c 2 t)) := by
  obtain ⟨n, hn⟩ := t
  cases n with
  | zero => exact rfl
  | succ n => exact (dif_pos h0).trans rfl
theorem outsAt1_B (c : Dev nD) (t : Fin cfg1.N) (h0 : ¬t.val % 4 = 0) (h1 : t.val % 4 ≤ t.val / 4 % 4) (h2 : ¬t.val % 4 = 3) :
    outsAt1 V c t.val t.isLt = (outJ1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB t h0 h1 h2).1 (hB t h0 h1 h2).2.1 (hB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB t h0 h1 h2).1 (hB t h0 h1 h2).2.1 (hB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB t h0 h1 h2).1 (hB t h0 h1 h2).2.1 (hB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_neg h2).trans rfl))
theorem outsAt1_C (c : Dev nD) (t : Fin cfg1.N) (h0 : ¬t.val % 4 = 0) (h1 : ¬t.val % 4 ≤ t.val / 4 % 4) (h2 : ¬t.val % 4 = 3) :
    outsAt1 V c t.val t.isLt = (outJ1, (outsAt1 V c (t.val - 1) (Nat.lt_of_le_of_lt (Nat.sub_le _ _) t.isLt)).2.1, (outsAt1 V c (t.val - 1) (Nat.lt_of_le_of_lt (Nat.sub_le _ _) t.isLt)).2.2.1, (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans ((dif_neg h2).trans rfl))
theorem outsAt1_D (c : Dev nD) (t : Fin cfg1.N) (h0 : ¬t.val % 4 = 0) (h1 : t.val % 4 ≤ t.val / 4 % 4) (h2 : t.val % 4 = 3) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hD t h0 h1 h2).1 (hD t h0 h1 h2).2.1 (hD t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hD t h0 h1 h2).1 (hD t h0 h1 h2).2.1 (hD t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hD t h0 h1 h2).1 (hD t h0 h1 h2).2.1 (hD t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hD t h0 h1 h2).1 (hD t h0 h1 h2).2.1 (hD t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_pos h2).trans rfl))
theorem outsAt1_E (c : Dev nD) (t : Fin cfg1.N) (h0 : ¬t.val % 4 = 0) (h1 : ¬t.val % 4 ≤ t.val / 4 % 4) (h2 : t.val % 4 = 3) :
    outsAt1 V c t.val t.isLt = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hE t h0 h1 h2).1 (hE t h0 h1 h2).2.1 (hE t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, (outsAt1 V c (t.val - 1) (Nat.lt_of_le_of_lt (Nat.sub_le _ _) t.isLt)).2.1, (outsAt1 V c (t.val - 1) (Nat.lt_of_le_of_lt (Nat.sub_le _ _) t.isLt)).2.2.1, (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans ((dif_pos h2).trans rfl))

/-! ## The invariant carried between points -/

/-- Before position `n`: before the first point the class's invariant; afterwards the three scratch buffers at what
    the point before left, the other scoped buffers at anything, the generator register at some state. -/
def PhiS (c : Dev nD) : (n : ℕ) → n ≤ cfg1.N → sProp 𝕄
  | 0, _ => Pipeline.ΦA spec1 c
  | n + 1, hn => iprop((anyB c cc0_stg0_0 ∗ anyB c cc0_stg0_1 ∗ anyB c cc0_stg1_0 ∗ anyB c cc0_stg2_0 ∗ anyB c cc0_stg2_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ anyB c cc2_stg0_0 ∗ anyB c cc2_stg0_1 ∗ anyB c cc2_stg1_0 ∗ anyB c cc2_stg2_0 ∗ anyB c cc2_stg2_1) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((anyB c cc0_stg0_0 ∗ anyB c cc0_stg0_1 ∗ anyB c cc0_stg1_0 ∗ anyB c cc0_stg2_0 ∗ anyB c cc0_stg2_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ anyB c cc2_stg0_0 ∗ anyB c cc2_stg0_1 ∗ anyB c cc2_stg1_0 ∗ anyB c cc2_stg2_0 ∗ anyB c cc2_stg2_1) ∗ (∃ r, prngReg c r)) := rfl
theorem PhiS_pos (c : Dev nD) (n : ℕ) (h : n ≤ cfg1.N) (hz : n ≠ 0) :
    PhiS V c n h = iprop((anyB c cc0_stg0_0 ∗ anyB c cc0_stg0_1 ∗ anyB c cc0_stg1_0 ∗ anyB c cc0_stg2_0 ∗ anyB c cc0_stg2_1 ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ anyB c cc2_stg0_0 ∗ anyB c cc2_stg0_1 ∗ anyB c cc2_stg1_0 ∗ anyB c cc2_stg2_0 ∗ anyB c cc2_stg2_1) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' buffers hold their blocks; the closed forms say which case the point is in; the
    invariant hands the body the three scratch buffers at what the point before left (anything at a first key tile)
    and takes them back at this point's contents; off the last key tile the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · have hc := hA t h0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t hc.2.2) (noFlush1_3 t hc.2.2)]
    rw [outsAt1_A V c t h0]
    unfold sout1_A_0 sout1_A_1 sout1_A_2; (try dsimp only)
    by_cases hz : t.val = 0
    · rw [PhiS_castSucc V c t, PhiS_zero V c _ _ hz, PhiA1_eq]
      iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hb1 Hb2 Hb3 Hb4 Hb5 HS0 HS1 HS2 Hb9 Hb10 Hb11 Hb12 Hb13 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [HS2]
          · unfold owns; iexists _; isplitr
            swap; · iexact HS2
            ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [Hb9]; · iexact Hb9
          isplitl [Hb10]; · iexact Hb10
          isplitl [Hb11]; · iexact Hb11
          isplitl [Hb12]; · iexact Hb12
          iexact Hb13
        · iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hb1 Hb2 Hb3 Hb4 Hb5 HS0 HS1 HS2 Hb9 Hb10 Hb11 Hb12 Hb13 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [HS2]
          · unfold owns; iexists _; isplitr
            swap; · iexact HS2
            ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [Hb9]; · iexact Hb9
          isplitl [Hb10]; · iexact Hb10
          isplitl [Hb11]; · iexact Hb11
          isplitl [Hb12]; · iexact Hb12
          iexact Hb13
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 ≤ t.val / 4 % 4
    · by_cases h2 : t.val % 4 = 3
      · have hc := hD t h0 h1 h2
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t hc.2.2], after1_3]
        rw [outsAt1_D V c t h0 h1 h2]
        unfold out1_D_3 sout1_D_0 sout1_D_1 sout1_D_2; (try dsimp only)
        rw [PhiS_castSucc V c t, PhiS_pos V c _ _ hz]
        iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Hb1 Hb2 Hb3 Hb4 Hb5 HS0 HS1 HS2 Hb9 Hb10 Hb11 Hb12 Hb13 Hg]
        · isplitr [Hg]
          · isplitl [Hb1]; · iexact Hb1
            isplitl [Hb2]; · iexact Hb2
            isplitl [Hb3]; · iexact Hb3
            isplitl [Hb4]; · iexact Hb4
            isplitl [Hb5]; · iexact Hb5
            isplitl [HS0]
            · unfold owns; iexists _; isplitr
              swap; · iexact HS0
              ipureintro; exact View.read_writes_of_cover _ _ _ _ _ (scover1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [HS1]
            · unfold owns; iexists _; isplitr
              swap; · iexact HS1
              ipureintro; exact View.read_writes_of_cover _ _ _ _ _ (scover1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [HS2]
            · unfold owns; iexists _; isplitr
              swap; · iexact HS2
              ipureintro; exact View.read_writes_of_cover _ _ _ _ _ (scover1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [Hb9]; · iexact Hb9
            isplitl [Hb10]; · iexact Hb10
            isplitl [Hb11]; · iexact Hb11
            isplitl [Hb12]; · iexact Hb12
            iexact Hb13
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · have hc := hB t h0 h1 h2
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t hc.2.2) (noFlush1_3 t hc.2.2)]
        rw [outsAt1_B V c t h0 h1 h2]
        unfold sout1_B_0 sout1_B_1 sout1_B_2; (try dsimp only)
        rw [PhiS_castSucc V c t, PhiS_pos V c _ _ hz]
        iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hb1 Hb2 Hb3 Hb4 Hb5 HS0 HS1 HS2 Hb9 Hb10 Hb11 Hb12 Hb13 Hg]
        · isplitr [Hg]
          · isplitl [Hb1]; · iexact Hb1
            isplitl [Hb2]; · iexact Hb2
            isplitl [Hb3]; · iexact Hb3
            isplitl [Hb4]; · iexact Hb4
            isplitl [Hb5]; · iexact Hb5
            isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [HS1]
            · unfold owns; iexists _; isplitr
              swap; · iexact HS1
              ipureintro; exact View.read_writes_of_cover _ _ _ _ _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [HS2]
            · unfold owns; iexists _; isplitr
              swap; · iexact HS2
              ipureintro; exact View.read_writes_of_cover _ _ _ _ _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [Hb9]; · iexact Hb9
            isplitl [Hb10]; · iexact Hb10
            isplitl [Hb11]; · iexact Hb11
            isplitl [Hb12]; · iexact Hb12
            iexact Hb13
          · iexact Hg
        isplitl [Ho]; · iexact Ho
        isplitl [H0]; · iexact H0
        isplitl [H1]; · iexact H1
        isplitl [H2]; · iexact H2
        iexists _; iexact H3
    · by_cases h2 : t.val % 4 = 3
      · have hc := hE t h0 h1 h2
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t hc.2.2], after1_3]
        rw [outsAt1_E V c t h0 h1 h2]
        unfold out1_E_3; (try dsimp only)
        rw [PhiS_castSucc V c t, PhiS_pos V c _ _ hz]
        iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hb1 Hb2 Hb3 Hb4 Hb5 HS0 HS1 HS2 Hb9 Hb10 Hb11 Hb12 Hb13 Hg]
        · isplitr [Hg]
          · isplitl [Hb1]; · iexact Hb1
            isplitl [Hb2]; · iexact Hb2
            isplitl [Hb3]; · iexact Hb3
            isplitl [Hb4]; · iexact Hb4
            isplitl [Hb5]; · iexact Hb5
            isplitl [HS0]; · iexact HS0
            isplitl [HS1]; · iexact HS1
            isplitl [HS2]; · iexact HS2
            isplitl [Hb9]; · iexact Hb9
            isplitl [Hb10]; · iexact Hb10
            isplitl [Hb11]; · iexact Hb11
            isplitl [Hb12]; · iexact Hb12
            iexact Hb13
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · have hc := hC t h0 h1 h2
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t hc.2.2) (noFlush1_3 t hc.2.2)]
        rw [outsAt1_C V c t h0 h1 h2]
        (try dsimp only)
        rw [PhiS_castSucc V c t, PhiS_pos V c _ _ hz]
        iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
        iapply (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 Set.univ _)
        isplitl [Hb1 Hb2 Hb3 Hb4 Hb5 HS0 HS1 HS2 Hb9 Hb10 Hb11 Hb12 Hb13 Hg]
        · isplitr [Hg]
          · isplitl [Hb1]; · iexact Hb1
            isplitl [Hb2]; · iexact Hb2
            isplitl [Hb3]; · iexact Hb3
            isplitl [Hb4]; · iexact Hb4
            isplitl [Hb5]; · iexact Hb5
            isplitl [HS0]; · iexact HS0
            isplitl [HS1]; · iexact HS1
            isplitl [HS2]; · iexact HS2
            isplitl [Hb9]; · iexact Hb9
            isplitl [Hb10]; · iexact Hb10
            isplitl [Hb11]; · iexact Hb11
            isplitl [Hb12]; · iexact Hb12
            iexact Hb13
          · iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb1, Hb2, Hb3, Hb4, Hb5, HS0, HS1, HS2, Hb9, Hb10, Hb11, Hb12, Hb13⟩, Hg⟩
  isplitr [Hg]
  · isplitl [Hb1]; · iexact Hb1
    isplitl [Hb2]; · iexact Hb2
    isplitl [Hb3]; · iexact Hb3
    isplitl [Hb4]; · iexact Hb4
    isplitl [Hb5]; · iexact Hb5
    isplitl [HS0]; · iexists _; iexact HS0
    isplitl [HS1]; · iexists _; iexact HS1
    isplitl [HS2]; · iexists _; iexact HS2
    isplitl [Hb9]; · iexact Hb9
    isplitl [Hb10]; · iexact Hb10
    isplitl [Hb11]; · iexact Hb11
    isplitl [Hb12]; · iexact Hb12
    iexact Hb13
  · iexact Hg

theorem hout1 (c : Dev nD) : (dat1 V c).Φ (Fin.last cfg1.N) ⊢ Pipeline.ΦA spec1 c :=
  Phi_out1 V c _ (by rw [Fin.val_last]; have : cfg1.N = 64 := N_1; omega)

end Regions

end Cert.Kernel.Hand

end
-- ==== Proof.K.Matmul0.lean ====
import proofs.«109116_j51110110822880_2_alg».proof.Proof.Gen.Kernel.Launch
import proofs.«109116_j51110110822880_2_alg».proof.Proof.Gen.Kernel.Skeleton
import proofs.«109116_j51110110822880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the plain matrix product, its body and its proof data

The region multiplies a block of 512 rows of its left array by the whole right array, one block per grid
point, sixteen points in all. Window 0 is the left block (moved in at every point), window 1 the whole right
array (its block index is constant, so it is moved in once and stays), window 2 the block of the product
(moved out at every point). Everything is stated at a parameter `V`: the contents of the core's arrays when the
region is entered.
-/

-- membership in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` at grid point `t`: the part of the window's array, at its entry contents `V`, that
    the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Before the body runs at any point, the buffer of input window 0 holds the window's block there. This holds for
    any proof data whose array for the window is `V`'s and whose body leaves the block where it found it: where
    the block was moved in it is the block by definition; where it was not, the block index is the previous
    point's, and the buffer still holds that block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, the whole right array: it is moved in at the first point only, and at every later
    point its block index has not changed, so the buffer still holds the (one) block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output window's buffer -/

/-- The output buffer after the body, as a function of the two input blocks: the body's single write, of the
    product payload of the two blocks, over the whole buffer. -/
def out0_2 (x0 : Vec F S512x1024 .f32) (x1 : Vec F S1024x3072 .bf16) : Vec F S512x3072 .f32 :=
  View.canon [⟨r0_2, k0_pay1 (View.ld x0 r0_0) (View.ld x1 r0_1)⟩]

/-- That single write covers the buffer: its rectangle is the whole shape. -/
theorem cover0_2 (p0 : Vec F S512x3072 .f32) (y : S512x3072.Idx) :
    ∃ pc ∈ ([⟨r0_2, p0⟩] : List (View.Piece (Elt F) S512x3072 .f32)), y ∈ pc.1.set :=
  View.cover_of_tiled [⟨r0_2, p0⟩] S512x3072.size (by rfl) y

/-! ## The body's triple -/

set_option maxHeartbeats 1000000 in
/-- The body, run on whole buffers — the two inputs' reading `x0` and `x1`, the output's holding anything —, reaches
    its continuation with the inputs unchanged and the output at `out0_2 x0 x1`. The body reads the output buffer
    once before writing it; the value read is never used, and the write that follows covers the buffer, so what
    was there does not matter. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S512x3072 .f32) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays at their entry contents `V`; after the body at point `t`
    each input's buffer still at its block and the output's at `out0_2` of the two input blocks; the invariant
    "the other scoped buffers and the generator register are untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block before the body at every point, moved in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current buffer,
    whole, at what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same with each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Matmul2.lean ====
import proofs.«109116_j51110110822880_2_alg».proof.Proof.Gen.Kernel.Launch
import proofs.«109116_j51110110822880_2_alg».proof.Proof.Gen.Kernel.Skeleton
import proofs.«109116_j51110110822880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the plain matrix product, its body and its proof data

The region multiplies a block of 512 rows of its left array by the whole right array, one block per grid
point, sixteen points in all. Window 0 is the left block (moved in at every point), window 1 the whole right
array (its block index is constant, so it is moved in once and stays), window 2 the block of the product
(moved out at every point). Everything is stated at a parameter `V`: the contents of the core's arrays when the
region is entered.
-/

-- membership in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` at grid point `t`: the part of the window's array, at its entry contents `V`, that
    the window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Before the body runs at any point, the buffer of input window 0 holds the window's block there. This holds for
    any proof data whose array for the window is `V`'s and whose body leaves the block where it found it: where
    the block was moved in it is the block by definition; where it was not, the block index is the previous
    point's, and the buffer still holds that block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1, the whole right array: it is moved in at the first point only, and at every later
    point its block index has not changed, so the buffer still holds the (one) block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is its whole buffer -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-! ## What the body leaves in the output window's buffer -/

/-- The output buffer after the body, as a function of the two input blocks: the body's single write, of the
    product payload of the two blocks, over the whole buffer. -/
def out2_2 (x0 : Vec F S512x1024 .f32) (x1 : Vec F S1024x1024 .bf16) : Vec F S512x1024 .f32 :=
  View.canon [⟨r2_2, k2_pay1 (View.ld x0 r2_0) (View.ld x1 r2_1)⟩]

/-- That single write covers the buffer: its rectangle is the whole shape. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's triple -/

set_option maxHeartbeats 1000000 in
/-- The body, run on whole buffers — the two inputs' reading `x0` and `x1`, the output's holding anything —, reaches
    its continuation with the inputs unchanged and the output at `out2_2 x0 x1`. The body reads the output buffer
    once before writing it; the value read is never used, and the write that follows covers the buffer, so what
    was there does not matter. -/
theorem sound_kernel2 (c : Dev nD) (E : Set ℕ) (i : grid2.Coords) (arg1 : Memref sig .tc .vmem S512x1024 .f32) (harg1 : arg1.IsWhole) (arg2 : Memref sig .tc .vmem S1024x1024 .bf16) (harg2 : arg2.IsWhole) (arg3 : Memref sig .tc .vmem S512x1024 .f32) (harg3 : arg3.IsWhole)
    (x0 : Vec F S512x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of the region on core `c`: the arrays at their entry contents `V`; after the body at point `t`
    each input's buffer still at its block and the output's at `out2_2` of the two input blocks; the invariant
    "the other scoped buffers and the generator register are untouched"; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block before the body at every point, moved in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debts, and each window's current buffer,
    whole, at what the proof data says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same with each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    the debts are not touched and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program: @main from the launch to the return, as seven segments.

  @main is a stretch of host operations, the first matrix product, a reshape, the attention region, a reshape, the
  second matrix product and a last reshape.  The contents of the core's buffers at the eight segment boundaries are a
  fold from the launch memory: a host stretch applies its operations, a region puts what its write-backs leave into
  the arrays of its output windows and leaves every other buffer alone.  Each segment is entered from the thread
  state "every unscoped buffer at the boundary's contents, the generator register at some state, nothing owed" and
  leaves the next boundary's.

  In the attention region three input windows read one array.  The array is held whole before the region and whole
  after it; inside, its full share is dealt among the three windows (the left half, and the two halves of the right
  half), all three at the same contents, so the three parts join back into the whole at the exit.

  The result buffer ends at the last boundary's contents, and no segment writes an argument.
-/
import proofs.«109116_j51110110822880_2_alg».proof.Proof.K.Flash
import proofs.«109116_j51110110822880_2_alg».proof.Proof.K.Matmul0
import proofs.«109116_j51110110822880_2_alg».proof.Proof.K.Matmul2

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One array dealt among three windows

The attention region's proof data hold the array of windows 0, 1, 2 at three shares that make up the full share, and
the output window's array at the full share. -/

section Deal

variable (c : Dev nD) (dat : Dat τ (Elt F) Unit ℕ (UR sig nD τ) ℕ cfg1 c)

/-- The region's arrays one by one: the shared array at its three shares, the output array whole. -/
theorem arrays1_eq (hq0 : dat.q 0 = fullShare.left) (hq1 : dat.q 1 = fullShare.right.left)
    (hq2 : dat.q 2 = fullShare.right.right)
    (G : (w : Fin cfg1.W) → Buf (Elt F) ((cfg1.win w).arr.view.loc (c.tc : Thread nD τ))) :
    (dat.arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  have hs0 : dat.share 0 = fullShare.left := (if_neg Bool.false_ne_true).trans hq0
  have hs1 : dat.share 1 = fullShare.right.left := (if_neg Bool.false_ne_true).trans hq1
  have hs2 : dat.share 2 = fullShare.right.right := (if_neg Bool.false_ne_true).trans hq2
  have hs3 : dat.share 3 = fullShare := if_pos rfl
  unfold Dat.arrays
  -- windows 0, 1, 2 stage one array, so one rewrite turns all three element sets into the whole buffer
  rw [bigSep_W1, hs0, hs1, hs2, hs3, (arr_whole1 0).set_eq_univ, (arr_whole1 3).set_eq_univ]

/-- The two distinct buffers behind the region's four arrays. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)) := by
  unfold Pipeline.arrBufs
  rw [show Finset.univ.image (Pipeline.arrRef spec1) = insert main_v6 {main_v7} from by decide,
    bigSep_insert (by decide), bigSep_singleton]
  rfl

/-- ENTRY: the shared array held whole deals into its three shares, all at the same contents. -/
theorem deal_entry (hq0 : dat.q 0 = fullShare.left) (hq1 : dat.q 1 = fullShare.right.left)
    (hq2 : dat.q 2 = fullShare.right.right) (V : (b : Ref sig .tc) → Buf (Elt F) ((c : Thread nD τ).loc b))
    (G : (w : Fin cfg1.W) → Buf (Elt F) ((cfg1.win w).arr.view.loc (c.tc : Thread nD τ)))
    (hG : ∀ w, G w = V (Pipeline.arrRef spec1 w)) :
    (Pipeline.arrBufs (Ix := Unit) (Name := ℕ) (U := UR sig nD τ) (Lvl := ℕ) spec1 c V : sProp 𝕄) ⊢ dat.arrays G := by
  rw [arrBufs1_eq, arrays1_eq c dat hq0 hq1 hq2, hG 0, hG 1, hG 2, hG 3]
  iintro ⟨H6, H7⟩
  ihave H := (pointsTo_share (PosShare.mem_left_op_right fullShare)).1 $$ H6
  icases H with ⟨Ha, Hbc⟩
  ihave H' := (pointsTo_share (PosShare.mem_left_op_right fullShare.right)).1 $$ Hbc
  icases H' with ⟨Hb, Hc⟩
  isplitl [Ha]; · iexact Ha
  isplitl [Hb]; · iexact Hb
  isplitl [Hc]; · iexact Hc
  iexact H7

/-- EXIT: the three shares, still at one contents, join back into the whole; the output array comes with them. -/
theorem deal_exit (hq0 : dat.q 0 = fullShare.left) (hq1 : dat.q 1 = fullShare.right.left)
    (hq2 : dat.q 2 = fullShare.right.right) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    (dat.arrays G : sProp 𝕄) ⊢ Pipeline.arrBufs (Ix := Unit) (Name := ℕ) (U := UR sig nD τ) (Lvl := ℕ) spec1 c V' := by
  rw [arrBufs1_eq, arrays1_eq c dat hq0 hq1 hq2, hG 0, hG 1, hG 2, hG 3]
  iintro ⟨Ha, Hb, Hc, H7⟩
  isplitr [H7]
  · iapply (pointsTo_share (PosShare.mem_left_op_right fullShare)).2
    isplitl [Ha]; · iexact Ha
    iapply (pointsTo_share (PosShare.mem_left_op_right fullShare.right)).2
    isplitl [Hb]; · iexact Hb
    iexact Hc
  · iexact H7

end Deal

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (the first product's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first product's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the first product's exit each of its arrays holds what the pipeline leaves, every other buffer what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At the attention region's exit: the output array at what the write-backs leave, every other buffer — the array
    the three input windows share among them — as entered. -/
def W4 (c : Dev nD) : Valuation τ sig (Elt F) :=
  Function.update (W3 m ρ c) (Proc.devRef .tc main_v7) ((dat1 (V3 m ρ) c).arrAt 3 cfg1.N)
theorem W4_out (c : Dev nD) : W4 m ρ c (Proc.devRef .tc main_v7) = (dat1 (V3 m ρ) c).arrAt 3 cfg1.N := by
  unfold W4; exact Function.update_self _ _ _
theorem W4_of_ne (c : Dev nD) (b : Ref sig .tc) (hb : b ≠ main_v7) :
    W4 m ρ c (Proc.devRef .tc b) = W3 m ρ c (Proc.devRef .tc b) := by
  unfold W4; exact Function.update_of_ne (fun e => hb (Proc.devRef_injective _ e)) _ _
/-- The same read at the TensorCore's references. -/
abbrev V4 : (c : Dev nD) → (b : Ref sig .tc) → Buf (Elt F) ((c : Thread nD τ).loc b) := fun c b => W4 m ρ c b
/-- At the attention region's exit every window's array holds what the pipeline leaves: an input window's is never
    written, the output's is the fold of its write-backs. -/
theorem hF1 (c : Dev nD) (w : Fin cfg1.W) : (dat1 (V3 m ρ) c).arrAt w cfg1.N = V4 m ρ c (Pipeline.arrRef spec1 w) := by
  match w with
  | ⟨0, _⟩ => exact ((dat1 (V3 m ρ) c).arrAt_in 0 rfl _).trans ((A_eq1 (V3 m ρ) c 0).trans (W4_of_ne m ρ c main_v6 (by decide)).symm)
  | ⟨1, _⟩ => exact ((dat1 (V3 m ρ) c).arrAt_in 1 rfl _).trans ((A_eq1 (V3 m ρ) c 1).trans (W4_of_ne m ρ c main_v6 (by decide)).symm)
  | ⟨2, _⟩ => exact ((dat1 (V3 m ρ) c).arrAt_in 2 rfl _).trans ((A_eq1 (V3 m ρ) c 2).trans (W4_of_ne m ρ c main_v6 (by decide)).symm)
  | ⟨3, _⟩ => exact (W4_out m ρ c).symm
/-- … and every buffer that is no window's array holds what it held at entry. -/
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-- After the third host stretch (the second product's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At the second product's exit: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At the second product's exit each of its arrays holds what the pipeline leaves, every other buffer what it held. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents @main returns with. -/
abbrev W7 : Dev nD → Valuation τ sig (Elt F) := fun c => StableHlo.after hostOps3 (W6 m ρ c)

/-! ## What the last contents are in terms of the regions -/

/-- The last contents are the last reshape applied to the second product's exit contents. -/
theorem W7_eq (c : Dev nD) : W7 m ρ c = StableHlo.after hostOps3 (W6 m ρ c) := rfl
/-- The second product's output array at its exit. -/
theorem W6_main_v9 (c : Dev nD) : W6 m ρ c (Proc.devRef .tc main_v9) = (dat2 (V5 m ρ) c).arrAt 2 cfg2.N := W6_arr m ρ c 2
/-- The attention region's output array at its exit. -/
theorem W4_main_v7 (c : Dev nD) : W4 m ρ c (Proc.devRef .tc main_v7) = (dat1 (V3 m ρ) c).arrAt 3 cfg1.N := W4_out m ρ c
/-- The first product's output array at its exit. -/
theorem W2_main_v5 (c : Dev nD) : W2 m ρ c (Proc.devRef .tc main_v5) = (dat0 (V1 m ρ) c).arrAt 2 cfg0.N := W2_arr m ρ c 2

/-! ## The arguments end as launched, and the result is the last reshape's

No host operation and no region writes an argument, so the fold at an argument's buffer walks back to the launch memory. -/

/-- A buffer no operation of a host stretch writes holds after the stretch what it held before. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := by host_keeps hostOps3
    _ = W5 m ρ c (Proc.devRef .tc main_arg0) := W6_of_ne m ρ c main_arg0 (by decide)
    _ = W4 m ρ c (Proc.devRef .tc main_arg0) := by host_keeps hostOps2
    _ = W3 m ρ c (Proc.devRef .tc main_arg0) := W4_of_ne m ρ c main_arg0 (by decide)
    _ = W2 m ρ c (Proc.devRef .tc main_arg0) := by host_keeps hostOps1
    _ = W1 m ρ c (Proc.devRef .tc main_arg0) := W2_of_ne m ρ c main_arg0 (by decide)
    _ = W0 m ρ c (Proc.devRef .tc main_arg0) := by host_keeps hostOps0
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by host_keeps hostOps3
    _ = W5 m ρ c (Proc.devRef .tc main_arg1) := W6_of_ne m ρ c main_arg1 (by decide)
    _ = W4 m ρ c (Proc.devRef .tc main_arg1) := by host_keeps hostOps2
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by host_keeps hostOps3
    _ = W5 m ρ c (Proc.devRef .tc main_arg2) := W6_of_ne m ρ c main_arg2 (by decide)
    _ = W4 m ρ c (Proc.devRef .tc main_arg2) := by host_keeps hostOps2
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-! # The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at
    some state. -/
abbrev Tₙ (c : Dev nD) : sProp 𝕄 := iprop(StableHlo.held (c : Thread nD τ) (Pipeline.ucRefs τ sig) (W7 m ρ c) ∗ ∃ r, prngReg c r)

/-! # The regions as segments -/

-- `iapply` of a library lemma stated over the pinned configuration unifies only when unification may unfold plain
-- definitions in a metavariable's type
set_option backward.isDefEq.respectTransparency.types false in
/-- THE FIRST PRODUCT over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of the attention region, the buffers' part: every unscoped buffer at the entry contents is the region's
    arrays — the shared array dealt among its three windows — beside the unscoped rest. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [← Pipeline.unscopedBufs_held c (W3 m ρ c),
    Pipeline.unscopedBufs_split₀ (Ix := Unit) (Name := ℕ) (U := UR sig nD τ) (Lvl := ℕ) cfgs 1 winFacts₀1.arr_unscoped c (V3 m ρ c)]
  exact sep_mono (deal_entry c (dat1 (V3 m ρ) c) rfl rfl rfl (V3 m ρ c) _ (A_eq1 (V3 m ρ) c)) .rfl

/-- EXIT of the attention region, the buffers' part: the arrays at what the pipeline leaves — the three shares of the
    shared array joined back — beside the unscoped rest are every unscoped buffer at the exit contents. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [← Pipeline.unscopedBufs_held c (W4 m ρ c),
    Pipeline.unscopedBufs_split₀ (Ix := Unit) (Name := ℕ) (U := UR sig nD τ) (Lvl := ℕ) cfgs 1 winFacts₀1.arr_unscoped c (V4 m ρ c)]
  refine sep_mono (deal_exit c (dat1 (V3 m ρ) c) rfl rfl rfl (V4 m ρ c) _ (hF1 m ρ c)) (Entails.of_eq ?_)
  unfold Pipeline.unscopedRest
  exact bigSep_congr fun b hb => by rw [hrest1 m ρ c b (Finset.mem_sdiff.mp hb).2]

-- `iapply` of a library lemma stated over the pinned configuration unifies only when unification may unfold plain
-- definitions in a metavariable's type
set_option backward.isDefEq.respectTransparency.types false in
/-- THE ATTENTION REGION over the thread state: entered from every unscoped buffer at `W3`, left at `W4`. Three of its
    windows read one array, so the arrays are dealt out of the unscoped buffers and joined back by hand (`entry1`,
    `exit1`); its invariant starts as the class's and ends as the class's, the scratch buffers' contents forgotten. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := exit1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- THE SECOND PRODUCT over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's seven segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and in every final state the result buffer holds the last boundary's contents and the three
    argument arrays hold what they were launched with. -/
theorem run_main : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v10 (by decide)),
        (h c _ (mem_uc main_arg0 (by decide))).trans (W7_main_arg0 m ρ c),
        (h c _ (mem_uc main_arg1 (by decide))).trans (W7_main_arg1 m ρ c),
        (h c _ (mem_uc main_arg2 (by decide))).trans (W7_main_arg2 m ρ c)⟩)

/-- THE FRAME: @main runs, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.Kernel.Hand

end
-- ==== Proof.KI.FlashRuns.lean ====
/-
  The attention region (the second of the three kernel regions): what its five cases are stated over.

  The grid is (batch, query tile, key tile) = 4 x 4 x 4, 64 points in row-major order, so point t has key tile t % 4 and
  query tile (t / 4) % 4.  Three conditions on the point decide what the body does:
    * the FIRST key tile (t % 4 = 0): the running maximum, normaliser and accumulator are reset;
    * a key tile at or below the diagonal (t % 4 ≤ (t / 4) % 4): the tile is absorbed into the running state, head by head;
    * the LAST key tile (t % 4 = 3): the accumulator divided by the normaliser is written to the output block.
  The output window is idle, and not written back, except at the last key tile.  The three input windows (queries,
  keys, values) read ONE array, the reshaped projection, at blocks (b, qi, 0), (b, min ki qi, 1), (b, min ki qi, 2).
-/
import proofs.«109116_j51110110822880_2_alg».proof.Proof.Gen.KernelIdeal.Launch
import proofs.«109116_j51110110822880_2_alg».proof.Proof.Gen.KernelIdeal.Skeleton
import proofs.«109116_j51110110822880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's, likewise: where it is not fetched the clamped block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's three conditions, decided over the grid -/

/-- The first key tile: the running state is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key tile starts at or before the query tile's last row: the tile is absorbed. -/
abbrev cond1_1 (i : grid1.Coords) : Prop := (Scalar.cmpi .ne (Scalar.extui (Scalar.cmpi .sle (Scalar.muli (BitVec.ofNat 32 (i 2).val) 512#32) (Scalar.subi (Scalar.addi (Scalar.muli (BitVec.ofNat 32 (i 1).val) 512#32) 512#32) 1#32))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- The last key tile: the output block is written. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle: nothing is stored into it, -/
theorem idleAt1_3 : ∀ t : Fin cfg1.N, ¬cond1_2 (grid1.coords t) → cfg1.idle 3 (grid1.coords t) = true := by decide +kernel
/-- and it is not written back; -/
theorem noFlush1_3 : ∀ t : Fin cfg1.N, ¬cond1_2 (grid1.coords t) → (cfg1.win 3).flush t = false := by decide +kernel
/-- at the last key tile it is live. -/
theorem liveAt1_3 : ∀ t : Fin cfg1.N, cond1_2 (grid1.coords t) → cfg1.idle 3 (grid1.coords t) = false := by decide +kernel

/-! ## The staging and scratch memrefs the body is called with -/

abbrev ms1_0 (t : Fin cfg1.N) : Memref sig .tc .vmem S1x512x1x16x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1x16x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1x16x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x16x64 .f32 := win1_3.stage (cfg1.slots t 3)
abbrev hs1_3 (t : Fin cfg1.N) : (ms1_3 t).IsWhole := hstage1_3 ((cfg1.slots t 3).cast nbuf1_3)
/-- The three scratch buffers carried between points: the running maximum, the normaliser, the accumulator. -/
abbrev scM1_0 : Memref sig .tc .vmem S512x16x1 .f32 := Memref.whole cc1_scratch0
abbrev scM1_1 : Memref sig .tc .vmem S512x16x1 .f32 := Memref.whole cc1_scratch1
abbrev scM1_2 : Memref sig .tc .vmem S512x16x64 .f32 := Memref.whole cc1_scratch2
abbrev VS1_0 : View sig .tc .vmem S512x16x1 .f32 := scM1_0.view
abbrev VS1_1 : View sig .tc .vmem S512x16x1 .f32 := scM1_1.view
abbrev VS1_2 : View sig .tc .vmem S512x16x64 .f32 := scM1_2.view
/-- One staging buffer of the output window, through which its contents are stated. -/
abbrev VO1_3 : View sig .tc .vmem S1x512x16x64 .f32 := (Memref.whole cc1_stg3_0 : Memref sig .tc .vmem S1x512x16x64 .f32).view

end Cert.KernelIdeal.Hand

end
-- ==== Proof.KI.FlashRunA.lean ====
/-
  The attention body in case A: the FIRST key tile (it is always at or below the diagonal, and never the last): the running state is reset, then the tile is absorbed head by head.  The body is run step by step from these
  contents; what each written buffer ends with is the list of its stores, last store first.
-/
import proofs.«109116_j51110110822880_2_alg».proof.Proof.KI.FlashRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
noncomputable def kernelRun1_A (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : cond1_0 i) (hc1 : cond1_1 i) (hc2 : ¬cond1_2 i)
    (x0 x1 x2 : Vec F S1x512x1x16x64 .f32)  :
    Σ' (LS0 : List (View.Piece (Elt F) S512x16x1 .f32)) (LS1 : List (View.Piece (Elt F) S512x16x1 .f32)), { LS2 : List (View.Piece (Elt F) S512x16x64 .f32) //
      ∀ (xi3 : Vec F S1x512x16x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunB.lean ====
/-
  The attention body in case B: a key tile after the first, at or below the diagonal, not the last: the tile is absorbed into the carried state head by head.  The body is run step by step from these
  contents; what each written buffer ends with is the list of its stores, last store first.
-/
import proofs.«109116_j51110110822880_2_alg».proof.Proof.KI.FlashRunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
noncomputable def kernelRun1_B (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : ¬cond1_0 i) (hc1 : cond1_1 i) (hc2 : ¬cond1_2 i)
    (x0 x1 x2 : Vec F S1x512x1x16x64 .f32) (xs0 xs1 : Vec F S512x16x1 .f32) (xs2 : Vec F S512x16x64 .f32) :
    Σ' (LS0 : List (View.Piece (Elt F) S512x16x1 .f32)) (LS1 : List (View.Piece (Elt F) S512x16x1 .f32)), { LS2 : List (View.Piece (Elt F) S512x16x64 .f32) //
      ∀ (xi3 : Vec F S1x512x16x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.FlashRunC.lean ====
/-
  The attention body in case C: a key tile after the first, above the diagonal, not the last.  None of the three
  branches is taken: the body returns at once, touching nothing.
-/
import proofs.«109116_j51110110822880_2_alg».proof.Proof.KI.FlashRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernelRun1_C (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__flash_kernel i arg3 harg3 arg4 harg4 arg5 harg5 arg6 harg6 arg7 harg7 arg8 harg8 arg9 harg9) K := by
  simp only [cc1__flash_kernel_eq_skeleton]; unfold cc1__flash_kernel_skel
  iintro Hk
  sl_exec (disch := first | exact hc0 | exact hc1 | exact hc2)
  sl_step
  iexact Hk

end Cert.KernelIdeal.Hand

end
-- ==== Proof.KI.FlashRunD.lean ====
/-
  The attention body in case D: the LAST key tile on the diagonal: the tile is absorbed, then the accumulator divided by the normaliser is stored into the output block.  The body is run step by step from these
  contents; what each written buffer ends with is the list of its stores, last store first.
-/
import proofs.«109116_j51110110822880_2_alg».proof.Proof.KI.FlashRunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
noncomputable def kernelRun1_D (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : ¬cond1_0 i) (hc1 : cond1_1 i) (hc2 : cond1_2 i)
    (x0 x1 x2 : Vec F S1x512x1x16x64 .f32) (xs0 xs1 : Vec F S512x16x1 .f32) (xs2 : Vec F S512x16x64 .f32) :
    Σ' (L3 : List (View.Piece (Elt F) S1x512x16x64 .f32)) (LS0 : List (View.Piece (Elt F) S512x16x1 .f32)) (LS1 : List (View.Piece (Elt F) S512x16x1 .f32)), { LS2 : List (View.Piece (Elt F) S512x16x64 .f32) //
      ∀  (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.FlashRunE.lean ====
/-
  The attention body in case E: the LAST key tile above the diagonal: nothing is absorbed; the accumulator divided by the normaliser is stored into the output block, the carried state left as it was.  The body is run step by step from these
  contents; what each written buffer ends with is the list of its stores, last store first.
-/
import proofs.«109116_j51110110822880_2_alg».proof.Proof.KI.FlashRunD
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
noncomputable def kernelRun1_E (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole) (hc0 : ¬cond1_0 i) (hc1 : ¬cond1_1 i) (hc2 : cond1_2 i)
    (x0 x1 x2 : Vec F S1x512x1x16x64 .f32) (xs0 xs1 : Vec F S512x16x1 .f32) (xs2 : Vec F S512x16x64 .f32) :
    { L3 : List (View.Piece (Elt F) S1x512x16x64 .f32) //
      ∀  (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0
                ∗ owns (c : Thread nD τ) arg8 fullShare xs1
                ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.FlashOuts.lean ====
/-
  The attention region: what each case of the body leaves in the buffers it writes — the output block and the three
  scratch buffers (running maximum, normaliser, accumulator) — as its stores read back, with the fact that those
  stores cover the buffer: the reset stores the whole buffer, the per-head stores are sixteen blocks [512, 1, ·] that
  tile it.  A case that stores nothing into a buffer leaves it as it was and has no entry here.
-/
import proofs.«109116_j51110110822880_2_alg».proof.Proof.KI.FlashRunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Cases

variable (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole)

/-- Case A's stores into the running maximum cover it. -/
theorem scover1_A_0 (hc0 : cond1_0 i) (hc1 : cond1_1 i) (hc2 : ¬cond1_2 i) (x0 x1 x2 : Vec F S1x512x1x16x64 .f32) (y : S512x16x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S512x16x1.size (by sl_kernel_rfl) y
/-- What case A leaves there: its stores read back. -/
def sout1_A_0 (hc0 : cond1_0 i) (hc1 : cond1_1 i) (hc2 : ¬cond1_2 i) (x0 x1 x2 : Vec F S1x512x1x16x64 .f32) : Vec F S512x16x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

/-- Case A's stores into the normaliser cover it. -/
theorem scover1_A_1 (hc0 : cond1_0 i) (hc1 : cond1_1 i) (hc2 : ¬cond1_2 i) (x0 x1 x2 : Vec F S1x512x1x16x64 .f32) (y : S512x16x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x16x1.size (by sl_kernel_rfl) y
/-- What case A leaves there: its stores read back. -/
def sout1_A_1 (hc0 : cond1_0 i) (hc1 : cond1_1 i) (hc2 : ¬cond1_2 i) (x0 x1 x2 : Vec F S1x512x1x16x64 .f32) : Vec F S512x16x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

/-- Case A's stores into the accumulator cover it. -/
theorem scover1_A_2 (hc0 : cond1_0 i) (hc1 : cond1_1 i) (hc2 : ¬cond1_2 i) (x0 x1 x2 : Vec F S1x512x1x16x64 .f32) (y : S512x16x64.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x16x64.size (by sl_kernel_rfl) y
/-- What case A leaves there: its stores read back. -/
def sout1_A_2 (hc0 : cond1_0 i) (hc1 : cond1_1 i) (hc2 : ¬cond1_2 i) (x0 x1 x2 : Vec F S1x512x1x16x64 .f32) : Vec F S512x16x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- Case B's stores into the running maximum cover it. -/
theorem scover1_B_0 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) (y : S512x16x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S512x1x1.size (by sl_kernel_rfl) y
/-- What case B leaves there: its stores read back. -/
def sout1_B_0 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) : Vec F S512x16x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

/-- Case B's stores into the normaliser cover it. -/
theorem scover1_B_1 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) (y : S512x16x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1x1.size (by sl_kernel_rfl) y
/-- What case B leaves there: its stores read back. -/
def sout1_B_1 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) : Vec F S512x16x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

/-- Case B's stores into the accumulator cover it. -/
theorem scover1_B_2 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) (y : S512x16x64.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1x64.size (by sl_kernel_rfl) y
/-- What case B leaves there: its stores read back. -/
def sout1_B_2 (hc0 : ¬cond1_0 i) (hc1 : cond1_1 i) (hc2 : ¬cond1_2 i) (x0 x1 x2 : Vec F S1x512x1x16x64 .f32) (xs0 xs1 : Vec F S512x16x1 .f32) (xs2 : Vec F S512x16x64 .f32) : Vec F S512x16x64 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- Case D's stores into the output block cover it. -/
theorem cover1_D_3 (hc0 : ¬cond1_0 i) (hc1 : cond1_1 i) (hc2 : cond1_2 i) (x0 x1 x2 : Vec F S1x512x1x16x64 .f32) (xs0 xs1 : Vec F S512x16x1 .f32) (xs2 : Vec F S512x16x64 .f32) (y : S1x512x16x64.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).1 S1x512x16x64.size (by sl_kernel_rfl) y
/-- What case D leaves there: its stores read back. -/
def out1_D_3 (hc0 : ¬cond1_0 i) (hc1 : cond1_1 i) (hc2 : cond1_2 i) (x0 x1 x2 : Vec F S1x512x1x16x64 .f32) (xs0 xs1 : Vec F S512x16x1 .f32) (xs2 : Vec F S512x16x64 .f32) : Vec F S1x512x16x64 .f32 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1)

/-- Case D's stores into the running maximum cover it. -/
theorem scover1_D_0 (hc0 : ¬cond1_0 i) (hc1 : cond1_1 i) (hc2 : cond1_2 i) (x0 x1 x2 : Vec F S1x512x1x16x64 .f32) (xs0 xs1 : Vec F S512x16x1 .f32) (xs2 : Vec F S512x16x64 .f32) (y : S512x16x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.1 S512x1x1.size (by sl_kernel_rfl) y
/-- What case D leaves there: its stores read back. -/
def sout1_D_0 (hc0 : ¬cond1_0 i) (hc1 : cond1_1 i) (hc2 : cond1_2 i) (x0 x1 x2 : Vec F S1x512x1x16x64 .f32) (xs0 xs1 : Vec F S512x16x1 .f32) (xs2 : Vec F S512x16x64 .f32) : Vec F S512x16x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).2.1)

/-- Case D's stores into the normaliser cover it. -/
theorem scover1_D_1 (hc0 : ¬cond1_0 i) (hc1 : cond1_1 i) (hc2 : cond1_2 i) (x0 x1 x2 : Vec F S1x512x1x16x64 .f32) (xs0 xs1 : Vec F S512x16x1 .f32) (xs2 : Vec F S512x16x64 .f32) (y : S512x16x1.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.1 S512x1x1.size (by sl_kernel_rfl) y
/-- What case D leaves there: its stores read back. -/
def sout1_D_1 (hc0 : ¬cond1_0 i) (hc1 : cond1_1 i) (hc2 : cond1_2 i) (x0 x1 x2 : Vec F S1x512x1x16x64 .f32) (xs0 xs1 : Vec F S512x16x1 .f32) (xs2 : Vec F S512x16x64 .f32) : Vec F S512x16x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.2.1)

/-- Case D's stores into the accumulator cover it. -/
theorem scover1_D_2 (hc0 : ¬cond1_0 i) (hc1 : cond1_1 i) (hc2 : cond1_2 i) (x0 x1 x2 : Vec F S1x512x1x16x64 .f32) (xs0 xs1 : Vec F S512x16x1 .f32) (xs2 : Vec F S512x16x64 .f32) (y : S512x16x64.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.2.1 S512x1x64.size (by sl_kernel_rfl) y
/-- What case D leaves there: its stores read back. -/
def sout1_D_2 (hc0 : ¬cond1_0 i) (hc1 : cond1_1 i) (hc2 : cond1_2 i) (x0 x1 x2 : Vec F S1x512x1x16x64 .f32) (xs0 xs1 : Vec F S512x16x1 .f32) (xs2 : Vec F S512x16x64 .f32) : Vec F S512x16x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.2.1)

/-- Case E's stores into the output block cover it. -/
theorem cover1_E_3 (hc0 : ¬cond1_0 i) (hc1 : ¬cond1_1 i) (hc2 : cond1_2 i) (x0 x1 x2 : Vec F S1x512x1x16x64 .f32) (xs0 xs1 : Vec F S512x16x1 .f32) (xs2 : Vec F S512x16x64 .f32) (y : S1x512x16x64.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x16x64.size (by sl_kernel_rfl) y
/-- What case E leaves there: its stores read back. -/
def out1_E_3 (hc0 : ¬cond1_0 i) (hc1 : ¬cond1_1 i) (hc2 : cond1_2 i) (x0 x1 x2 : Vec F S1x512x1x16x64 .f32) (xs0 xs1 : Vec F S512x16x1 .f32) (xs2 : Vec F S512x16x64 .f32) : Vec F S1x512x16x64 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

end Cases

end Cert.KernelIdeal.Hand

end
-- ==== Proof.KI.Flash.lean ====
/-
  The attention region: the state after each grid point, the invariant carried between points, the proof data and the
  body obligation.

  After point t the tuple (output block, running maximum, normaliser, accumulator) is what the point's case leaves,
  computed from the point's three input blocks and, but at a first key tile, from what the point before left in the
  three scratch buffers.  The invariant before a point names exactly that: the three scratch buffers at the previous
  point's contents (anything before the first point), the other scoped buffers at anything.  The three input windows
  read one array, so the array's full share is dealt among them: left half, and the two halves of the right half.
-/
import proofs.«109116_j51110110822880_2_alg».proof.Proof.KI.FlashOuts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A scoped buffer at some contents. -/
abbrev anyB (c : Dev nD) (b : Ref sig .tc) : sProp 𝕄 :=
  iprop(∃ f : Buf (Elt F) ((c : Thread nD τ).loc b), ((c : Thread nD τ).loc b) ↦{fullShare} f)

/-- The region's class invariant with the three scratch buffers as memrefs owned at some contents. -/
theorem PhiA1_eq (c : Dev nD) :
    (Pipeline.ΦA spec1 c : sProp 𝕄)
      = iprop((anyB c cc0_stg0_0 ∗ anyB c cc0_stg0_1 ∗ anyB c cc0_stg1_0 ∗ anyB c cc0_stg2_0 ∗ anyB c cc0_stg2_1 ∗ (∃ d, owns (c : Thread nD τ) scM1_0 fullShare d) ∗ (∃ d, owns (c : Thread nD τ) scM1_1 fullShare d) ∗ (∃ d, owns (c : Thread nD τ) scM1_2 fullShare d) ∗ anyB c cc2_stg0_0 ∗ anyB c cc2_stg0_1 ∗ anyB c cc2_stg1_0 ∗ anyB c cc2_stg2_0 ∗ anyB c cc2_stg2_1) ∗ (∃ r, prngReg c r)) := by
  unfold Pipeline.ΦA; rw [scopedRest1_eq]; simp only [scM1_0, scM1_1, scM1_2, owns_whole]; try rfl

/-! ## Which case a point is in -/

theorem hA (t : Fin cfg1.N) (h0 : t.val % 4 = 0) : cond1_0 (grid1.coords t) ∧ cond1_1 (grid1.coords t) ∧ ¬cond1_2 (grid1.coords t) :=
  ⟨(hcond1_0 t).mpr h0, (hcond1_1 t).mpr (by omega), fun h => by have := (hcond1_2 t).mp h; omega⟩
theorem hB (t : Fin cfg1.N) (h0 : ¬t.val % 4 = 0) (h1 : t.val % 4 ≤ t.val / 4 % 4) (h2 : ¬t.val % 4 = 3) :
    ¬cond1_0 (grid1.coords t) ∧ cond1_1 (grid1.coords t) ∧ ¬cond1_2 (grid1.coords t) :=
  ⟨fun h => h0 ((hcond1_0 t).mp h), (hcond1_1 t).mpr h1, fun h => h2 ((hcond1_2 t).mp h)⟩
theorem hC (t : Fin cfg1.N) (h0 : ¬t.val % 4 = 0) (h1 : ¬t.val % 4 ≤ t.val / 4 % 4) (h2 : ¬t.val % 4 = 3) :
    ¬cond1_0 (grid1.coords t) ∧ ¬cond1_1 (grid1.coords t) ∧ ¬cond1_2 (grid1.coords t) :=
  ⟨fun h => h0 ((hcond1_0 t).mp h), fun h => h1 ((hcond1_1 t).mp h), fun h => h2 ((hcond1_2 t).mp h)⟩
theorem hD (t : Fin cfg1.N) (h0 : ¬t.val % 4 = 0) (h1 : t.val % 4 ≤ t.val / 4 % 4) (h2 : t.val % 4 = 3) :
    ¬cond1_0 (grid1.coords t) ∧ cond1_1 (grid1.coords t) ∧ cond1_2 (grid1.coords t) :=
  ⟨fun h => h0 ((hcond1_0 t).mp h), (hcond1_1 t).mpr h1, (hcond1_2 t).mpr h2⟩
theorem hE (t : Fin cfg1.N) (h0 : ¬t.val % 4 = 0) (h1 : ¬t.val % 4 ≤ t.val / 4 % 4) (h2 : t.val % 4 = 3) :
    ¬cond1_0 (grid1.coords t) ∧ ¬cond1_1 (grid1.coords t) ∧ cond1_2 (grid1.coords t) :=
  ⟨fun h => h0 ((hcond1_0 t).mp h), fun h => h1 ((hcond1_1 t).mp h), (hcond1_2 t).mpr h2⟩

section Regions
variable (V : (c : Dev nD) → (b : Ref sig .tc) → Buf (Elt F) ((c : Thread nD τ).loc b))

/-- The output component at a point where the output window is idle: a placeholder nothing consults. -/
def outJ1 : Vec F S1x512x16x64 .f32 := VO1_3.read (Elt F) VO1_3.junk

/-! ## What the buffers hold after each point -/

/-- (output block, running maximum, normaliser, accumulator) after the body at position `n`. -/
def outsAt1 (c : Dev nD) : (n : ℕ) → n < cfg1.N → Vec F S1x512x16x64 .f32 × Vec F S512x16x1 .f32 × Vec F S512x16x1 .f32 × Vec F S512x16x64 .f32
  | 0, hn => (outJ1, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA ⟨0, hn⟩ (Nat.zero_mod 4)).1 (hA ⟨0, hn⟩ (Nat.zero_mod 4)).2.1 (hA ⟨0, hn⟩ (Nat.zero_mod 4)).2.2 (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA ⟨0, hn⟩ (Nat.zero_mod 4)).1 (hA ⟨0, hn⟩ (Nat.zero_mod 4)).2.1 (hA ⟨0, hn⟩ (Nat.zero_mod 4)).2.2 (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA ⟨0, hn⟩ (Nat.zero_mod 4)).1 (hA ⟨0, hn⟩ (Nat.zero_mod 4)).2.1 (hA ⟨0, hn⟩ (Nat.zero_mod 4)).2.2 (iblk1 V c 0 ⟨0, hn⟩) (iblk1 V c 1 ⟨0, hn⟩) (iblk1 V c 2 ⟨0, hn⟩))
  | n + 1, hn =>
    if h0 : (n + 1) % 4 = 0 then
      (outJ1, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA ⟨n + 1, hn⟩ h0).1 (hA ⟨n + 1, hn⟩ h0).2.1 (hA ⟨n + 1, hn⟩ h0).2.2 (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA ⟨n + 1, hn⟩ h0).1 (hA ⟨n + 1, hn⟩ h0).2.1 (hA ⟨n + 1, hn⟩ h0).2.2 (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA ⟨n + 1, hn⟩ h0).1 (hA ⟨n + 1, hn⟩ h0).2.1 (hA ⟨n + 1, hn⟩ h0).2.2 (iblk1 V c 0 ⟨n + 1, hn⟩) (iblk1 V c 1 ⟨n + 1, hn⟩) (iblk1 V c 2 ⟨n + 1, hn⟩))
    else if h1 : (n + 1) % 4 ≤ (n + 1) / 4 % 4 then
      if h2 : (n + 1) % 4 = 3 then
        (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hD ⟨n + 1, hn⟩ h0 h1 h2).1 (hD ⟨n + 1, hn⟩ h0 h1 h2).2.1 (hD ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hD ⟨n + 1, hn⟩ h0 h1 h2).1 (hD ⟨n + 1, hn⟩ h0 h1 h2).2.1 (hD ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hD ⟨n + 1, hn⟩ h0 h1 h2).1 (hD ⟨n + 1, hn⟩ h0 h1 h2).2.1 (hD ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hD ⟨n + 1, hn⟩ h0 h1 h2).1 (hD ⟨n + 1, hn⟩ h0 h1 h2).2.1 (hD ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (outJ1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB ⟨n + 1, hn⟩ h0 h1 h2).1 (hB ⟨n + 1, hn⟩ h0 h1 h2).2.1 (hB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB ⟨n + 1, hn⟩ h0 h1 h2).1 (hB ⟨n + 1, hn⟩ h0 h1 h2).2.1 (hB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB ⟨n + 1, hn⟩ h0 h1 h2).1 (hB ⟨n + 1, hn⟩ h0 h1 h2).2.1 (hB ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
    else
      if h2 : (n + 1) % 4 = 3 then
        (out1_E_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hE ⟨n + 1, hn⟩ h0 h1 h2).1 (hE ⟨n + 1, hn⟩ h0 h1 h2).2.1 (hE ⟨n + 1, hn⟩ h0 h1 h2).2.2 (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, (outsAt1 c n (Nat.lt_of_succ_lt hn)).2.1, (outsAt1 c n (Nat.lt_of_succ_lt hn)).2.2.1, (outsAt1 c n (Nat.lt_of_succ_lt hn)).2.2.2)
      else
        (outJ1, (outsAt1 c n (Nat.lt_of_succ_lt hn)).2.1, (outsAt1 c n (Nat.lt_of_succ_lt hn)).2.2.1, (outsAt1 c n (Nat.lt_of_succ_lt hn)).2.2.2)

theorem outsAt1_A (c : Dev nD) (t : Fin cfg1.N) (h0 : t.val % 4 = 0) :
    outsAt1 V c t.val t.isLt = (outJ1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA t h0).1 (hA t h0).2.1 (hA t h0).2.2 (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA t h0).1 (hA t h0).2.1 (hA t h0).2.2 (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA t h0).1 (hA t h0).2.1 (hA t h0).2.2 (iblk1 V c 0 t) (iblk1 V c 1 t) (iblk1 V c 2 t)) := by
  obtain ⟨n, hn⟩ := t
  cases n with
  | zero => exact rfl
  | succ n => exact (dif_pos h0).trans rfl
theorem outsAt1_B (c : Dev nD) (t : Fin cfg1.N) (h0 : ¬t.val % 4 = 0) (h1 : t.val % 4 ≤ t.val / 4 % 4) (h2 : ¬t.val % 4 = 3) :
    outsAt1 V c t.val t.isLt = (outJ1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB t h0 h1 h2).1 (hB t h0 h1 h2).2.1 (hB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB t h0 h1 h2).1 (hB t h0 h1 h2).2.1 (hB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB t h0 h1 h2).1 (hB t h0 h1 h2).2.1 (hB t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_neg h2).trans rfl))
theorem outsAt1_C (c : Dev nD) (t : Fin cfg1.N) (h0 : ¬t.val % 4 = 0) (h1 : ¬t.val % 4 ≤ t.val / 4 % 4) (h2 : ¬t.val % 4 = 3) :
    outsAt1 V c t.val t.isLt = (outJ1, (outsAt1 V c (t.val - 1) (Nat.lt_of_le_of_lt (Nat.sub_le _ _) t.isLt)).2.1, (outsAt1 V c (t.val - 1) (Nat.lt_of_le_of_lt (Nat.sub_le _ _) t.isLt)).2.2.1, (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans ((dif_neg h2).trans rfl))
theorem outsAt1_D (c : Dev nD) (t : Fin cfg1.N) (h0 : ¬t.val % 4 = 0) (h1 : t.val % 4 ≤ t.val / 4 % 4) (h2 : t.val % 4 = 3) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hD t h0 h1 h2).1 (hD t h0 h1 h2).2.1 (hD t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hD t h0 h1 h2).1 (hD t h0 h1 h2).2.1 (hD t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hD t h0 h1 h2).1 (hD t h0 h1 h2).2.1 (hD t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hD t h0 h1 h2).1 (hD t h0 h1 h2).2.1 (hD t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_pos h2).trans rfl))
theorem outsAt1_E (c : Dev nD) (t : Fin cfg1.N) (h0 : ¬t.val % 4 = 0) (h1 : ¬t.val % 4 ≤ t.val / 4 % 4) (h2 : t.val % 4 = 3) :
    outsAt1 V c t.val t.isLt = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hE t h0 h1 h2).1 (hE t h0 h1 h2).2.1 (hE t h0 h1 h2).2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, (outsAt1 V c (t.val - 1) (Nat.lt_of_le_of_lt (Nat.sub_le _ _) t.isLt)).2.1, (outsAt1 V c (t.val - 1) (Nat.lt_of_le_of_lt (Nat.sub_le _ _) t.isLt)).2.2.1, (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans ((dif_pos h2).trans rfl))

/-! ## The invariant carried between points -/

/-- Before position `n`: before the first point the class's invariant; afterwards the three scratch buffers at what
    the point before left, the other scoped buffers at anything, the generator register at some state. -/
def PhiS (c : Dev nD) : (n : ℕ) → n ≤ cfg1.N → sProp 𝕄
  | 0, _ => Pipeline.ΦA spec1 c
  | n + 1, hn => iprop((anyB c cc0_stg0_0 ∗ anyB c cc0_stg0_1 ∗ anyB c cc0_stg1_0 ∗ anyB c cc0_stg2_0 ∗ anyB c cc0_stg2_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ anyB c cc2_stg0_0 ∗ anyB c cc2_stg0_1 ∗ anyB c cc2_stg1_0 ∗ anyB c cc2_stg2_0 ∗ anyB c cc2_stg2_1) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((anyB c cc0_stg0_0 ∗ anyB c cc0_stg0_1 ∗ anyB c cc0_stg1_0 ∗ anyB c cc0_stg2_0 ∗ anyB c cc0_stg2_1 ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ anyB c cc2_stg0_0 ∗ anyB c cc2_stg0_1 ∗ anyB c cc2_stg1_0 ∗ anyB c cc2_stg2_0 ∗ anyB c cc2_stg2_1) ∗ (∃ r, prngReg c r)) := rfl
theorem PhiS_pos (c : Dev nD) (n : ℕ) (h : n ≤ cfg1.N) (hz : n ≠ 0) :
    PhiS V c n h = iprop((anyB c cc0_stg0_0 ∗ anyB c cc0_stg0_1 ∗ anyB c cc0_stg1_0 ∗ anyB c cc0_stg2_0 ∗ anyB c cc0_stg2_1 ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ anyB c cc2_stg0_0 ∗ anyB c cc2_stg0_1 ∗ anyB c cc2_stg1_0 ∗ anyB c cc2_stg2_0 ∗ anyB c cc2_stg2_1) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' buffers hold their blocks; the closed forms say which case the point is in; the
    invariant hands the body the three scratch buffers at what the point before left (anything at a first key tile)
    and takes them back at this point's contents; off the last key tile the output's buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · have hc := hA t h0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t hc.2.2) (noFlush1_3 t hc.2.2)]
    rw [outsAt1_A V c t h0]
    unfold sout1_A_0 sout1_A_1 sout1_A_2; (try dsimp only)
    by_cases hz : t.val = 0
    · rw [PhiS_castSucc V c t, PhiS_zero V c _ _ hz, PhiA1_eq]
      iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hb1 Hb2 Hb3 Hb4 Hb5 HS0 HS1 HS2 Hb9 Hb10 Hb11 Hb12 Hb13 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [HS2]
          · unfold owns; iexists _; isplitr
            swap; · iexact HS2
            ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [Hb9]; · iexact Hb9
          isplitl [Hb10]; · iexact Hb10
          isplitl [Hb11]; · iexact Hb11
          isplitl [Hb12]; · iexact Hb12
          iexact Hb13
        · iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hb1 Hb2 Hb3 Hb4 Hb5 HS0 HS1 HS2 Hb9 Hb10 Hb11 Hb12 Hb13 Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [HS2]
          · unfold owns; iexists _; isplitr
            swap; · iexact HS2
            ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t))
          isplitl [Hb9]; · iexact Hb9
          isplitl [Hb10]; · iexact Hb10
          isplitl [Hb11]; · iexact Hb11
          isplitl [Hb12]; · iexact Hb12
          iexact Hb13
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 ≤ t.val / 4 % 4
    · by_cases h2 : t.val % 4 = 3
      · have hc := hD t h0 h1 h2
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t hc.2.2], after1_3]
        rw [outsAt1_D V c t h0 h1 h2]
        unfold out1_D_3 sout1_D_0 sout1_D_1 sout1_D_2; (try dsimp only)
        rw [PhiS_castSucc V c t, PhiS_pos V c _ _ hz]
        iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
        iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Hb1 Hb2 Hb3 Hb4 Hb5 HS0 HS1 HS2 Hb9 Hb10 Hb11 Hb12 Hb13 Hg]
        · isplitr [Hg]
          · isplitl [Hb1]; · iexact Hb1
            isplitl [Hb2]; · iexact Hb2
            isplitl [Hb3]; · iexact Hb3
            isplitl [Hb4]; · iexact Hb4
            isplitl [Hb5]; · iexact Hb5
            isplitl [HS0]
            · unfold owns; iexists _; isplitr
              swap; · iexact HS0
              ipureintro; exact View.read_writes_of_cover _ _ _ _ _ (scover1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [HS1]
            · unfold owns; iexists _; isplitr
              swap; · iexact HS1
              ipureintro; exact View.read_writes_of_cover _ _ _ _ _ (scover1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [HS2]
            · unfold owns; iexists _; isplitr
              swap; · iexact HS2
              ipureintro; exact View.read_writes_of_cover _ _ _ _ _ (scover1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [Hb9]; · iexact Hb9
            isplitl [Hb10]; · iexact Hb10
            isplitl [Hb11]; · iexact Hb11
            isplitl [Hb12]; · iexact Hb12
            iexact Hb13
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · have hc := hB t h0 h1 h2
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t hc.2.2) (noFlush1_3 t hc.2.2)]
        rw [outsAt1_B V c t h0 h1 h2]
        unfold sout1_B_0 sout1_B_1 sout1_B_2; (try dsimp only)
        rw [PhiS_castSucc V c t, PhiS_pos V c _ _ hz]
        iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hb1 Hb2 Hb3 Hb4 Hb5 HS0 HS1 HS2 Hb9 Hb10 Hb11 Hb12 Hb13 Hg]
        · isplitr [Hg]
          · isplitl [Hb1]; · iexact Hb1
            isplitl [Hb2]; · iexact Hb2
            isplitl [Hb3]; · iexact Hb3
            isplitl [Hb4]; · iexact Hb4
            isplitl [Hb5]; · iexact Hb5
            isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [HS1]
            · unfold owns; iexists _; isplitr
              swap; · iexact HS1
              ipureintro; exact View.read_writes_of_cover _ _ _ _ _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [HS2]
            · unfold owns; iexists _; isplitr
              swap; · iexact HS2
              ipureintro; exact View.read_writes_of_cover _ _ _ _ _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
            isplitl [Hb9]; · iexact Hb9
            isplitl [Hb10]; · iexact Hb10
            isplitl [Hb11]; · iexact Hb11
            isplitl [Hb12]; · iexact Hb12
            iexact Hb13
          · iexact Hg
        isplitl [Ho]; · iexact Ho
        isplitl [H0]; · iexact H0
        isplitl [H1]; · iexact H1
        isplitl [H2]; · iexact H2
        iexists _; iexact H3
    · by_cases h2 : t.val % 4 = 3
      · have hc := hE t h0 h1 h2
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t hc.2.2], after1_3]
        rw [outsAt1_E V c t h0 h1 h2]
        unfold out1_E_3; (try dsimp only)
        rw [PhiS_castSucc V c t, PhiS_pos V c _ _ hz]
        iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [Hb1 Hb2 Hb3 Hb4 Hb5 HS0 HS1 HS2 Hb9 Hb10 Hb11 Hb12 Hb13 Hg]
        · isplitr [Hg]
          · isplitl [Hb1]; · iexact Hb1
            isplitl [Hb2]; · iexact Hb2
            isplitl [Hb3]; · iexact Hb3
            isplitl [Hb4]; · iexact Hb4
            isplitl [Hb5]; · iexact Hb5
            isplitl [HS0]; · iexact HS0
            isplitl [HS1]; · iexact HS1
            isplitl [HS2]; · iexact HS2
            isplitl [Hb9]; · iexact Hb9
            isplitl [Hb10]; · iexact Hb10
            isplitl [Hb11]; · iexact Hb11
            isplitl [Hb12]; · iexact Hb12
            iexact Hb13
          · iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)
      · have hc := hC t h0 h1 h2
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t hc.2.2) (noFlush1_3 t hc.2.2)]
        rw [outsAt1_C V c t h0 h1 h2]
        (try dsimp only)
        rw [PhiS_castSucc V c t, PhiS_pos V c _ _ hz]
        iintro ⟨⟨⟨Hb1, Hb2, Hb3, Hb4, Hb5, HS0, HS1, HS2, Hb9, Hb10, Hb11, Hb12, Hb13⟩, Hg⟩, Ho, ⟨%d0, H0⟩, ⟨%d1, H1⟩, ⟨%d2, H2⟩, ⟨%d3, H3⟩⟩
        iapply (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 Set.univ _)
        isplitl [Hb1 Hb2 Hb3 Hb4 Hb5 HS0 HS1 HS2 Hb9 Hb10 Hb11 Hb12 Hb13 Hg]
        · isplitr [Hg]
          · isplitl [Hb1]; · iexact Hb1
            isplitl [Hb2]; · iexact Hb2
            isplitl [Hb3]; · iexact Hb3
            isplitl [Hb4]; · iexact Hb4
            isplitl [Hb5]; · iexact Hb5
            isplitl [HS0]; · iexact HS0
            isplitl [HS1]; · iexact HS1
            isplitl [HS2]; · iexact HS2
            isplitl [Hb9]; · iexact Hb9
            isplitl [Hb10]; · iexact Hb10
            isplitl [Hb11]; · iexact Hb11
            isplitl [Hb12]; · iexact Hb12
            iexact Hb13
          · iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Hb1, Hb2, Hb3, Hb4, Hb5, HS0, HS1, HS2, Hb9, Hb10, Hb11, Hb12, Hb13⟩, Hg⟩
  isplitr [Hg]
  · isplitl [Hb1]; · iexact Hb1
    isplitl [Hb2]; · iexact Hb2
    isplitl [Hb3]; · iexact Hb3
    isplitl [Hb4]; · iexact Hb4
    isplitl [Hb5]; · iexact Hb5
    isplitl [HS0]; · iexists _; iexact HS0
    isplitl [HS1]; · iexists _; iexact HS1
    isplitl [HS2]; · iexists _; iexact HS2
    isplitl [Hb9]; · iexact Hb9
    isplitl [Hb10]; · iexact Hb10
    isplitl [Hb11]; · iexact Hb11
    isplitl [Hb12]; · iexact Hb12
    iexact Hb13
  · iexact Hg

theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Hand

end
-- ==== Proof.KI.Matmul0.lean ====
import proofs.«109116_j51110110822880_2_alg».proof.Proof.Gen.KernelIdeal.Launch
import proofs.«109116_j51110110822880_2_alg».proof.Proof.Gen.KernelIdeal.Skeleton
import proofs.«109116_j51110110822880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the plain matrix product, its body and its proof data

The region multiplies a block of 512 rows of its left array by the whole right array, one block per grid
point, sixteen points in all. Window 0 is the left block (moved in at every point), window 1 the whole right
array (its block index is constant, so it is moved in once and stays), window 2 the block of the product
(moved out at every point). Everything is stated at a parameter `V`: the contents of the core's arrays when the
region is entered.
-/

-- membership in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` at grid point `t`: the part of the window's array, at its entry contents `V`, that
    the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Before the body runs at any point, the buffer of input window 0 holds the window's block there. This holds for
    any proof data whose array for the window is `V`'s and whose body leaves the block where it found it: where
    the block was moved in it is the block by definition; where it was not, the block index is the previous
    point's, and the buffer still holds that block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, the whole right array: it is moved in at the first point only, and at every later
    point its block index has not changed, so the buffer still holds the (one) block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output window's buffer -/

/-- The output buffer after the body, as a function of the two input blocks: the body's single write, of the
    product payload of the two blocks, over the whole buffer. -/
def out0_2 (x0 : Vec F S512x1024 .f32) (x1 : Vec F S1024x3072 .bf16) : Vec F S512x3072 .f32 :=
  View.canon [⟨r0_2, k0_pay1 (View.ld x0 r0_0) (View.ld x1 r0_1)⟩]

/-- That single write covers the buffer: its rectangle is the whole shape. -/
theorem cover0_2 (p0 : Vec F S512x3072 .f32) (y : S512x3072.Idx) :
    ∃ pc ∈ ([⟨r0_2, p0⟩] : List (View.Piece (Elt F) S512x3072 .f32)), y ∈ pc.1.set :=
  View.cover_of_tiled [⟨r0_2, p0⟩] S512x3072.size (by rfl) y

/-! ## The body's triple -/

set_option maxHeartbeats 1000000 in
/-- The body, run on whole buffers — the two inputs' reading `x0` and `x1`, the output's holding anything —, reaches
    its continuation with the inputs unchanged and the output at `out0_2 x0 x1`. The body reads the output buffer
    once before writing it; the value read is never used, and the write that follows covers the buffer, so what
    was there does not matter. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S512x3072 .f32) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays at their entry contents `V`; after the body at point `t`
    each input's buffer still at its block and the output's at `out0_2` of the two input blocks; the invariant
    "the other scoped buffers and the generator register are untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's buffer holds its block before the body at every point, moved in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current buffer,
    whole, at what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same with each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Matmul2.lean ====
import proofs.«109116_j51110110822880_2_alg».proof.Proof.Gen.KernelIdeal.Launch
import proofs.«109116_j51110110822880_2_alg».proof.Proof.Gen.KernelIdeal.Skeleton
import proofs.«109116_j51110110822880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the plain matrix product, its body and its proof data

The region multiplies a block of 512 rows of its left array by the whole right array, one block per grid
point, sixteen points in all. Window 0 is the left block (moved in at every point), window 1 the whole right
array (its block index is constant, so it is moved in once and stays), window 2 the block of the product
(moved out at every point). Everything is stated at a parameter `V`: the contents of the core's arrays when the
region is entered.
-/

-- membership in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's array contents when the region is entered
variable (V : (c : Dev nD) → (b : Ref sig .tc) → Buf (Elt F) ((c : Thread nD τ).loc b))

/-! ## The windows' blocks -/

/-- The block of window `w` at grid point `t`: the part of the window's array, at its entry contents `V`, that
    the window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Before the body runs at any point, the buffer of input window 0 holds the window's block there. This holds for
    any proof data whose array for the window is `V`'s and whose body leaves the block where it found it: where
    the block was moved in it is the block by definition; where it was not, the block index is the previous
    point's, and the buffer still holds that block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1, the whole right array: it is moved in at the first point only, and at every later
    point its block index has not changed, so the buffer still holds the (one) block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each is its whole buffer -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S512x1024 := Rect.unit (s := S512x1024) ![0, 0] S512x1024.size inb_S512x1024_S512x1024_0_0

/-! ## What the body leaves in the output window's buffer -/

/-- The output buffer after the body, as a function of the two input blocks: the body's single write, of the
    product payload of the two blocks, over the whole buffer. -/
def out2_2 (x0 : Vec F S512x1024 .f32) (x1 : Vec F S1024x1024 .bf16) : Vec F S512x1024 .f32 :=
  View.canon [⟨r2_2, k2_pay1 (View.ld x0 r2_0) (View.ld x1 r2_1)⟩]

/-- That single write covers the buffer: its rectangle is the whole shape. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's triple -/

set_option maxHeartbeats 1000000 in
/-- The body, run on whole buffers — the two inputs' reading `x0` and `x1`, the output's holding anything —, reaches
    its continuation with the inputs unchanged and the output at `out2_2 x0 x1`. The body reads the output buffer
    once before writing it; the value read is never used, and the write that follows covers the buffer, so what
    was there does not matter. -/
theorem sound_kernel2 (c : Dev nD) (E : Set ℕ) (i : grid2.Coords) (arg1 : Memref sig .tc .vmem S512x1024 .f32) (harg1 : arg1.IsWhole) (arg2 : Memref sig .tc .vmem S1024x1024 .bf16) (harg2 : arg2.IsWhole) (arg3 : Memref sig .tc .vmem S512x1024 .f32) (harg3 : arg3.IsWhole)
    (x0 : Vec F S512x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The proof data of the region on core `c`: the arrays at their entry contents `V`; after the body at point `t`
    each input's buffer still at its block and the output's at `out2_2` of the two input blocks; the invariant
    "the other scoped buffers and the generator register are untouched"; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block before the body at every point, moved in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`: the invariant, the core's debts, and each window's current buffer,
    whole, at what the proof data says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same with each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    the debts are not touched and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program: @main from the launch to the return, as seven segments.

  @main is a stretch of host operations, the first matrix product, a reshape, the attention region, a reshape, the
  second matrix product and a last reshape.  The contents of the core's buffers at the eight segment boundaries are a
  fold from the launch memory: a host stretch applies its operations, a region puts what its write-backs leave into
  the arrays of its output windows and leaves every other buffer alone.  Each segment is entered from the thread
  state "every unscoped buffer at the boundary's contents, the generator register at some state, nothing owed" and
  leaves the next boundary's.

  In the attention region three input windows read one array.  The array is held whole before the region and whole
  after it; inside, its full share is dealt among the three windows (the left half, and the two halves of the right
  half), all three at the same contents, so the three parts join back into the whole at the exit.

  The result buffer ends at the last boundary's contents, and no segment writes an argument.
-/
import proofs.«109116_j51110110822880_2_alg».proof.Proof.KI.Flash
import proofs.«109116_j51110110822880_2_alg».proof.Proof.KI.Matmul0
import proofs.«109116_j51110110822880_2_alg».proof.Proof.KI.Matmul2

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # One array dealt among three windows

The attention region's proof data hold the array of windows 0, 1, 2 at three shares that make up the full share, and
the output window's array at the full share. -/

section Deal

variable (c : Dev nD) (dat : Dat τ (Elt F) Unit ℕ (UR sig nD τ) ℕ cfg1 c)

/-- The region's arrays one by one: the shared array at its three shares, the output array whole. -/
theorem arrays1_eq (hq0 : dat.q 0 = fullShare.left) (hq1 : dat.q 1 = fullShare.right.left)
    (hq2 : dat.q 2 = fullShare.right.right)
    (G : (w : Fin cfg1.W) → Buf (Elt F) ((cfg1.win w).arr.view.loc (c.tc : Thread nD τ))) :
    (dat.arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  have hs0 : dat.share 0 = fullShare.left := (if_neg Bool.false_ne_true).trans hq0
  have hs1 : dat.share 1 = fullShare.right.left := (if_neg Bool.false_ne_true).trans hq1
  have hs2 : dat.share 2 = fullShare.right.right := (if_neg Bool.false_ne_true).trans hq2
  have hs3 : dat.share 3 = fullShare := if_pos rfl
  unfold Dat.arrays
  -- windows 0, 1, 2 stage one array, so one rewrite turns all three element sets into the whole buffer
  rw [bigSep_W1, hs0, hs1, hs2, hs3, (arr_whole1 0).set_eq_univ, (arr_whole1 3).set_eq_univ]

/-- The two distinct buffers behind the region's four arrays. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)) := by
  unfold Pipeline.arrBufs
  rw [show Finset.univ.image (Pipeline.arrRef spec1) = insert main_v6 {main_v7} from by decide,
    bigSep_insert (by decide), bigSep_singleton]
  rfl

/-- ENTRY: the shared array held whole deals into its three shares, all at the same contents. -/
theorem deal_entry (hq0 : dat.q 0 = fullShare.left) (hq1 : dat.q 1 = fullShare.right.left)
    (hq2 : dat.q 2 = fullShare.right.right) (V : (b : Ref sig .tc) → Buf (Elt F) ((c : Thread nD τ).loc b))
    (G : (w : Fin cfg1.W) → Buf (Elt F) ((cfg1.win w).arr.view.loc (c.tc : Thread nD τ)))
    (hG : ∀ w, G w = V (Pipeline.arrRef spec1 w)) :
    (Pipeline.arrBufs (Ix := Unit) (Name := ℕ) (U := UR sig nD τ) (Lvl := ℕ) spec1 c V : sProp 𝕄) ⊢ dat.arrays G := by
  rw [arrBufs1_eq, arrays1_eq c dat hq0 hq1 hq2, hG 0, hG 1, hG 2, hG 3]
  iintro ⟨H6, H7⟩
  ihave H := (pointsTo_share (PosShare.mem_left_op_right fullShare)).1 $$ H6
  icases H with ⟨Ha, Hbc⟩
  ihave H' := (pointsTo_share (PosShare.mem_left_op_right fullShare.right)).1 $$ Hbc
  icases H' with ⟨Hb, Hc⟩
  isplitl [Ha]; · iexact Ha
  isplitl [Hb]; · iexact Hb
  isplitl [Hc]; · iexact Hc
  iexact H7

/-- EXIT: the three shares, still at one contents, join back into the whole; the output array comes with them. -/
theorem deal_exit (hq0 : dat.q 0 = fullShare.left) (hq1 : dat.q 1 = fullShare.right.left)
    (hq2 : dat.q 2 = fullShare.right.right) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    (dat.arrays G : sProp 𝕄) ⊢ Pipeline.arrBufs (Ix := Unit) (Name := ℕ) (U := UR sig nD τ) (Lvl := ℕ) spec1 c V' := by
  rw [arrBufs1_eq, arrays1_eq c dat hq0 hq1 hq2, hG 0, hG 1, hG 2, hG 3]
  iintro ⟨Ha, Hb, Hc, H7⟩
  isplitr [H7]
  · iapply (pointsTo_share (PosShare.mem_left_op_right fullShare)).2
    isplitl [Ha]; · iexact Ha
    iapply (pointsTo_share (PosShare.mem_left_op_right fullShare.right)).2
    isplitl [Hb]; · iexact Hb
    iexact Hc
  · iexact H7

end Deal

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (the first product's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first product's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the first product's exit each of its arrays holds what the pipeline leaves, every other buffer what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At the attention region's exit: the output array at what the write-backs leave, every other buffer — the array
    the three input windows share among them — as entered. -/
def W4 (c : Dev nD) : Valuation τ sig (Elt F) :=
  Function.update (W3 m ρ c) (Proc.devRef .tc main_v7) ((dat1 (V3 m ρ) c).arrAt 3 cfg1.N)
theorem W4_out (c : Dev nD) : W4 m ρ c (Proc.devRef .tc main_v7) = (dat1 (V3 m ρ) c).arrAt 3 cfg1.N := by
  unfold W4; exact Function.update_self _ _ _
theorem W4_of_ne (c : Dev nD) (b : Ref sig .tc) (hb : b ≠ main_v7) :
    W4 m ρ c (Proc.devRef .tc b) = W3 m ρ c (Proc.devRef .tc b) := by
  unfold W4; exact Function.update_of_ne (fun e => hb (Proc.devRef_injective _ e)) _ _
/-- The same read at the TensorCore's references. -/
abbrev V4 : (c : Dev nD) → (b : Ref sig .tc) → Buf (Elt F) ((c : Thread nD τ).loc b) := fun c b => W4 m ρ c b
/-- At the attention region's exit every window's array holds what the pipeline leaves: an input window's is never
    written, the output's is the fold of its write-backs. -/
theorem hF1 (c : Dev nD) (w : Fin cfg1.W) : (dat1 (V3 m ρ) c).arrAt w cfg1.N = V4 m ρ c (Pipeline.arrRef spec1 w) := by
  match w with
  | ⟨0, _⟩ => exact ((dat1 (V3 m ρ) c).arrAt_in 0 rfl _).trans ((A_eq1 (V3 m ρ) c 0).trans (W4_of_ne m ρ c main_v6 (by decide)).symm)
  | ⟨1, _⟩ => exact ((dat1 (V3 m ρ) c).arrAt_in 1 rfl _).trans ((A_eq1 (V3 m ρ) c 1).trans (W4_of_ne m ρ c main_v6 (by decide)).symm)
  | ⟨2, _⟩ => exact ((dat1 (V3 m ρ) c).arrAt_in 2 rfl _).trans ((A_eq1 (V3 m ρ) c 2).trans (W4_of_ne m ρ c main_v6 (by decide)).symm)
  | ⟨3, _⟩ => exact (W4_out m ρ c).symm
/-- … and every buffer that is no window's array holds what it held at entry. -/
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

/-- After the third host stretch (the second product's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At the second product's exit: its arrays at what the write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At the second product's exit each of its arrays holds what the pipeline leaves, every other buffer what it held. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the contents @main returns with. -/
abbrev W7 : Dev nD → Valuation τ sig (Elt F) := fun c => StableHlo.after hostOps3 (W6 m ρ c)

/-! ## What the last contents are in terms of the regions -/

/-- The last contents are the last reshape applied to the second product's exit contents. -/
theorem W7_eq (c : Dev nD) : W7 m ρ c = StableHlo.after hostOps3 (W6 m ρ c) := rfl
/-- The second product's output array at its exit. -/
theorem W6_main_v9 (c : Dev nD) : W6 m ρ c (Proc.devRef .tc main_v9) = (dat2 (V5 m ρ) c).arrAt 2 cfg2.N := W6_arr m ρ c 2
/-- The attention region's output array at its exit. -/
theorem W4_main_v7 (c : Dev nD) : W4 m ρ c (Proc.devRef .tc main_v7) = (dat1 (V3 m ρ) c).arrAt 3 cfg1.N := W4_out m ρ c
/-- The first product's output array at its exit. -/
theorem W2_main_v5 (c : Dev nD) : W2 m ρ c (Proc.devRef .tc main_v5) = (dat0 (V1 m ρ) c).arrAt 2 cfg0.N := W2_arr m ρ c 2

/-! ## The arguments end as launched, and the result is the last reshape's

No host operation and no region writes an argument, so the fold at an argument's buffer walks back to the launch memory. -/

/-- A buffer no operation of a host stretch writes holds after the stretch what it held before. -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := by host_keeps hostOps3
    _ = W5 m ρ c (Proc.devRef .tc main_arg0) := W6_of_ne m ρ c main_arg0 (by decide)
    _ = W4 m ρ c (Proc.devRef .tc main_arg0) := by host_keeps hostOps2
    _ = W3 m ρ c (Proc.devRef .tc main_arg0) := W4_of_ne m ρ c main_arg0 (by decide)
    _ = W2 m ρ c (Proc.devRef .tc main_arg0) := by host_keeps hostOps1
    _ = W1 m ρ c (Proc.devRef .tc main_arg0) := W2_of_ne m ρ c main_arg0 (by decide)
    _ = W0 m ρ c (Proc.devRef .tc main_arg0) := by host_keeps hostOps0
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by host_keeps hostOps3
    _ = W5 m ρ c (Proc.devRef .tc main_arg1) := W6_of_ne m ρ c main_arg1 (by decide)
    _ = W4 m ρ c (Proc.devRef .tc main_arg1) := by host_keeps hostOps2
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by host_keeps hostOps3
    _ = W5 m ρ c (Proc.devRef .tc main_arg2) := W6_of_ne m ρ c main_arg2 (by decide)
    _ = W4 m ρ c (Proc.devRef .tc main_arg2) := by host_keeps hostOps2
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-! # The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at
    some state. -/
abbrev Tₙ (c : Dev nD) : sProp 𝕄 := iprop(StableHlo.held (c : Thread nD τ) (Pipeline.ucRefs τ sig) (W7 m ρ c) ∗ ∃ r, prngReg c r)

/-! # The regions as segments -/

-- `iapply` of a library lemma stated over the pinned configuration unifies only when unification may unfold plain
-- definitions in a metavariable's type
set_option backward.isDefEq.respectTransparency.types false in
/-- THE FIRST PRODUCT over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of the attention region, the buffers' part: every unscoped buffer at the entry contents is the region's
    arrays — the shared array dealt among its three windows — beside the unscoped rest. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [← Pipeline.unscopedBufs_held c (W3 m ρ c),
    Pipeline.unscopedBufs_split₀ (Ix := Unit) (Name := ℕ) (U := UR sig nD τ) (Lvl := ℕ) cfgs 1 winFacts₀1.arr_unscoped c (V3 m ρ c)]
  exact sep_mono (deal_entry c (dat1 (V3 m ρ) c) rfl rfl rfl (V3 m ρ c) _ (A_eq1 (V3 m ρ) c)) .rfl

/-- EXIT of the attention region, the buffers' part: the arrays at what the pipeline leaves — the three shares of the
    shared array joined back — beside the unscoped rest are every unscoped buffer at the exit contents. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  rw [← Pipeline.unscopedBufs_held c (W4 m ρ c),
    Pipeline.unscopedBufs_split₀ (Ix := Unit) (Name := ℕ) (U := UR sig nD τ) (Lvl := ℕ) cfgs 1 winFacts₀1.arr_unscoped c (V4 m ρ c)]
  refine sep_mono (deal_exit c (dat1 (V3 m ρ) c) rfl rfl rfl (V4 m ρ c) _ (hF1 m ρ c)) (Entails.of_eq ?_)
  unfold Pipeline.unscopedRest
  exact bigSep_congr fun b hb => by rw [hrest1 m ρ c b (Finset.mem_sdiff.mp hb).2]

-- `iapply` of a library lemma stated over the pinned configuration unifies only when unification may unfold plain
-- definitions in a metavariable's type
set_option backward.isDefEq.respectTransparency.types false in
/-- THE ATTENTION REGION over the thread state: entered from every unscoped buffer at `W3`, left at `W4`. Three of its
    windows read one array, so the arrays are dealt out of the unscoped buffers and joined back by hand (`entry1`,
    `exit1`); its invariant starts as the class's and ends as the class's, the scratch buffers' contents forgotten. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (StableHlo.held (c : Thread nD τ) (Pipeline.ucRefs τ sig) (W4 m ρ c) : sProp 𝕄) := exit1 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- THE SECOND PRODUCT over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's seven segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and in every final state the result buffer holds the last boundary's contents and the three
    argument arrays hold what they were launched with. -/
theorem run_main : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v10 (by decide)),
        (h c _ (mem_uc main_arg0 (by decide))).trans (W7_main_arg0 m ρ c),
        (h c _ (mem_uc main_arg1 (by decide))).trans (W7_main_arg1 m ρ c),
        (h c _ (mem_uc main_arg2 (by decide))).trans (W7_main_arg2 m ρ c)⟩)

/-- THE FRAME: @main runs, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.KernelIdeal.Hand

end
-- ==== Proof.KI.HostRead.lean ====
import proofs.«109116_j51110110822880_2_alg».proof.Proof.Gen.KernelIdeal.Launch
import proofs.«109116_j51110110822880_2_alg».proof.Proof.Gen.KernelIdeal.Regions
import Idealize.ShloMosaic.Lib.StableHlo.Run
import Idealize.ShloMosaic.Lib.Pipeline.Value
import Idealize.ShloMosaic.Lib.ValueIdx
import Idealize.ShloMosaic.PureOps.Ideal.Laws

/-!
# The host operations between the regions, read at an index

Between its three regions the program only moves data: it transposes the two weight arrays and narrows them to the
16-bit format (the identity over the extended reals), merges the batch and row axes of the input, splits the first
product into (batch, row, stack, head, lane), merges the attention's output back into (row, column), and splits the
rows of the second product. Each statement below reads one array after a stretch of such operations, at explicit
coordinates, from the contents `W` the stretch started from — for any `W`.
-/

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

-- the contents of the core's arrays when a stretch of host operations starts
variable (W : Valuation τ sig (Elt Ideal))

/-! ## Before region 0: the two weight arrays transposed, the input's rows merged -/

/-- The left array of region 0 is the input with batch and row merged. -/
theorem host0_v4_eq : StableHlo.after (hostOps0 (F := Ideal)) W main_v4
    = shapeCast S8192x1024 (W main_arg0) shapeCasts_S4x2048x1024_S8192x1024 := by
  dsimp only [hostOps0]
  after_results
  rfl

/-- Row `r` of the merged input is row `r % 2048` of batch `r / 2048`. -/
theorem host0_v4_apply (r : Fin 8192) (c : Fin 1024) :
    StableHlo.after (hostOps0 (F := Ideal)) W main_v4 (ix2 r c)
      = W main_arg0 (ix3 (⟨r.val / 2048, by have := r.isLt; omega⟩ : Fin 4) (⟨r.val % 2048, Nat.mod_lt _ (by decide)⟩ : Fin 2048) c) := by
  rw [host0_v4_eq]
  exact shapeCast_apply _ shapeCasts_S4x2048x1024_S8192x1024 (ix2 r c) _
    (by rewrite [Shape.rowMajor_val_three, Shape.rowMajor_val_two]
        show (r.val / 2048 * 2048 + r.val % 2048) * 1024 + c.val = r.val * 1024 + c.val
        omega)

/-- The right array of region 0 is the projection weights transposed (and narrowed, which changes nothing). -/
theorem host0_v1_eq : StableHlo.after (hostOps0 (F := Ideal)) W main_v1
    = truncf (F := Ideal) (s := S1024x3072) (φ := .f32) .bf16 (transpose S1024x3072 [1, 0] (W main_arg1) transposes_S3072x1024_S1024x3072_1_0) bitsLt_bf16_f32 := by
  dsimp only [hostOps0]
  after_results

theorem host0_v1_apply (k : Fin 1024) (f : Fin 3072) :
    StableHlo.after (hostOps0 (F := Ideal)) W main_v1 (ix2 k f) = W main_arg1 (ix2 f k) := by
  rw [host0_v1_eq]
  show transpose S1024x3072 [1, 0] (W main_arg1) transposes_S3072x1024_S1024x3072_1_0 (ix2 k f) = _
  exact transpose_apply [1, 0] _ transposes_S3072x1024_S1024x3072_1_0 (ix2 k f) (ix2 f k) (fun b => match b with
    | ⟨0, _⟩ => rfl
    | ⟨1, _⟩ => rfl)

/-- The right array of region 2 is the output weights transposed (and narrowed). -/
theorem host0_v3_eq : StableHlo.after (hostOps0 (F := Ideal)) W main_v3
    = truncf (F := Ideal) (s := S1024x1024) (φ := .f32) .bf16 (transpose S1024x1024 [1, 0] (W main_arg2) transposes_S1024x1024_S1024x1024_1_0) bitsLt_bf16_f32 := by
  dsimp only [hostOps0]
  after_results

theorem host0_v3_apply (k : Fin 1024) (f : Fin 1024) :
    StableHlo.after (hostOps0 (F := Ideal)) W main_v3 (ix2 k f) = W main_arg2 (ix2 f k) := by
  rw [host0_v3_eq]
  show transpose S1024x1024 [1, 0] (W main_arg2) transposes_S1024x1024_S1024x1024_1_0 (ix2 k f) = _
  exact transpose_apply [1, 0] _ transposes_S1024x1024_S1024x1024_1_0 (ix2 k f) (ix2 f k) (fun b => match b with
    | ⟨0, _⟩ => rfl
    | ⟨1, _⟩ => rfl)

/-- An array the first stretch does not write keeps its contents. -/
theorem host0_of (r : Ref sig .tc) (h : r ∉ hostOps0_W) : StableHlo.after (hostOps0 (F := Ideal)) W r = W r :=
  StableHlo.after_of_writes_sub hostOps0 _ hostOps0_writes h

/-! ## Between regions 0 and 1: the first product split into batch, row, stack, head, lane -/

theorem host1_v6_eq : StableHlo.after (hostOps1 (F := Ideal)) W main_v6
    = shapeCast S4x2048x3x16x64 (W main_v5) shapeCasts_S8192x3072_S4x2048x3x16x64 := by
  dsimp only [hostOps1]
  after_results
  rfl

theorem host1_v6_apply (b : Fin 4) (t : Fin 2048) (s : Fin 3) (h : Fin 16) (d : Fin 64) :
    StableHlo.after (hostOps1 (F := Ideal)) W main_v6 (ix5 b t s h d)
      = W main_v5 (ix2 (⟨b.val * 2048 + t.val, by have := b.isLt; have := t.isLt; omega⟩ : Fin 8192)
          (⟨s.val * 1024 + h.val * 64 + d.val, by have := s.isLt; have := h.isLt; have := d.isLt; omega⟩ : Fin 3072)) := by
  rw [host1_v6_eq]
  exact shapeCast_apply _ shapeCasts_S8192x3072_S4x2048x3x16x64 (ix5 b t s h d) _
    (by rewrite [Shape.rowMajor_val_two, Shape.rowMajor_val_five]
        show (b.val * 2048 + t.val) * 3072 + (s.val * 1024 + h.val * 64 + d.val)
          = (((b.val * 2048 + t.val) * 3 + s.val) * 16 + h.val) * 64 + d.val
        omega)

/-- An array the second stretch does not write keeps its contents. -/
theorem host1_of (r : Ref sig .tc) (h : r ∉ hostOps1_W) : StableHlo.after (hostOps1 (F := Ideal)) W r = W r :=
  StableHlo.after_of_writes_sub hostOps1 _ hostOps1_writes h

/-! ## Between regions 1 and 2: the attention's output merged into rows and columns -/

theorem host2_v8_eq : StableHlo.after (hostOps2 (F := Ideal)) W main_v8
    = shapeCast S8192x1024 (W main_v7) shapeCasts_S4x2048x16x64_S8192x1024 := by
  dsimp only [hostOps2]
  after_results
  rfl

theorem host2_v8_apply (r : Fin 8192) (c : Fin 1024) :
    StableHlo.after (hostOps2 (F := Ideal)) W main_v8 (ix2 r c)
      = W main_v7 (ix4 (⟨r.val / 2048, by have := r.isLt; omega⟩ : Fin 4) (⟨r.val % 2048, Nat.mod_lt _ (by decide)⟩ : Fin 2048)
          (⟨c.val / 64, by have := c.isLt; omega⟩ : Fin 16) (⟨c.val % 64, Nat.mod_lt _ (by decide)⟩ : Fin 64)) := by
  rw [host2_v8_eq]
  exact shapeCast_apply _ shapeCasts_S4x2048x16x64_S8192x1024 (ix2 r c) _
    (by rewrite [Shape.rowMajor_val_four, Shape.rowMajor_val_two]
        show ((r.val / 2048 * 2048 + r.val % 2048) * 16 + c.val / 64) * 64 + c.val % 64 = r.val * 1024 + c.val
        omega)

/-- An array the third stretch does not write keeps its contents. -/
theorem host2_of (r : Ref sig .tc) (h : r ∉ hostOps2_W) : StableHlo.after (hostOps2 (F := Ideal)) W r = W r :=
  StableHlo.after_of_writes_sub hostOps2 _ hostOps2_writes h

/-! ## After region 2: the rows of the second product split into batch and row -/

theorem host3_v10_eq : StableHlo.after (hostOps3 (F := Ideal)) W main_v10
    = shapeCast S4x2048x1024 (W main_v9) shapeCasts_S8192x1024_S4x2048x1024 := by
  dsimp only [hostOps3]
  after_results
  rfl

theorem host3_v10_apply (b : Fin 4) (t : Fin 2048) (f : Fin 1024) :
    StableHlo.after (hostOps3 (F := Ideal)) W main_v10 (ix3 b t f)
      = W main_v9 (ix2 (⟨b.val * 2048 + t.val, by have := b.isLt; have := t.isLt; omega⟩ : Fin 8192) f) := by
  rw [host3_v10_eq]
  exact shapeCast_apply _ shapeCasts_S8192x1024_S4x2048x1024 (ix3 b t f) _
    (by rewrite [Shape.rowMajor_val_two, Shape.rowMajor_val_three]
        show (b.val * 2048 + t.val) * 1024 + f.val = (b.val * 2048 + t.val) * 1024 + f.val
        omega)

/-- An array the last stretch does not write keeps its contents. -/
theorem host3_of (r : Ref sig .tc) (h : r ∉ hostOps3_W) : StableHlo.after (hostOps3 (F := Ideal)) W r = W r :=
  StableHlo.after_of_writes_sub hostOps3 _ hostOps3_writes h

end Cert.KernelIdeal.Hand

end
-- ==== Proof.Attn5Spec.lean ====
/-
  The attention region by itself, over the projected array `qkv : [4, 2048, 3, 16, 64]` (batch, row, stack, head, lane;
  stack 0 the queries, 1 the keys, 2 the values): the score of query row q against key row k in head h is the 64-lane
  dot product times the f32 word of 1/8, a key after the query scores ⊥, and the output at (b, q, h, d) is the
  softmax-weighted sum over all 2048 keys of the value rows.
-/
import Idealize.ShloMosaic.PureOps.Ideal
import Idealize.ShloMosaic.Lib.ValueIdx
import proofs.«109116_j51110110822880_2_alg».proof.Proof.LibOnlineSoftmax

noncomputable section

namespace Cert.Attn5Spec

open Idealize.ShloMosaic Idealize.ShloMosaic.ValueIdx Cert.Lib.OnlineSoftmax
open scoped BigOperators

abbrev SQkv : Shape := ⟨5, ![4, 2048, 3, 16, 64]⟩
abbrev SOut : Shape := ⟨4, ![4, 2048, 16, 64]⟩

variable (qkv : SQkv.Idx → EReal)

/-- The f32 word of 1/8. -/
abbrev scale : EReal := Ideal.ofBits .f32 0x3E000000#32

def score5 (b : Fin 4) (h : Fin 16) (q k : Fin 2048) : EReal :=
  (∑ d : Fin 64, qkv (ix5 b q (0 : Fin 3) h d) * qkv (ix5 b k (1 : Fin 3) h d)) * scale

def masked5 (b : Fin 4) (h : Fin 16) (q : Fin 2048) (k : Fin 2048) : EReal :=
  if k.val ≤ q.val then score5 qkv b h q k else ⊥

def value5 (b : Fin 4) (h : Fin 16) (d : Fin 64) (k : Fin 2048) : EReal := qkv (ix5 b k (2 : Fin 3) h d)

def attn5 (b : Fin 4) (h : Fin 16) (q : Fin 2048) (d : Fin 64) : EReal :=
  ∑ k : Fin 2048, Ideal.div (Ideal.exp (masked5 qkv b h q k - mx (masked5 qkv b h q) Finset.univ))
      (den (masked5 qkv b h q) Finset.univ) * value5 qkv b h d k

/-- The region's output array [4, 2048, 16, 64]. -/
def attnArr : SOut.Idx → EReal := fun i => attn5 qkv (i 0) (i 2) (i 1) (i 3)

end Cert.Attn5Spec

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.KI.MatmulValue.lean ====
import proofs.«109116_j51110110822880_2_alg».proof.Proof.KI.Matmul0
import proofs.«109116_j51110110822880_2_alg».proof.Proof.KI.Matmul2
import proofs.«109116_j51110110822880_2_alg».proof.Proof.LibPlainMatmul
import Idealize.ShloMosaic.Lib.Pipeline.Value
import Idealize.ShloMosaic.Lib.ValueIdx
import Idealize.ShloMosaic.PureOps.Ideal.Laws

/-!
# The two plain matrix products, read over the extended reals

Each of the two regions leaves in its output array the product of its left array (8192 rows of 1024) and its right
array (1024 rows): the body's payload at a point is the product of the left block's 512 rows with the whole right
array, point `t` writes it to rows `512 t … 512 t + 511`, and the sixteen points' blocks fill the array.
-/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The product of a left array of `R` rows of 1024 and a right array of 1024 rows of `C`: at `(r, q)` the sum over
    `k` of the left array at `(r, k)` times the right array at `(k, q)`. -/
def matProd (R C : Nat) (a : (⟨2, ![R, 1024]⟩ : Shape).Idx → EReal) (b : (⟨2, ![1024, C]⟩ : Shape).Idx → EReal) :
    (⟨2, ![R, C]⟩ : Shape).Idx → EReal :=
  fun i => ∑ k : Fin 1024, a (ix2 (⟨(i 0).val, idx2_lt0 i⟩ : Fin R) k) * b (ix2 k (⟨(i 1).val, idx2_lt1 i⟩ : Fin C))

/-- The product array read at row `r` and column `q`. -/
theorem matProd_apply (R C : Nat) (a : (⟨2, ![R, 1024]⟩ : Shape).Idx → EReal) (b : (⟨2, ![1024, C]⟩ : Shape).Idx → EReal)
    (r : Fin R) (q : Fin C) : matProd R C a b (ix2 r q) = ∑ k : Fin 1024, a (ix2 r k) * b (ix2 k q) := rfl

/-- The zero offsets of a rectangle that starts at the origin. -/
theorem hz : (![0, 0] : Fin 2 → Nat) = fun _ => 0 := funext fun a => by fin_cases a <;> rfl

-- the core's array contents when a region is entered
variable (V : (c : Dev nD) → (b : Ref sig .tc) → Buf (Elt Ideal) ((c : Thread nD τ).loc b))

/-! ## Region 0 -/

/-- The body's payload of region 0, read at row `p` and column `q`: the left block's row `p` against the right
    array's column `q`. Narrowing the left block to the 16-bit format and the two casts to the same shape change
    nothing over the extended reals, and the accumulator the product is added to is zero. -/
theorem k0_pay1_apply (x0 : Vec Ideal S512x1024 .f32) (x1 : Vec Ideal S1024x3072 .bf16) (p : Fin 512) (q : Fin 3072) :
    k0_pay1 (F := Ideal) x0 x1 (ix2 p q) = ∑ k : Fin 1024, x0 (ix2 p k) * x1 (ix2 k q) := by
  unfold k0_pay1
  simp only [shapeCast_self]
  exact PlainMatmul.matmul_plain_apply dot_S512x1024_S1024x3072_S512x3072_1_0_0_1_n_n rfl rfl rfl rfl rfl rfl none _ _ p q

/-- The payload at an index `y` of the block is the product array at an index `i` of the whole array, as soon as
    row `y 0` of the left block is row `i 0` of the left array and column `y 1` of the right block is column `i 1` of
    the right array. -/
theorem k0_pay1_eq_matProd (x0 : Vec Ideal S512x1024 .f32) (x1 : Vec Ideal S1024x3072 .bf16)
    (a : S8192x1024.Idx → EReal) (b : S1024x3072.Idx → EReal) (y : S512x3072.Idx) (i : S8192x3072.Idx)
    (h0 : ∀ k : Fin 1024, x0 (ix2 (⟨(y 0).val, idx2_lt0 y⟩ : Fin 512) k) = a (ix2 (⟨(i 0).val, idx2_lt0 i⟩ : Fin 8192) k))
    (h1 : ∀ k : Fin 1024, x1 (ix2 k (⟨(y 1).val, idx2_lt1 y⟩ : Fin 3072)) = b (ix2 k (⟨(i 1).val, idx2_lt1 i⟩ : Fin 3072))) :
    k0_pay1 (F := Ideal) x0 x1 y = matProd 8192 3072 a b i := by
  have e : y = ix2 (⟨(y 0).val, idx2_lt0 y⟩ : Fin 512) (⟨(y 1).val, idx2_lt1 y⟩ : Fin 3072) := by
    funext d; match d with | ⟨0, _⟩ => rfl | ⟨1, _⟩ => rfl
  calc k0_pay1 (F := Ideal) x0 x1 y
      = k0_pay1 (F := Ideal) x0 x1 (ix2 (⟨(y 0).val, idx2_lt0 y⟩ : Fin 512) (⟨(y 1).val, idx2_lt1 y⟩ : Fin 3072)) :=
        congrArg (k0_pay1 (F := Ideal) x0 x1) e
    _ = ∑ k : Fin 1024, x0 (ix2 (⟨(y 0).val, idx2_lt0 y⟩ : Fin 512) k) * x1 (ix2 k (⟨(y 1).val, idx2_lt1 y⟩ : Fin 3072)) :=
        k0_pay1_apply x0 x1 _ _
    _ = matProd 8192 3072 a b i := Finset.sum_congr rfl fun k _ => by rw [h0 k, h1 k]

/-- The three index maps of region 0 at every grid point: the left block and the output block are block `t` of
    their arrays' rows and start at column 0; the right array's block is the whole array. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point `t` moves out to the output array is block `t` of the product of the two arrays as the region
    finds them. -/
theorem flushed0_2_eq (c : Dev nD) (t : Fin cfg0.N) :
    (dat0 V c).flushed 2 t = ((cfg0.win 2).blk t).view.read (Elt Ideal) (matProd 8192 3072 (V c main_v4) (V c main_v1)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x3072) hz]
  obtain ⟨e0, e1, e2, e3, e4, e5⟩ := idx_facts0 t
  funext j
  refine k0_pay1_eq_matProd (iblk0 V c 0 t) (iblk0 V c 1 t) (V c main_v4) (V c main_v1) j (((cfg0.win 2).blk t).view.emb j) ?_ ?_
  · intro k
    show V c main_v4 (((cfg0.win 0).blk t).view.emb (ix2 (⟨(j 0).val, idx2_lt0 j⟩ : Fin 512) k)) = V c main_v4 _
    refine congrArg (V c main_v4) ?_
    funext d; apply Fin.ext
    match d with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · intro k
    show V c main_v1 (((cfg0.win 1).blk t).view.emb (ix2 k (⟨(j 1).val, idx2_lt1 j⟩ : Fin 3072))) = V c main_v1 _
    refine congrArg (V c main_v1) ?_
    funext d; apply Fin.ext
    match d with
    | ⟨0, _⟩ => show win0_1.index t (0 : Fin 2) * 1024 + 1 * k.val = k.val; omega
    | ⟨1, _⟩ => show win0_1.index t (1 : Fin 2) * 3072 + 1 * (j 1).val = win0_2.index t (1 : Fin 2) * 3072 + 1 * (j 1).val; omega

/-- An index of the output array is in point `t`'s block iff each coordinate is in the block's range on its axis. -/
theorem mem_blk0_2 (t : Fin cfg0.N) (i : S8192x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v5).slice (win0_2.rect t)).set ↔ _
  rw [View.set_slice_whole, Rect.mem_set_unit]
  exact Iff.rfl

/-- Every index of the output array is in some point's block: row `r` is in the block of point `r / 512`, and every
    block spans all the columns. -/
theorem cover0_2_arr (i : S8192x3072.Idx) :
    ∃ t : Fin cfg0.N, (cfg0.win 2).flush t = true ∧ i ∈ ((cfg0.win 2).blk t).view.set := by
  have hi0 : (i 0).val < 8192 := idx2_lt0 i
  have hi1 : (i 1).val < 3072 := idx2_lt1 i
  have hN : cfg0.N = 16 := N_0
  have ht : (i 0).val / 512 < cfg0.N := by rw [hN]; omega
  obtain ⟨e0, e1, e2, e3, e4, e5⟩ := idx_facts0 ⟨(i 0).val / 512, ht⟩
  have q0 : win0_2.index ⟨(i 0).val / 512, ht⟩ (0 : Fin 2) = (i 0).val / 512 := e5
  refine ⟨⟨(i 0).val / 512, ht⟩, flush0_2 _, ?_⟩
  rw [mem_blk0_2]
  intro a
  match a with
  | ⟨0, _⟩ => show win0_2.index ⟨(i 0).val / 512, ht⟩ (0 : Fin 2) * 512 ≤ (i 0).val ∧ (i 0).val < win0_2.index ⟨(i 0).val / 512, ht⟩ (0 : Fin 2) * 512 + 512; omega
  | ⟨1, _⟩ => show win0_2.index ⟨(i 0).val / 512, ht⟩ (1 : Fin 2) * 3072 ≤ (i 1).val ∧ (i 1).val < win0_2.index ⟨(i 0).val / 512, ht⟩ (1 : Fin 2) * 3072 + 3072; omega

/-- The output array after the region is the product of the left and right arrays as the region finds them. -/
theorem arr0_2_eq (c : Dev nD) :
    (dat0 V c).arrAt 2 cfg0.N = matProd 8192 3072 (V c main_v4) (V c main_v1) :=
  (dat0 V c).arrAt_eq_of_cover 2 (matProd 8192 3072 (V c main_v4) (V c main_v1)) (fun t _ => flushed0_2_eq V c t) cover0_2_arr

/-- The same read at row `r` and column `q`. -/
theorem arr0_2_apply (c : Dev nD) (r : Fin 8192) (q : Fin 3072) :
    (dat0 V c).arrAt 2 cfg0.N (ix2 r q)
      = ∑ k : Fin 1024, @HMul.hMul EReal EReal EReal _ (V c main_v4 (ix2 r k)) (V c main_v1 (ix2 k q)) := by
  rw [arr0_2_eq]
  rfl

/-! ## Region 2 -/

/-- The body's payload of region 2, read at row `p` and column `q`: the left block's row `p` against the right
    array's column `q`. Narrowing the left block to the 16-bit format and the two casts to the same shape change
    nothing over the extended reals, and the accumulator the product is added to is zero. -/
theorem k2_pay1_apply (x0 : Vec Ideal S512x1024 .f32) (x1 : Vec Ideal S1024x1024 .bf16) (p : Fin 512) (q : Fin 1024) :
    k2_pay1 (F := Ideal) x0 x1 (ix2 p q) = ∑ k : Fin 1024, x0 (ix2 p k) * x1 (ix2 k q) := by
  unfold k2_pay1
  simp only [shapeCast_self]
  exact PlainMatmul.matmul_plain_apply dot_S512x1024_S1024x1024_S512x1024_1_0_0_1_n_n rfl rfl rfl rfl rfl rfl none _ _ p q

/-- The payload at an index `y` of the block is the product array at an index `i` of the whole array, as soon as
    row `y 0` of the left block is row `i 0` of the left array and column `y 1` of the right block is column `i 1` of
    the right array. -/
theorem k2_pay1_eq_matProd (x0 : Vec Ideal S512x1024 .f32) (x1 : Vec Ideal S1024x1024 .bf16)
    (a : S8192x1024.Idx → EReal) (b : S1024x1024.Idx → EReal) (y : S512x1024.Idx) (i : S8192x1024.Idx)
    (h0 : ∀ k : Fin 1024, x0 (ix2 (⟨(y 0).val, idx2_lt0 y⟩ : Fin 512) k) = a (ix2 (⟨(i 0).val, idx2_lt0 i⟩ : Fin 8192) k))
    (h1 : ∀ k : Fin 1024, x1 (ix2 k (⟨(y 1).val, idx2_lt1 y⟩ : Fin 1024)) = b (ix2 k (⟨(i 1).val, idx2_lt1 i⟩ : Fin 1024))) :
    k2_pay1 (F := Ideal) x0 x1 y = matProd 8192 1024 a b i := by
  have e : y = ix2 (⟨(y 0).val, idx2_lt0 y⟩ : Fin 512) (⟨(y 1).val, idx2_lt1 y⟩ : Fin 1024) := by
    funext d; match d with | ⟨0, _⟩ => rfl | ⟨1, _⟩ => rfl
  calc k2_pay1 (F := Ideal) x0 x1 y
      = k2_pay1 (F := Ideal) x0 x1 (ix2 (⟨(y 0).val, idx2_lt0 y⟩ : Fin 512) (⟨(y 1).val, idx2_lt1 y⟩ : Fin 1024)) :=
        congrArg (k2_pay1 (F := Ideal) x0 x1) e
    _ = ∑ k : Fin 1024, x0 (ix2 (⟨(y 0).val, idx2_lt0 y⟩ : Fin 512) k) * x1 (ix2 k (⟨(y 1).val, idx2_lt1 y⟩ : Fin 1024)) :=
        k2_pay1_apply x0 x1 _ _
    _ = matProd 8192 1024 a b i := Finset.sum_congr rfl fun k _ => by rw [h0 k, h1 k]

/-- The three index maps of region 2 at every grid point: the left block and the output block are block `t` of
    their arrays' rows and start at column 0; the right array's block is the whole array. -/
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What grid point `t` moves out to the output array is block `t` of the product of the two arrays as the region
    finds them. -/
theorem flushed2_2_eq (c : Dev nD) (t : Fin cfg2.N) :
    (dat2 V c).flushed 2 t = ((cfg2.win 2).blk t).view.read (Elt Ideal) (matProd 8192 1024 (V c main_v8) (V c main_v3)) := by
  show (cfg2.win 2).cut (grid2.coords t) ((dat2 V c).after 2 t) = _
  rw [after2_2]
  unfold out2_2
  rw [View.canon_unit_zero hz]
  simp only [View.ld_unit_zero (S := S512x1024) hz, View.ld_unit_zero (S := S1024x1024) hz]
  obtain ⟨e0, e1, e2, e3, e4, e5⟩ := idx_facts2 t
  funext j
  refine k2_pay1_eq_matProd (iblk2 V c 0 t) (iblk2 V c 1 t) (V c main_v8) (V c main_v3) j (((cfg2.win 2).blk t).view.emb j) ?_ ?_
  · intro k
    show V c main_v8 (((cfg2.win 0).blk t).view.emb (ix2 (⟨(j 0).val, idx2_lt0 j⟩ : Fin 512) k)) = V c main_v8 _
    refine congrArg (V c main_v8) ?_
    funext d; apply Fin.ext
    match d with
    | ⟨0, _⟩ => show win2_0.index t (0 : Fin 2) * 512 + 1 * (j 0).val = win2_2.index t (0 : Fin 2) * 512 + 1 * (j 0).val; omega
    | ⟨1, _⟩ => show win2_0.index t (1 : Fin 2) * 1024 + 1 * k.val = k.val; omega
  · intro k
    show V c main_v3 (((cfg2.win 1).blk t).view.emb (ix2 k (⟨(j 1).val, idx2_lt1 j⟩ : Fin 1024))) = V c main_v3 _
    refine congrArg (V c main_v3) ?_
    funext d; apply Fin.ext
    match d with
    | ⟨0, _⟩ => show win2_1.index t (0 : Fin 2) * 1024 + 1 * k.val = k.val; omega
    | ⟨1, _⟩ => show win2_1.index t (1 : Fin 2) * 1024 + 1 * (j 1).val = win2_2.index t (1 : Fin 2) * 1024 + 1 * (j 1).val; omega

/-- An index of the output array is in point `t`'s block iff each coordinate is in the block's range on its axis. -/
theorem mem_blk2_2 (t : Fin cfg2.N) (i : S8192x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v9).slice (win2_2.rect t)).set ↔ _
  rw [View.set_slice_whole, Rect.mem_set_unit]
  exact Iff.rfl

/-- Every index of the output array is in some point's block: row `r` is in the block of point `r / 512`, and every
    block spans all the columns. -/
theorem cover2_2_arr (i : S8192x1024.Idx) :
    ∃ t : Fin cfg2.N, (cfg2.win 2).flush t = true ∧ i ∈ ((cfg2.win 2).blk t).view.set := by
  have hi0 : (i 0).val < 8192 := idx2_lt0 i
  have hi1 : (i 1).val < 1024 := idx2_lt1 i
  have hN : cfg2.N = 16 := N_2
  have ht : (i 0).val / 512 < cfg2.N := by rw [hN]; omega
  obtain ⟨e0, e1, e2, e3, e4, e5⟩ := idx_facts2 ⟨(i 0).val / 512, ht⟩
  have q0 : win2_2.index ⟨(i 0).val / 512, ht⟩ (0 : Fin 2) = (i 0).val / 512 := e5
  refine ⟨⟨(i 0).val / 512, ht⟩, flush2_2 _, ?_⟩
  rw [mem_blk2_2]
  intro a
  match a with
  | ⟨0, _⟩ => show win2_2.index ⟨(i 0).val / 512, ht⟩ (0 : Fin 2) * 512 ≤ (i 0).val ∧ (i 0).val < win2_2.index ⟨(i 0).val / 512, ht⟩ (0 : Fin 2) * 512 + 512; omega
  | ⟨1, _⟩ => show win2_2.index ⟨(i 0).val / 512, ht⟩ (1 : Fin 2) * 1024 ≤ (i 1).val ∧ (i 1).val < win2_2.index ⟨(i 0).val / 512, ht⟩ (1 : Fin 2) * 1024 + 1024; omega

/-- The output array after the region is the product of the left and right arrays as the region finds them. -/
theorem arr2_2_eq (c : Dev nD) :
    (dat2 V c).arrAt 2 cfg2.N = matProd 8192 1024 (V c main_v8) (V c main_v3) :=
  (dat2 V c).arrAt_eq_of_cover 2 (matProd 8192 1024 (V c main_v8) (V c main_v3)) (fun t _ => flushed2_2_eq V c t) cover2_2_arr

/-- The same read at row `r` and column `q`. -/
theorem arr2_2_apply (c : Dev nD) (r : Fin 8192) (q : Fin 1024) :
    (dat2 V c).arrAt 2 cfg2.N (ix2 r q)
      = ∑ k : Fin 1024, @HMul.hMul EReal EReal EReal _ (V c main_v8 (ix2 r k)) (V c main_v3 (ix2 k q)) := by
  rw [arr2_2_eq]
  rfl

end Cert.KernelIdeal.Hand

end
-- ==== Proof.KI.Chain.lean ====
import proofs.«109116_j51110110822880_2_alg».proof.Proof.AttnSpec
import proofs.«109116_j51110110822880_2_alg».proof.Proof.Attn5Spec
import proofs.«109116_j51110110822880_2_alg».proof.Proof.KI.MatmulValue

/-!
# The three regions composed, as plain arrays

The program computes its result in three steps with re-indexings between them: the rows of `x` merged into one axis
and multiplied by the transposed projection weights; the product split into (batch, row, stack, head, lane) and
fed to the attention; the attention's output merged back into (row, column) and multiplied by the transposed output
weights; the rows split again. This file writes that chain over plain arrays of extended reals and shows it is the
specification `Cert.AttnSpec.G`. Nothing here is analysis: every step is a re-indexing, and the only arithmetic is
that `b * 2048 + t` has quotient `b` and remainder `t` by 2048.
-/

noncomputable section

namespace Cert.KernelIdeal.Hand.Chain

open Idealize.ShloMosaic Idealize.ShloMosaic.ValueIdx
open Cert.KernelIdeal.Hand (matProd matProd_apply)
open Cert.AttnSpec (SX SWq SWo)
open Cert.Attn5Spec (SQkv SOut)
open scoped BigOperators

variable (x : SX.Idx → EReal) (wq : SWq.Idx → EReal) (wo : SWo.Idx → EReal)

/-! ## Row arithmetic -/

theorem row_div (b : Fin 4) (t : Fin 2048) : (b.val * 2048 + t.val) / 2048 = b.val := by have := t.isLt; omega
theorem row_mod (b : Fin 4) (t : Fin 2048) : (b.val * 2048 + t.val) % 2048 = t.val := by have := t.isLt; omega
theorem row_lt (b : Fin 4) (t : Fin 2048) : b.val * 2048 + t.val < 8192 := by have := b.isLt; have := t.isLt; omega

/-- The merged row `b * 2048 + t`. -/
def row (b : Fin 4) (t : Fin 2048) : Fin 8192 := ⟨b.val * 2048 + t.val, row_lt b t⟩

/-- Splitting the merged row gives back the batch … -/
theorem batch_of_row (b : Fin 4) (t : Fin 2048) (h1 : (b.val * 2048 + t.val) / 2048 < 4) :
    (⟨(b.val * 2048 + t.val) / 2048, h1⟩ : Fin 4) = b := Fin.ext (row_div b t)
/-- … and the row. -/
theorem row_of_row (b : Fin 4) (t : Fin 2048) (h2 : (b.val * 2048 + t.val) % 2048 < 2048) :
    (⟨(b.val * 2048 + t.val) % 2048, h2⟩ : Fin 2048) = t := Fin.ext (row_mod b t)

/-! ## The chain -/

/-- `x` with batch and row merged: `[8192, 1024]`. -/
def x2 : (⟨2, ![8192, 1024]⟩ : Shape).Idx → EReal := fun i =>
  x (ix3 (⟨(i 0).val / 2048, by have := idx2_lt0 i; omega⟩ : Fin 4) (⟨(i 0).val % 2048, Nat.mod_lt _ (by decide)⟩ : Fin 2048)
    (⟨(i 1).val, idx2_lt1 i⟩ : Fin 1024))

/-- The projection weights transposed: `[1024, 3072]`. -/
def wqT : (⟨2, ![1024, 3072]⟩ : Shape).Idx → EReal := fun i =>
  wq (ix2 (⟨(i 1).val, idx2_lt1 i⟩ : Fin 3072) (⟨(i 0).val, idx2_lt0 i⟩ : Fin 1024))

/-- The first product: `[8192, 3072]`. -/
def p : (⟨2, ![8192, 3072]⟩ : Shape).Idx → EReal := matProd 8192 3072 (x2 x) (wqT wq)

/-- The product split into batch, row, stack, head, lane: `[4, 2048, 3, 16, 64]`. -/
def qkv : SQkv.Idx → EReal := fun i =>
  p x wq (ix2 (⟨(i 0).val * 2048 + (i 1).val, by
        have h0 : (i 0).val < 4 := (i 0).isLt; have h1 : (i 1).val < 2048 := (i 1).isLt; omega⟩ : Fin 8192)
    (⟨(i 2).val * 1024 + (i 3).val * 64 + (i 4).val, by
        have h2 : (i 2).val < 3 := (i 2).isLt; have h3 : (i 3).val < 16 := (i 3).isLt; have h4 : (i 4).val < 64 := (i 4).isLt
        omega⟩ : Fin 3072))

/-- The attention's output: `[4, 2048, 16, 64]`. -/
def y : SOut.Idx → EReal := Cert.Attn5Spec.attnArr (qkv x wq)

/-- The attention's output with batch and row merged, head and lane merged: `[8192, 1024]`. -/
def y2 : (⟨2, ![8192, 1024]⟩ : Shape).Idx → EReal := fun i =>
  y x wq (ix4 (⟨(i 0).val / 2048, by have := idx2_lt0 i; omega⟩ : Fin 4) (⟨(i 0).val % 2048, Nat.mod_lt _ (by decide)⟩ : Fin 2048)
    (⟨(i 1).val / 64, by have := idx2_lt1 i; omega⟩ : Fin 16) (⟨(i 1).val % 64, Nat.mod_lt _ (by decide)⟩ : Fin 64))

/-- The output weights transposed: `[1024, 1024]`. -/
def woT : (⟨2, ![1024, 1024]⟩ : Shape).Idx → EReal := fun i =>
  wo (ix2 (⟨(i 1).val, idx2_lt1 i⟩ : Fin 1024) (⟨(i 0).val, idx2_lt0 i⟩ : Fin 1024))

/-- The second product: `[8192, 1024]`. -/
def o : (⟨2, ![8192, 1024]⟩ : Shape).Idx → EReal := matProd 8192 1024 (y2 x wq) (woT wo)

/-- The result, rows split again: `[4, 2048, 1024]`. -/
def res : SX.Idx → EReal := fun i =>
  o x wq wo (ix2 (⟨(i 0).val * 2048 + (i 1).val, by
        have h0 : (i 0).val < 4 := (i 0).isLt; have h1 : (i 1).val < 2048 := (i 1).isLt; omega⟩ : Fin 8192)
    (⟨(i 2).val, (i 2).isLt⟩ : Fin 1024))

/-! ## Each step read at coordinates -/

theorem x2_apply (n : Nat) (hn : n < 8192) (c : Fin 1024) :
    x2 x (ix2 (⟨n, hn⟩ : Fin 8192) c)
      = x (ix3 (⟨n / 2048, by omega⟩ : Fin 4) (⟨n % 2048, Nat.mod_lt _ (by decide)⟩ : Fin 2048) c) := rfl

theorem wqT_apply (k : Fin 1024) (f : Fin 3072) : wqT wq (ix2 k f) = wq (ix2 f k) := rfl

theorem woT_apply (k : Fin 1024) (f : Fin 1024) : woT wo (ix2 k f) = wo (ix2 f k) := rfl

/-- The split product is the specification's projection. -/
theorem qkv_apply (b : Fin 4) (t : Fin 2048) (s : Fin 3) (h : Fin 16) (d : Fin 64) :
    qkv x wq (ix5 b t s h d) = Cert.AttnSpec.proj x wq b t (Cert.AttnSpec.col s h d) := by
  show matProd 8192 3072 (x2 x) (wqT wq) (ix2 (⟨b.val * 2048 + t.val, _⟩ : Fin 8192) (⟨s.val * 1024 + h.val * 64 + d.val, _⟩ : Fin 3072)) = _
  rw [matProd_apply]
  unfold Cert.AttnSpec.proj
  refine Finset.sum_congr rfl fun k _ => ?_
  rw [x2_apply, wqT_apply, batch_of_row b t, row_of_row b t]
  rfl

/-- So the attention's scores, masked scores and value rows over the split product are the specification's. -/
theorem score5_eq : Cert.Attn5Spec.score5 (qkv x wq) = Cert.AttnSpec.score x wq := by
  funext b h q k
  unfold Cert.Attn5Spec.score5 Cert.AttnSpec.score
  simp only [qkv_apply]

theorem masked5_eq : Cert.Attn5Spec.masked5 (qkv x wq) = Cert.AttnSpec.masked x wq := by
  funext b h q k
  unfold Cert.Attn5Spec.masked5 Cert.AttnSpec.masked
  rw [score5_eq]

theorem value5_eq : Cert.Attn5Spec.value5 (qkv x wq) = Cert.AttnSpec.value x wq := by
  funext b h d k
  unfold Cert.Attn5Spec.value5 Cert.AttnSpec.value
  exact qkv_apply x wq b k 2 h d

/-- and so is the attention. -/
theorem attn5_eq (b : Fin 4) (h : Fin 16) (q : Fin 2048) (d : Fin 64) :
    Cert.Attn5Spec.attn5 (qkv x wq) b h q d = Cert.AttnSpec.attn x wq b h q d := by
  unfold Cert.Attn5Spec.attn5 Cert.AttnSpec.attn
  rw [masked5_eq, value5_eq]

theorem y_apply (b : Fin 4) (t : Fin 2048) (h : Fin 16) (d : Fin 64) :
    y x wq (ix4 b t h d) = Cert.AttnSpec.attn x wq b h t d := by
  show Cert.Attn5Spec.attn5 (qkv x wq) b h t d = _
  exact attn5_eq x wq b h t d

/-- The merged attention output at merged row `b * 2048 + t` and column `c`: head `c / 64`, lane `c % 64`. -/
theorem y2_apply (b : Fin 4) (t : Fin 2048) (c : Fin 1024) :
    y2 x wq (ix2 (⟨b.val * 2048 + t.val, row_lt b t⟩ : Fin 8192) c)
      = Cert.AttnSpec.attn x wq b (Cert.AttnSpec.headOf c) t (Cert.AttnSpec.laneOf c) := by
  show y x wq (ix4 (⟨(b.val * 2048 + t.val) / 2048, _⟩ : Fin 4) (⟨(b.val * 2048 + t.val) % 2048, _⟩ : Fin 2048)
      (⟨c.val / 64, _⟩ : Fin 16) (⟨c.val % 64, _⟩ : Fin 64)) = _
  rw [batch_of_row b t, row_of_row b t, y_apply]
  rfl

/-! ## The chain is the specification -/

theorem res_apply (b : Fin 4) (t : Fin 2048) (f : Fin 1024) :
    res x wq wo (ix3 b t f) = Cert.AttnSpec.out x wq wo b t f := by
  show matProd 8192 1024 (y2 x wq) (woT wo) (ix2 (⟨b.val * 2048 + t.val, _⟩ : Fin 8192) f) = _
  rw [matProd_apply]
  unfold Cert.AttnSpec.out
  refine Finset.sum_congr rfl fun c _ => ?_
  rw [y2_apply, woT_apply]

theorem res_eq_G : res x wq wo = Cert.AttnSpec.G x wq wo := by
  funext i
  rw [eq_ix3 i]
  exact res_apply x wq wo (i 0) (i 1) (i 2)

end Cert.KernelIdeal.Hand.Chain

end
-- ==== Proof.KI.Bridge.lean ====
import proofs.«109116_j51110110822880_2_alg».proof.Proof.KI.HostRead
import proofs.«109116_j51110110822880_2_alg».proof.Proof.KI.Chain
import proofs.«109116_j51110110822880_2_alg».proof.Proof.KI.MatmulValue
import proofs.«109116_j51110110822880_2_alg».proof.Proof.Attn5Spec
import proofs.«109116_j51110110822880_2_alg».proof.Proof.AttnSpec

/-!
# From the arrays between the program's steps to the specification

The program alternates stretches of data movement with three regions. Suppose the arrays' contents at the eight
boundaries satisfy: after a stretch, what the stretch computes from the contents before it; after each product
region, the product of its two operand arrays; after the attention region, the attention of its operand array; and a
region leaves the transposed output weights alone. Then the last array is the specification `Cert.AttnSpec.G` of the
three arguments. The proof reads each boundary at coordinates and recognises, step by step, the chain of plain
arrays that was shown equal to the specification.
-/

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-! ## Two arrays that agree at all coordinates are equal -/

theorem ext_ix2 {n0 n1 : Nat} {α : Type} {f g : (⟨2, ![n0, n1]⟩ : Shape).Idx → α}
    (h : ∀ (a : Fin n0) (b : Fin n1), f (ix2 a b) = g (ix2 a b)) : f = g :=
  funext fun i => (congrArg f (eq_ix2 i)).trans ((h _ _).trans (congrArg g (eq_ix2 i)).symm)

theorem ext_ix3 {n0 n1 n2 : Nat} {α : Type} {f g : (⟨3, ![n0, n1, n2]⟩ : Shape).Idx → α}
    (h : ∀ (a : Fin n0) (b : Fin n1) (c : Fin n2), f (ix3 a b c) = g (ix3 a b c)) : f = g :=
  funext fun i => (congrArg f (eq_ix3 i)).trans ((h _ _ _).trans (congrArg g (eq_ix3 i)).symm)

theorem ext_ix5 {n0 n1 n2 n3 n4 : Nat} {α : Type} {f g : (⟨5, ![n0, n1, n2, n3, n4]⟩ : Shape).Idx → α}
    (h : ∀ (a : Fin n0) (b : Fin n1) (c : Fin n2) (d : Fin n3) (e : Fin n4), f (ix5 a b c d e) = g (ix5 a b c d e)) : f = g :=
  funext fun i => (congrArg f (eq_ix5 i)).trans ((h _ _ _ _ _).trans (congrArg g (eq_ix5 i)).symm)

/-! ## The bridge -/

/-- If the eight boundary contents are related as the program's steps relate them, the result array is the
    specification of the three argument arrays. -/
theorem result_eq_G (W0 W1 W2 W3 W4 W5 W6 W7 : Valuation τ sig (Elt Ideal))
    (h1 : W1 = StableHlo.after (hostOps0 (F := Ideal)) W0)
    (h2 : W2 main_v5 = matProd 8192 3072 (W1 main_v4) (W1 main_v1))
    (h2' : W2 main_v3 = W1 main_v3)
    (h3 : W3 = StableHlo.after (hostOps1 (F := Ideal)) W2)
    (h4 : W4 main_v7 = Cert.Attn5Spec.attnArr (W3 main_v6))
    (h4' : W4 main_v3 = W3 main_v3)
    (h5 : W5 = StableHlo.after (hostOps2 (F := Ideal)) W4)
    (h6 : W6 main_v9 = matProd 8192 1024 (W5 main_v8) (W5 main_v3))
    (h7 : W7 = StableHlo.after (hostOps3 (F := Ideal)) W6) :
    W7 main_v10 = Cert.AttnSpec.G (W0 main_arg0) (W0 main_arg1) (W0 main_arg2) := by
  subst h1 h3 h5 h7
  -- the arrays entering region 0, and the transposed output weights
  have hx2 : StableHlo.after (hostOps0 (F := Ideal)) W0 main_v4 = Chain.x2 (W0 main_arg0) :=
    ext_ix2 (n0 := 8192) (n1 := 1024) (α := EReal) fun r c => (host0_v4_apply W0 r c).trans rfl
  have hwqT : StableHlo.after (hostOps0 (F := Ideal)) W0 main_v1 = Chain.wqT (W0 main_arg1) :=
    ext_ix2 (n0 := 1024) (n1 := 3072) (α := EReal) fun k f => (host0_v1_apply W0 k f).trans rfl
  have hwoT : StableHlo.after (hostOps0 (F := Ideal)) W0 main_v3 = Chain.woT (W0 main_arg2) :=
    ext_ix2 (n0 := 1024) (n1 := 1024) (α := EReal) fun k f => (host0_v3_apply W0 k f).trans rfl
  -- the first product, split
  have hqkv : StableHlo.after (hostOps1 (F := Ideal)) W2 main_v6 = Chain.qkv (W0 main_arg0) (W0 main_arg1) :=
    ext_ix5 (n0 := 4) (n1 := 2048) (n2 := 3) (n3 := 16) (n4 := 64) (α := EReal) fun b t s h d =>
      (host1_v6_apply W2 b t s h d).trans ((congrFun h2 _).trans (congrFun (congrArg₂ (matProd 8192 3072) hx2 hwqT) _))
  -- the attention of it, and merged
  have hy : W4 main_v7 = Chain.y (W0 main_arg0) (W0 main_arg1) :=
    h4.trans (congrArg Cert.Attn5Spec.attnArr hqkv)
  have hy2 : StableHlo.after (hostOps2 (F := Ideal)) W4 main_v8 = Chain.y2 (W0 main_arg0) (W0 main_arg1) :=
    ext_ix2 (n0 := 8192) (n1 := 1024) (α := EReal) fun r c => (host2_v8_apply W4 r c).trans ((congrFun hy _).trans rfl)
  -- the transposed output weights reach region 2 untouched
  have hwoT2 : StableHlo.after (hostOps2 (F := Ideal)) W4 main_v3 = Chain.woT (W0 main_arg2) :=
    (host2_of W4 main_v3 (by decide)).trans (h4'.trans ((host1_of W2 main_v3 (by decide)).trans (h2'.trans hwoT)))
  -- the second product, and its rows split
  have ho : W6 main_v9 = Chain.o (W0 main_arg0) (W0 main_arg1) (W0 main_arg2) :=
    h6.trans (congrArg₂ (matProd 8192 1024) hy2 hwoT2)
  have hres : StableHlo.after (hostOps3 (F := Ideal)) W6 main_v10 = Chain.res (W0 main_arg0) (W0 main_arg1) (W0 main_arg2) :=
    ext_ix3 (n0 := 4) (n1 := 2048) (n2 := 1024) (α := EReal) fun b t f => (host3_v10_apply W6 b t f).trans ((congrFun ho _).trans rfl)
  exact hres.trans (Chain.res_eq_G _ _ _)

end Cert.KernelIdeal.Hand

end
-- ==== Proof.Finite.lean ====
/-
  Every input entry is a real number, and what that gives the specification.

  The precondition is the conjunction of three statements "every entry of the array has absolute value below +∞".
  On the extended reals `max x (-x) < ⊤` excludes exactly `⊤` and `⊥`, so every entry of the three arrays is a real
  number.  Finite sums and products of reals are real, so the projection, the scores and the value rows are real; a
  masked score is then a real or `⊥`, never `⊤`, and the diagonal key, which is never masked, has a real score.
-/
import proofs.«109116_j51110110822880_2_alg».proof.Pre_finite_inputs
import proofs.«109116_j51110110822880_2_alg».proof.Proof.AttnSpec
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.Finite

open Idealize.ShloMosaic Idealize.ShloMosaic.ValueIdx Cert.AttnSpec Cert.Lib.OnlineSoftmax
open scoped BigOperators

/-! ## From the precondition to real entries -/

/-- The word of the bound is `⊤`. -/
theorem top_word : Ideal.ofBits .f32 0x7F800000#32 = (⊤ : EReal) := by
  simp [Ideal.ofBits, Ideal.ieee]

/-- An extended real whose absolute value is below `⊤` is a real number. -/
theorem real_of_abs_lt_top (x : EReal) (h : Ideal.cmp .olt (max x (-x)) ⊤ = 1#1) : ∃ r : ℝ, x = r := by
  induction x using EReal.rec with
  | bot => exact absurd h (by simp [Ideal.cmp])
  | top => exact absurd h (by simp [Ideal.cmp])
  | coe r => exact ⟨r, rfl⟩

/-- One conjunct: if "absolute value below the bound" holds at every index of an array, reduced by `and` into a
    single word, then every entry of the array is a real number. -/
theorem real_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) (φ := .f32) .olt (Host.absf (F := Ideal) (φ := .f32) x)
            (broadcastInDim s ![] hb (constant (F := Ideal) Cert.Pre_finite_inputs.S_ .f32 0x7F800000#32)))
          (constantI Cert.Pre_finite_inputs.S_ 1 1#1) hr hu ix0 = 1#1) (i : s.Idx) : ∃ r : ℝ, x i = r := by
  haveI : Subsingleton Cert.Pre_finite_inputs.S_.Idx := ⟨fun a b => funext fun d => d.elim0⟩
  have hi := Host.reduce_andi_all _ _ hr hu ix0 e i
  have hsplat : broadcastInDim s ![] hb (constant (F := Ideal) Cert.Pre_finite_inputs.S_ .f32 0x7F800000#32) i
      = Ideal.ofBits .f32 0x7F800000#32 :=
    broadcastInDim_apply _ hb _ i ix0 (fun a => a.elim0)
  have hi' : Ideal.cmp .olt (max (x i) (-(x i)))
      (broadcastInDim s ![] hb (constant (F := Ideal) Cert.Pre_finite_inputs.S_ .f32 0x7F800000#32) i) = 1#1 := hi
  rw [hsplat, top_word] at hi'
  exact real_of_abs_lt_top _ hi'

/-- The precondition makes every entry of the three input arrays a real number. -/
theorem real_of_pre [Cert.Pre_finite_inputs.Facts] (x0 : SX.Idx → EReal) (x1 : SWq.Idx → EReal) (x2 : SWo.Idx → EReal)
    (h : Cert.Pre_finite_inputs.fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ix0
  dsimp only [Cert.Pre_finite_inputs.fn] at h0
  obtain ⟨h01, h2⟩ := IntOp.andi_eq_one.mp h0
  obtain ⟨h0', h1⟩ := IntOp.andi_eq_one.mp h01
  exact ⟨real_of_all x0 _ _ _ h0', real_of_all x1 _ _ _ h1, real_of_all x2 _ _ _ h2⟩

/-! ## Reals are closed under finite sums and products -/

/-- A product of two reals is a real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A finite sum of reals is a real. -/
theorem real_sum {κ : Type*} [DecidableEq κ] (s : Finset κ) (g : κ → EReal) (hg : ∀ k ∈ s, ∃ r : ℝ, g k = r) :
    ∃ r : ℝ, ∑ k ∈ s, g k = r := by
  choose! f hf using hg
  exact ⟨∑ k ∈ s, f k, by rw [Finset.sum_congr rfl hf, coe_sum]⟩

/-! ## What real inputs give the specification -/

section Spec

variable {x : SX.Idx → EReal} {wq : SWq.Idx → EReal}

/-- The projection is real: a finite sum of products of reals. -/
theorem proj_real (hx : ∀ i, ∃ r : ℝ, x i = r) (hw : ∀ i, ∃ r : ℝ, wq i = r) :
    ∀ b t f, ∃ r : ℝ, proj x wq b t f = r := by
  intro b t f
  unfold proj
  exact real_sum _ _ fun c _ => real_mul (hx _) (hw _)

/-- The scale is real: its word has exponent field 124 and fraction 0, a normal number. -/
theorem scale_real : ∃ r : ℝ, scale = r := by
  show ∃ r : ℝ, Ideal.ieee 8 23 (0x3E000000#32) = r
  unfold Ideal.ieee
  dsimp only
  rw [if_neg (by decide), if_neg (by decide)]
  exact ⟨_, rfl⟩

/-- The scaled scores are real. -/
theorem score_real (hx : ∀ i, ∃ r : ℝ, x i = r) (hw : ∀ i, ∃ r : ℝ, wq i = r) :
    ∀ b h q k, ∃ r : ℝ, score x wq b h q k = r := by
  intro b h q k
  unfold score
  exact real_mul (real_sum _ _ fun d _ => real_mul (proj_real hx hw _ _ _) (proj_real hx hw _ _ _)) scale_real

/-- A masked score is a real or `⊥`, never `⊤`. -/
theorem masked_ne_top (hx : ∀ i, ∃ r : ℝ, x i = r) (hw : ∀ i, ∃ r : ℝ, wq i = r) :
    ∀ b h q k, masked x wq b h q k ≠ ⊤ := by
  intro b h q k
  unfold masked
  by_cases hkq : k.val ≤ q.val
  · rw [if_pos hkq]
    obtain ⟨r, hr⟩ := score_real hx hw b h q k
    rw [hr]
    exact EReal.coe_ne_top r
  · rw [if_neg hkq]
    exact bot_ne_top

/-- The diagonal key is never masked and its score is real, so it is not `⊥`. -/
theorem masked_diag_ne_bot (hx : ∀ i, ∃ r : ℝ, x i = r) (hw : ∀ i, ∃ r : ℝ, wq i = r) :
    ∀ b h q, masked x wq b h q q ≠ ⊥ := by
  intro b h q
  unfold masked
  rw [if_pos le_rfl]
  obtain ⟨r, hr⟩ := score_real hx hw b h q q
  rw [hr]
  exact EReal.coe_ne_bot r

/-- The value rows are real. -/
theorem value_real (hx : ∀ i, ∃ r : ℝ, x i = r) (hw : ∀ i, ∃ r : ℝ, wq i = r) :
    ∀ b h d k, ∃ r : ℝ, value x wq b h d k = r := by
  intro b h d k
  unfold value
  exact proj_real hx hw _ _ _

end Spec

end Cert.Finite

end
-- ==== Proof.KI.KernelValue.lean ====
/-
  The kernel program's result is the specification, given the attention region's value.

  The run leaves the result buffer at the last of eight boundary contents, a fold from the launch memory.  The two
  product regions leave the product of their operand arrays; the attention region is assumed to leave the attention of
  its operand array whenever every entry of that array is a real number.  Under the precondition every input entry is
  real, so the operand of the attention region — the first product, split into stacks, heads and lanes, which is the
  input projection — is real entry by entry.  The bridge from the boundary contents to the specification then gives
  the result.
-/
import proofs.«109116_j51110110822880_2_alg».proof.Defs
import proofs.«109116_j51110110822880_2_alg».proof.Proof.KI.Run
import proofs.«109116_j51110110822880_2_alg».proof.Proof.KI.Bridge
import proofs.«109116_j51110110822880_2_alg».proof.Proof.Finite

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-- THE ATTENTION REGION'S VALUE: from any entry contents whose operand array is real entry by entry, the output
    array after the last grid point is the attention of the operand array. -/
def FlashValue : Prop :=
  ∀ (V : (c : Dev nD) → (b : Ref sig .tc) → Buf (Elt Ideal) ((c : Thread nD τ).loc b)) (c : Dev nD),
    (∀ i, ∃ r : ℝ, (V c main_v6 : Cert.Attn5Spec.SQkv.Idx → EReal) i = (r : EReal)) →
    (dat1 V c).arrAt 3 cfg1.N = Cert.Attn5Spec.attnArr (V c main_v6)

/-- The operand of the attention region is the input projection split into stacks, heads and lanes: the first host
    stretch reshapes the input and transposes the weights, the first product multiplies them, the second host stretch
    splits the columns. -/
theorem qkv_of (W0 W2 : Valuation τ sig (Elt Ideal))
    (h2 : W2 main_v5 = matProd 8192 3072 (StableHlo.after (hostOps0 (F := Ideal)) W0 main_v4)
      (StableHlo.after (hostOps0 (F := Ideal)) W0 main_v1)) :
    StableHlo.after (hostOps1 (F := Ideal)) W2 main_v6 = Chain.qkv (W0 main_arg0) (W0 main_arg1) := by
  have hx2 : StableHlo.after (hostOps0 (F := Ideal)) W0 main_v4 = Chain.x2 (W0 main_arg0) :=
    ext_ix2 (n0 := 8192) (n1 := 1024) (α := EReal) fun r c => (host0_v4_apply W0 r c).trans rfl
  have hwqT : StableHlo.after (hostOps0 (F := Ideal)) W0 main_v1 = Chain.wqT (W0 main_arg1) :=
    ext_ix2 (n0 := 1024) (n1 := 3072) (α := EReal) fun k f => (host0_v1_apply W0 k f).trans rfl
  exact ext_ix5 (n0 := 4) (n1 := 2048) (n2 := 3) (n3 := 16) (n4 := 64) (α := EReal) fun b t s h d =>
    (host1_v6_apply W2 b t s h d).trans ((congrFun h2 _).trans (congrFun (congrArg₂ (matProd 8192 3072) hx2 hwqT) _))

variable [Cert.Pre_finite_inputs.Facts]

/-- Under the precondition the operand of the attention region is real entry by entry: each entry is an entry of the
    input projection, a finite sum of products of real inputs. -/
theorem operand_real (m : (ℓ : Loc nD τ sig) → Buf (Elt Ideal) ℓ) (ρ : Dev nD → PrngReg)
    (hpre : Cert.Pre_KernelIdeal m) (c : Dev nD) :
    ∀ i, ∃ r : ℝ, (V3 m ρ c main_v6 : Cert.Attn5Spec.SQkv.Idx → EReal) i = (r : EReal) := by
  have hin := Cert.Finite.real_of_pre _ _ _ (hpre c)
  have h2 : W2 m ρ c main_v5 = matProd 8192 3072 (W1 m ρ c main_v4) (W1 m ρ c main_v1) :=
    (W2_main_v5 m ρ c).trans (arr0_2_eq (V1 m ρ) c)
  have hqkv : W3 m ρ c main_v6
      = Chain.qkv (m ((c : Thread nD τ).loc main_arg0)) (m ((c : Thread nD τ).loc main_arg1)) :=
    qkv_of (W0 m ρ c) (W2 m ρ c) h2
  intro i
  obtain ⟨b, t, s, h, d, rfl⟩ : ∃ b t s h d, i = ix5 b t s h d := ⟨_, _, _, _, _, eq_ix5 i⟩
  show ∃ r : ℝ, (W3 m ρ c main_v6 : Cert.Attn5Spec.SQkv.Idx → EReal) (ix5 b t s h d) = (r : EReal)
  rw [hqkv, Chain.qkv_apply]
  exact Cert.Finite.proj_real hin.1 hin.2.1 _ _ _

/-- THE KERNEL'S RESULT: given the attention region's value, under the precondition the last boundary's contents at
    the result buffer are the specification of the three argument arrays as launched. -/
theorem kernel_result (hF : FlashValue) (m : (ℓ : Loc nD τ sig) → Buf (Elt Ideal) ℓ) (ρ : Dev nD → PrngReg)
    (hpre : Cert.Pre_KernelIdeal m) (c : Dev nD) :
    W7 m ρ c (Proc.devRef .tc main_v10)
      = Cert.AttnSpec.G (m ((c : Thread nD τ).loc main_arg0)) (m ((c : Thread nD τ).loc main_arg1))
          (m ((c : Thread nD τ).loc main_arg2)) :=
  result_eq_G (W0 m ρ c) (W1 m ρ c) (W2 m ρ c) (W3 m ρ c) (W4 m ρ c) (W5 m ρ c) (W6 m ρ c) (W7 m ρ c)
    rfl
    ((W2_main_v5 m ρ c).trans (arr0_2_eq (V1 m ρ) c))
    (W2_of_ne m ρ c main_v3 (by decide))
    rfl
    ((W4_main_v7 m ρ c).trans (hF (V3 m ρ) c (operand_real m ρ hpre c)))
    (W4_of_ne m ρ c main_v3 (by decide))
    rfl
    ((W6_main_v9 m ρ c).trans (arr2_2_eq (V5 m ρ) c))
    rfl

end Cert.KernelIdeal.Hand

end
-- ==== Proof.Assemble.lean ====
/-
  The five claims, assembled from their parts.

  The two kernel programs run and leave their arguments alone (the hand runs); so does the reference (its generated
  run).  The idealized kernel differs from the compiled one in sixteen occurrences of one named constant, the mask
  fill, read as `⊥`.  At the ideal instance, from memories agreeing on the arguments and under the precondition, the
  idealized kernel's result buffer and the reference's end at one array: the specification of the arguments.  The
  kernel's half takes the attention region's value as a hypothesis.
-/
import proofs.«109116_j51110110822880_2_alg».proof.Defs
import proofs.«109116_j51110110822880_2_alg».proof.Proof.Gen.Pre_finite_inputs
import proofs.«109116_j51110110822880_2_alg».proof.Proof.Gen.ReferenceIdeal.Run
import proofs.«109116_j51110110822880_2_alg».proof.Proof.Gen.ReferenceIdeal.Read
import proofs.«109116_j51110110822880_2_alg».proof.Proof.RefRead
import proofs.«109116_j51110110822880_2_alg».proof.Proof.K.Run
import proofs.«109116_j51110110822880_2_alg».proof.Proof.KI.KernelValue
import Idealize.ShloMosaic.PureOps.IdealRules

noncomputable section

namespace Cert.Proof.Parts

open Idealize.ShloMosaic Idealize.ShloMosaic.TcCoe Idealize.SL.Sem

/-- The compiled kernel runs and its arguments end unchanged. -/
theorem frame_k : Cert.frame_Kernel := fun m g _ => Cert.Kernel.Hand.frame m g

/-- The idealized kernel runs and its arguments end unchanged. -/
theorem frame_ki : Cert.frame_KernelIdeal := fun m g _ => Cert.KernelIdeal.Hand.frame m g

/-- The reference runs and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization's sixteen entries are one: the table gives the mask fill's name the value `⊥`. -/
theorem preserves : Cert.preserves_Kernel_KernelIdeal := by
  have s := IdealRules.named_const.statement Cert.KernelIdeal.κ "neg_big" .f32 0xFF333332#32 ⊥ rfl
  exact ⟨s, s, s, s, s, s, s, s, s, s, s, s, s, s, s, s⟩

/-- At the ideal instance both programs end with the specification of the argument arrays in their result buffers,
    given the attention region's value. -/
theorem algebraic (hF : Cert.KernelIdeal.Hand.FlashValue) : Cert.algebraic_KernelIdeal_ReferenceIdeal := by
  intro m ρ m' ρ' hpre hagree
  refine ⟨fun c => Cert.AttnSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨(h c).1.trans (Cert.KernelIdeal.Hand.kernel_result hF m ρ hpre c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.ReferenceIdeal.RefRead.ref_eq_G, (hagree c).1, (hagree c).2.1,
      (hagree c).2.2]

end Cert.Proof.Parts

end
-- ==== Proof.KI.FlashHead.lean ====
/-
  The attention body, one head at a time.

  At a processed key tile the body treats the sixteen heads alike: it loads the head's 512 x 64 slices of the query,
  key and value blocks and the head's columns of the three scratch buffers, and stores back, into those columns,
    * the new running maximum  m' = max m (row maximum of the masked scaled scores),
    * the new normaliser       l' = exp (m - m') * l + row sum of exp (s - m'),
    * the new accumulator      a' = exp (m - m') * a + exp (s - m') · v.
  These are written here once, as functions of the loaded vectors; head h touches column h of each scratch buffer, and
  the sixteen stores, one per head, tile the buffer.  Reading such a list of stores back at row r, head h is the
  head's stored vector at row r.
-/
import proofs.«109116_j51110110822880_2_alg».proof.Proof.KI.FlashOuts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three values a head stores -/

/-- The first row of the query tile, and of the key tile, as the body computes them from the point. -/
abbrev tq (i : grid1.Coords) : BitVec 32 := Scalar.muli (BitVec.ofNat 32 (i 1).val) 512#32
abbrev tk (i : grid1.Coords) : BitVec 32 := Scalar.muli (BitVec.ofNat 32 (i 2).val) 512#32

/-- The new running maximum of a head, from the tile starts, the head's query and key slices and its old maximum. -/
def headM (v3 v4 : BitVec 32) (q k : Vec F S1x512x1x1x64 .f32) (mp : Vec F S512x1x1 .f32) : FVec F S512x1x1 .f32 :=
  k1_pay18 (k1_pay12 v3 v4 q k mp)
/-- The new normaliser of a head. -/
def headL (v3 v4 : BitVec 32) (q k : Vec F S1x512x1x1x64 .f32) (mp lp : Vec F S512x1x1 .f32) : FVec F S512x1x1 .f32 :=
  k1_pay16 (k1_pay14 v3 v4 q k mp) (k1_pay15 v3 v4 q k mp lp)
/-- The new accumulator of a head. -/
def headA (v3 v4 : BitVec 32) (q k vv : Vec F S1x512x1x1x64 .f32) (mp : Vec F S512x1x1 .f32) (ap : Vec F S512x1x64 .f32) :
    FVec F S512x1x64 .f32 :=
  k1_pay17 (k1_pay9 vv) (k1_pay13 v3 v4 q k mp) (k1_pay14 v3 v4 q k mp) ap

/-! ## A head's rectangles -/

/-- Head `h`'s 512 x 64 slice of an input block [1, 512, 1, 16, 64]. -/
abbrev rectQ (h : Fin 16) : Rect S1x512x1x16x64 :=
  Rect.unit (s := S1x512x1x16x64) ![0, 0, 0, h.val, 0] S1x512x1x1x64.size (fun a => by
    have := h.isLt
    match a with
    | ⟨0, _⟩ => exact Nat.le_refl _
    | ⟨1, _⟩ => exact Nat.le_refl _
    | ⟨2, _⟩ => exact Nat.le_refl _
    | ⟨3, _⟩ => show h.val + 1 ≤ 16; omega
    | ⟨4, _⟩ => exact Nat.le_refl _)
/-- Head `h`'s column of a scratch buffer [512, 16, 1]. -/
abbrev rectS (h : Fin 16) : Rect S512x16x1 :=
  Rect.unit (s := S512x16x1) ![0, h.val, 0] S512x1x1.size (fun a => by
    have := h.isLt
    match a with
    | ⟨0, _⟩ => exact Nat.le_refl _
    | ⟨1, _⟩ => show h.val + 1 ≤ 16; omega
    | ⟨2, _⟩ => exact Nat.le_refl _)
/-- Head `h`'s 512 x 64 slab of the accumulator [512, 16, 64]. -/
abbrev rectA (h : Fin 16) : Rect S512x16x64 :=
  Rect.unit (s := S512x16x64) ![0, h.val, 0] S512x1x64.size (fun a => by
    have := h.isLt
    match a with
    | ⟨0, _⟩ => exact Nat.le_refl _
    | ⟨1, _⟩ => show h.val + 1 ≤ 16; omega
    | ⟨2, _⟩ => exact Nat.le_refl _)

/-- The heads in the order of the stores read back: last store first. -/
def headsRev : List (Fin 16) := [15, 14, 13, 12, 11, 10, 9, 8, 7, 6, 5, 4, 3, 2, 1, 0]

theorem mem_headsRev (h : Fin 16) : h ∈ headsRev := by
  revert h; decide

end Cert.KernelIdeal.Hand

end
-- ==== Proof.KI.FlashRead.lean ====
/-
  The attention region: the stores of a processed key tile, read back.

  In the cases that absorb a tile into a carried state, the sixteen stores into each scratch buffer are, head by
  head, the three per-head functions of the head's loaded slices; reading the buffer back at row r of head h gives
  head h's stored vector at row r, because the heads' columns are pairwise apart.
-/
import proofs.«109116_j51110110822880_2_alg».proof.Proof.KI.FlashHead
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Stores through a family of rectangles that are pairwise apart, read back at a place of rectangle `h`: the store
    made through `h`. -/
theorem canon_family {s : Shape} {e : EltTy} {Val : EltTy → Type} [∀ e, Nonempty (Val e)] {ι : Type} [DecidableEq ι]
    (R : ι → Rect s) (pay : (h : ι) → (R h).shape.Idx → Val e)
    (hsep : ∀ h h', h ≠ h' → ∀ x, (R h).emb x ∉ (R h').set) (hs : List ι) (h : ι) (hh : h ∈ hs) (x : (R h).shape.Idx) :
    View.canon (hs.map fun h' => (⟨R h', pay h'⟩ : View.Piece Val s e)) ((R h).emb x) = pay h x := by
  induction hs with
  | nil => cases hh
  | cons h' hs ih =>
    rw [List.map_cons]
    by_cases e' : h' = h
    · subst e'; exact View.canon_cons_emb _ _ _ x
    · rw [View.canon_cons_of_not_mem _ _ (hsep h h' (Ne.symm e') x)]
      exact ih ((List.mem_cons.1 hh).resolve_left (fun e'' => e' e''.symm))

/-- Two heads' columns of a scratch buffer are apart on the head axis. -/
theorem rectS_sep (h h' : Fin 16) (hne : h ≠ h') (x : (rectS h).shape.Idx) : (rectS h).emb x ∉ (rectS h').set := by
  intro hm
  have h1 := (Rect.mem_set_unit.1 hm) (1 : Fin 3)
  have hx : ((x (1 : Fin 3)) : Nat) < 1 := (x (1 : Fin 3)).isLt
  have h2 : h'.val ≤ h.val + 1 * (x (1 : Fin 3)).val ∧ h.val + 1 * (x (1 : Fin 3)).val < h'.val + 1 := h1
  have hv : h.val ≠ h'.val := fun e => hne (Fin.ext e)
  omega
theorem rectA_sep (h h' : Fin 16) (hne : h ≠ h') (x : (rectA h).shape.Idx) : (rectA h).emb x ∉ (rectA h').set := by
  intro hm
  have h1 := (Rect.mem_set_unit.1 hm) (1 : Fin 3)
  have hx : ((x (1 : Fin 3)) : Nat) < 1 := (x (1 : Fin 3)).isLt
  have h2 : h'.val ≤ h.val + 1 * (x (1 : Fin 3)).val ∧ h.val + 1 * (x (1 : Fin 3)).val < h'.val + 1 := h1
  have hv : h.val ≠ h'.val := fun e => hne (Fin.ext e)
  omega

/-- Row r, head h of a scratch buffer is row r of head h's column. -/
theorem ix3_eq_embS (r : Fin 512) (h : Fin 16) :
    (ValueIdx.ix3 r h (0 : Fin 1) : S512x16x1.Idx) = (rectS h).emb (ValueIdx.ix3 r (0 : Fin 1) (0 : Fin 1)) := by
  funext a; apply Fin.ext
  match a with
  | ⟨0, _⟩ => show r.val = 0 + 1 * r.val; omega
  | ⟨1, _⟩ => show h.val = h.val + 1 * 0; omega
  | ⟨2, _⟩ => show 0 = 0 + 1 * 0; omega
theorem ix3_eq_embA (r : Fin 512) (h : Fin 16) (d : Fin 64) :
    (ValueIdx.ix3 r h d : S512x16x64.Idx) = (rectA h).emb (ValueIdx.ix3 r (0 : Fin 1) d) := by
  funext a; apply Fin.ext
  match a with
  | ⟨0, _⟩ => show r.val = 0 + 1 * r.val; omega
  | ⟨1, _⟩ => show h.val = h.val + 1 * 0; omega
  | ⟨2, _⟩ => show d.val = 0 + 1 * d.val; omega

/-! ## The loads of a head -/

/-- Head `h`'s slice of an input block, as loaded through a whole staging memref holding `x`. -/
abbrev ldQ (arg : Memref sig .tc .vmem S1x512x1x16x64 .f32) (harg : arg.IsWhole) (x : Vec F S1x512x1x16x64 .f32) (h : Fin 16) :
    Vec F S1x512x1x1x64 .f32 :=
  View.readAt (Elt F) arg.view (rectQ h).toLoadRect (harg.unread x)
abbrev ldS (arg : Memref sig .tc .vmem S512x16x1 .f32) (harg : arg.IsWhole) (x : Vec F S512x16x1 .f32) (h : Fin 16) :
    Vec F S512x1x1 .f32 :=
  View.readAt (Elt F) arg.view (rectS h).toLoadRect (harg.unread x)
abbrev ldA (arg : Memref sig .tc .vmem S512x16x64 .f32) (harg : arg.IsWhole) (x : Vec F S512x16x64 .f32) (h : Fin 16) :
    Vec F S512x1x64 .f32 :=
  View.readAt (Elt F) arg.view (rectA h).toLoadRect (harg.unread x)

section Cases

variable (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole)
variable (x0 x1 x2 : Vec F S1x512x1x16x64 .f32) (xs0 xs1 : Vec F S512x16x1 .f32) (xs2 : Vec F S512x16x64 .f32)

/-! ## A tile absorbed into a carried state, not the last tile -/

set_option maxHeartbeats 8000000 in
theorem LS0_B (hc0 : ¬cond1_0 i) (hc1 : cond1_1 i) (hc2 : ¬cond1_2 i) :
    (kernelRun1_B c i arg3 harg3 arg4 harg4 arg5 harg5 arg6 harg6 arg7 harg7 arg8 harg8 arg9 harg9 hc0 hc1 hc2 x0 x1 x2 xs0 xs1 xs2).1 = headsRev.map (fun h => (⟨rectS h, headM (tq i) (tk i) (ldQ arg3 harg3 x0 h) (ldQ arg4 harg4 x1 h) (ldS arg7 harg7 xs0 h)⟩ : View.Piece (Elt F) S512x16x1 .f32)) := rfl

set_option maxHeartbeats 8000000 in
theorem LS1_B (hc0 : ¬cond1_0 i) (hc1 : cond1_1 i) (hc2 : ¬cond1_2 i) :
    (kernelRun1_B c i arg3 harg3 arg4 harg4 arg5 harg5 arg6 harg6 arg7 harg7 arg8 harg8 arg9 harg9 hc0 hc1 hc2 x0 x1 x2 xs0 xs1 xs2).2.1 = headsRev.map (fun h => (⟨rectS h, headL (tq i) (tk i) (ldQ arg3 harg3 x0 h) (ldQ arg4 harg4 x1 h) (ldS arg7 harg7 xs0 h) (ldS arg8 harg8 xs1 h)⟩ : View.Piece (Elt F) S512x16x1 .f32)) := rfl

set_option maxHeartbeats 8000000 in
theorem LS2_B (hc0 : ¬cond1_0 i) (hc1 : cond1_1 i) (hc2 : ¬cond1_2 i) :
    (kernelRun1_B c i arg3 harg3 arg4 harg4 arg5 harg5 arg6 harg6 arg7 harg7 arg8 harg8 arg9 harg9 hc0 hc1 hc2 x0 x1 x2 xs0 xs1 xs2).2.2.1 = headsRev.map (fun h => (⟨rectA h, headA (tq i) (tk i) (ldQ arg3 harg3 x0 h) (ldQ arg4 harg4 x1 h) (ldQ arg5 harg5 x2 h) (ldS arg7 harg7 xs0 h) (ldA arg9 harg9 xs2 h)⟩ : View.Piece (Elt F) S512x16x64 .f32)) := rfl

theorem sout1_B_0_at (hc0 : ¬cond1_0 i) (hc1 : cond1_1 i) (hc2 : ¬cond1_2 i) (h : Fin 16) (x : (rectS h).shape.Idx) :
    sout1_B_0 c i arg3 harg3 arg4 harg4 arg5 harg5 arg6 harg6 arg7 harg7 arg8 harg8 arg9 harg9 hc0 hc1 hc2 x0 x1 x2 xs0 xs1 xs2 ((rectS h).emb x) = headM (tq i) (tk i) (ldQ arg3 harg3 x0 h) (ldQ arg4 harg4 x1 h) (ldS arg7 harg7 xs0 h) x := by
  unfold sout1_B_0
  rw [View.read_writes_junk_eq_canon, LS0_B c i arg3 harg3 arg4 harg4 arg5 harg5 arg6 harg6 arg7 harg7 arg8 harg8 arg9 harg9 x0 x1 x2 xs0 xs1 xs2 hc0 hc1 hc2]
  exact canon_family (Val := Elt F) (e := .f32) (s := S512x16x1) rectS (fun h => headM (tq i) (tk i) (ldQ arg3 harg3 x0 h) (ldQ arg4 harg4 x1 h) (ldS arg7 harg7 xs0 h)) rectS_sep headsRev h (mem_headsRev h) x

theorem sout1_B_1_at (hc0 : ¬cond1_0 i) (hc1 : cond1_1 i) (hc2 : ¬cond1_2 i) (h : Fin 16) (x : (rectS h).shape.Idx) :
    sout1_B_1 c i arg3 harg3 arg4 harg4 arg5 harg5 arg6 harg6 arg7 harg7 arg8 harg8 arg9 harg9 hc0 hc1 hc2 x0 x1 x2 xs0 xs1 xs2 ((rectS h).emb x) = headL (tq i) (tk i) (ldQ arg3 harg3 x0 h) (ldQ arg4 harg4 x1 h) (ldS arg7 harg7 xs0 h) (ldS arg8 harg8 xs1 h) x := by
  unfold sout1_B_1
  rw [View.read_writes_junk_eq_canon, LS1_B c i arg3 harg3 arg4 harg4 arg5 harg5 arg6 harg6 arg7 harg7 arg8 harg8 arg9 harg9 x0 x1 x2 xs0 xs1 xs2 hc0 hc1 hc2]
  exact canon_family (Val := Elt F) (e := .f32) (s := S512x16x1) rectS (fun h => headL (tq i) (tk i) (ldQ arg3 harg3 x0 h) (ldQ arg4 harg4 x1 h) (ldS arg7 harg7 xs0 h) (ldS arg8 harg8 xs1 h)) rectS_sep headsRev h (mem_headsRev h) x

set_option maxHeartbeats 4000000 in
theorem sout1_B_2_at (hc0 : ¬cond1_0 i) (hc1 : cond1_1 i) (hc2 : ¬cond1_2 i) (h : Fin 16) (x : (rectA h).shape.Idx) :
    sout1_B_2 c i arg3 harg3 arg4 harg4 arg5 harg5 arg6 harg6 arg7 harg7 arg8 harg8 arg9 harg9 hc0 hc1 hc2 x0 x1 x2 xs0 xs1 xs2 ((rectA h).emb x) = headA (tq i) (tk i) (ldQ arg3 harg3 x0 h) (ldQ arg4 harg4 x1 h) (ldQ arg5 harg5 x2 h) (ldS arg7 harg7 xs0 h) (ldA arg9 harg9 xs2 h) x := by
  unfold sout1_B_2
  rw [View.read_writes_junk_eq_canon, LS2_B c i arg3 harg3 arg4 harg4 arg5 harg5 arg6 harg6 arg7 harg7 arg8 harg8 arg9 harg9 x0 x1 x2 xs0 xs1 xs2 hc0 hc1 hc2]
  exact canon_family (Val := Elt F) (e := .f32) (s := S512x16x64) rectA (fun h => headA (tq i) (tk i) (ldQ arg3 harg3 x0 h) (ldQ arg4 harg4 x1 h) (ldQ arg5 harg5 x2 h) (ldS arg7 harg7 xs0 h) (ldA arg9 harg9 xs2 h)) rectA_sep headsRev h (mem_headsRev h) x

/-! ## The last tile, on the diagonal -/

set_option maxHeartbeats 8000000 in
theorem LS0_D (hc0 : ¬cond1_0 i) (hc1 : cond1_1 i) (hc2 : cond1_2 i) :
    (kernelRun1_D c i arg3 harg3 arg4 harg4 arg5 harg5 arg6 harg6 arg7 harg7 arg8 harg8 arg9 harg9 hc0 hc1 hc2 x0 x1 x2 xs0 xs1 xs2).2.1 = headsRev.map (fun h => (⟨rectS h, headM (tq i) (tk i) (ldQ arg3 harg3 x0 h) (ldQ arg4 harg4 x1 h) (ldS arg7 harg7 xs0 h)⟩ : View.Piece (Elt F) S512x16x1 .f32)) := rfl

set_option maxHeartbeats 8000000 in
theorem LS1_D (hc0 : ¬cond1_0 i) (hc1 : cond1_1 i) (hc2 : cond1_2 i) :
    (kernelRun1_D c i arg3 harg3 arg4 harg4 arg5 harg5 arg6 harg6 arg7 harg7 arg8 harg8 arg9 harg9 hc0 hc1 hc2 x0 x1 x2 xs0 xs1 xs2).2.2.1 = headsRev.map (fun h => (⟨rectS h, headL (tq i) (tk i) (ldQ arg3 harg3 x0 h) (ldQ arg4 harg4 x1 h) (ldS arg7 harg7 xs0 h) (ldS arg8 harg8 xs1 h)⟩ : View.Piece (Elt F) S512x16x1 .f32)) := rfl

set_option maxHeartbeats 8000000 in
theorem LS2_D (hc0 : ¬cond1_0 i) (hc1 : cond1_1 i) (hc2 : cond1_2 i) :
    (kernelRun1_D c i arg3 harg3 arg4 harg4 arg5 harg5 arg6 harg6 arg7 harg7 arg8 harg8 arg9 harg9 hc0 hc1 hc2 x0 x1 x2 xs0 xs1 xs2).2.2.2.1 = headsRev.map (fun h => (⟨rectA h, headA (tq i) (tk i) (ldQ arg3 harg3 x0 h) (ldQ arg4 harg4 x1 h) (ldQ arg5 harg5 x2 h) (ldS arg7 harg7 xs0 h) (ldA arg9 harg9 xs2 h)⟩ : View.Piece (Elt F) S512x16x64 .f32)) := rfl

theorem sout1_D_0_at (hc0 : ¬cond1_0 i) (hc1 : cond1_1 i) (hc2 : cond1_2 i) (h : Fin 16) (x : (rectS h).shape.Idx) :
    sout1_D_0 c i arg3 harg3 arg4 harg4 arg5 harg5 arg6 harg6 arg7 harg7 arg8 harg8 arg9 harg9 hc0 hc1 hc2 x0 x1 x2 xs0 xs1 xs2 ((rectS h).emb x) = headM (tq i) (tk i) (ldQ arg3 harg3 x0 h) (ldQ arg4 harg4 x1 h) (ldS arg7 harg7 xs0 h) x := by
  unfold sout1_D_0
  rw [View.read_writes_junk_eq_canon, LS0_D c i arg3 harg3 arg4 harg4 arg5 harg5 arg6 harg6 arg7 harg7 arg8 harg8 arg9 harg9 x0 x1 x2 xs0 xs1 xs2 hc0 hc1 hc2]
  exact canon_family (Val := Elt F) (e := .f32) (s := S512x16x1) rectS (fun h => headM (tq i) (tk i) (ldQ arg3 harg3 x0 h) (ldQ arg4 harg4 x1 h) (ldS arg7 harg7 xs0 h)) rectS_sep headsRev h (mem_headsRev h) x

theorem sout1_D_1_at (hc0 : ¬cond1_0 i) (hc1 : cond1_1 i) (hc2 : cond1_2 i) (h : Fin 16) (x : (rectS h).shape.Idx) :
    sout1_D_1 c i arg3 harg3 arg4 harg4 arg5 harg5 arg6 harg6 arg7 harg7 arg8 harg8 arg9 harg9 hc0 hc1 hc2 x0 x1 x2 xs0 xs1 xs2 ((rectS h).emb x) = headL (tq i) (tk i) (ldQ arg3 harg3 x0 h) (ldQ arg4 harg4 x1 h) (ldS arg7 harg7 xs0 h) (ldS arg8 harg8 xs1 h) x := by
  unfold sout1_D_1
  rw [View.read_writes_junk_eq_canon, LS1_D c i arg3 harg3 arg4 harg4 arg5 harg5 arg6 harg6 arg7 harg7 arg8 harg8 arg9 harg9 x0 x1 x2 xs0 xs1 xs2 hc0 hc1 hc2]
  exact canon_family (Val := Elt F) (e := .f32) (s := S512x16x1) rectS (fun h => headL (tq i) (tk i) (ldQ arg3 harg3 x0 h) (ldQ arg4 harg4 x1 h) (ldS arg7 harg7 xs0 h) (ldS arg8 harg8 xs1 h)) rectS_sep headsRev h (mem_headsRev h) x

set_option maxHeartbeats 4000000 in
theorem sout1_D_2_at (hc0 : ¬cond1_0 i) (hc1 : cond1_1 i) (hc2 : cond1_2 i) (h : Fin 16) (x : (rectA h).shape.Idx) :
    sout1_D_2 c i arg3 harg3 arg4 harg4 arg5 harg5 arg6 harg6 arg7 harg7 arg8 harg8 arg9 harg9 hc0 hc1 hc2 x0 x1 x2 xs0 xs1 xs2 ((rectA h).emb x) = headA (tq i) (tk i) (ldQ arg3 harg3 x0 h) (ldQ arg4 harg4 x1 h) (ldQ arg5 harg5 x2 h) (ldS arg7 harg7 xs0 h) (ldA arg9 harg9 xs2 h) x := by
  unfold sout1_D_2
  rw [View.read_writes_junk_eq_canon, LS2_D c i arg3 harg3 arg4 harg4 arg5 harg5 arg6 harg6 arg7 harg7 arg8 harg8 arg9 harg9 x0 x1 x2 xs0 xs1 xs2 hc0 hc1 hc2]
  exact canon_family (Val := Elt F) (e := .f32) (s := S512x16x64) rectA (fun h => headA (tq i) (tk i) (ldQ arg3 harg3 x0 h) (ldQ arg4 harg4 x1 h) (ldQ arg5 harg5 x2 h) (ldS arg7 harg7 xs0 h) (ldA arg9 harg9 xs2 h)) rectA_sep headsRev h (mem_headsRev h) x

end Cases

end Cert.KernelIdeal.Hand

end
-- ==== Proof.KI.FlashMath.lean ====
/-
  The attention body's arithmetic for one head, read at an index.

  Over the extended reals the three vectors a head stores at a processed key tile are one step of the online-softmax
  recurrence.  Row `r` of the tile has the scores
      t c = (∑ e, q[r, e] · k[c, e]) / 8      where key `c` is visible to query `r`,   ⊥ otherwise,
  and the head stores
      m' = max m (sup over c of t c),
      l' = exp (m - m') · l + ∑ c, exp (t c - m'),
      a' = exp (m - m') · a + ∑ c, exp (t c - m') · v[c, d].
  Each operation of the body is read at explicit coordinates: the two matrix products as sums over the contracted
  coordinate, the row maximum as a supremum, the row sum as a sum, and the casts and broadcasts as re-indexings.
-/
import proofs.«109116_j51110110822880_2_alg».proof.Proof.KI.FlashHead
import proofs.«109116_j51110110822880_2_alg».proof.Proof.LibOnlineSoftmax
import proofs.«109116_j51110110822880_2_alg».proof.Proof.LibPlainMatmul
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.ValueIdx Cert.Lib.OnlineSoftmax
open scoped BigOperators

/-! ## The causal mask of a tile -/

/-- A natural number below 2³¹, written as a 32-bit word and read back signed, is itself. -/
theorem toInt_ofNat_lt (n : Nat) (hn : n < 2 ^ 31) : (BitVec.ofNat 32 n).toInt = (n : Int) := by
  have hmod : n % 2 ^ 32 = n := Nat.mod_eq_of_lt (by omega)
  rw [BitVec.toInt_eq_toNat_cond, BitVec.toNat_ofNat, hmod, if_pos (by omega)]

/-- The first row of tile `t`, as the body computes it, is the word of `t * 512`. -/
theorem tileStart_eq (t : Nat) : Scalar.muli (BitVec.ofNat 32 t) 512#32 = BitVec.ofNat 32 (t * 512) := by
  show BitVec.ofNat 32 t * BitVec.ofNat 32 512 = _
  exact (BitVec.ofNat_mul _ _).symm

/-- The mask of query tile `qi` against key tile `ki`, at row `r` and column `c`: the key's position
    `ki * 512 + c` compared signed against the query's position `qi * 512 + r` keeps the key exactly when it is not
    after the query. All four numbers are far below 2³¹, so the signed reading of each word is the number. -/
theorem k1_pay8_apply (qi ki : Fin 4) (r c : Fin 512) :
    k1_pay8 (Scalar.muli (BitVec.ofNat 32 qi.val) 512#32) (Scalar.muli (BitVec.ofNat 32 ki.val) 512#32) (ix2 r c)
      = if ki.val * 512 + c.val ≤ qi.val * 512 + r.val then 1#1 else 0#1 := by
  have hq := qi.isLt; have hk := ki.isLt; have hr := r.isLt; have hc := c.isLt
  rw [tileStart_eq, tileStart_eq]
  unfold k1_pay8
  show IntOp.cmpi .sle
      (IntOp.addi (BitVec.ofNat 32 (ki.val * 512)) (iota .tc S512x512 32 [1] iota_S512x512_d1_w32 (ix2 r c)))
      (IntOp.addi (BitVec.ofNat 32 (qi.val * 512)) (iota .tc S512x512 32 [0] iota_S512x512_d0_w32 (ix2 r c))) = _
  rw [iota_single_apply, iota_single_apply]
  have ek : IntOp.addi (BitVec.ofNat 32 (ki.val * 512)) (BitVec.ofNat 32 c.val) = BitVec.ofNat 32 (ki.val * 512 + c.val) :=
    (BitVec.ofNat_add _ _).symm
  have eq : IntOp.addi (BitVec.ofNat 32 (qi.val * 512)) (BitVec.ofNat 32 r.val) = BitVec.ofNat 32 (qi.val * 512 + r.val) :=
    (BitVec.ofNat_add _ _).symm
  have key : IntOp.cmpi .sle (BitVec.ofNat 32 (ki.val * 512 + c.val)) (BitVec.ofNat 32 (qi.val * 512 + r.val)) = 1#1
      ↔ ki.val * 512 + c.val ≤ qi.val * 512 + r.val := by
    rw [IntOp.cmpi_sle, toInt_ofNat_lt _ (by omega), toInt_ofNat_lt _ (by omega)]
    exact Int.ofNat_le
  show IntOp.cmpi .sle (IntOp.addi (BitVec.ofNat 32 (ki.val * 512)) (BitVec.ofNat 32 c.val))
      (IntOp.addi (BitVec.ofNat 32 (qi.val * 512)) (BitVec.ofNat 32 r.val)) = _
  rw [ek, eq]
  by_cases h : ki.val * 512 + c.val ≤ qi.val * 512 + r.val
  · rw [if_pos h, key.mpr h]
  · rw [if_neg h, eq_zero_of_ne_one (fun hc => h (key.mp hc))]

/-! ## The casts and broadcasts of the body, read at coordinates -/

section Layout
variable {α : Type}

/-- A `[1, 512, 1, 1, 64]` slice viewed `[512, 64]`: row `r`, lane `e`. -/
theorem cast_slice_apply (x : S1x512x1x1x64.Idx → α) (h : S1x512x1x1x64.ShapeCasts S512x64) (r : Fin 512) (e : Fin 64)
    (u0 u2 u3 : Fin 1) : shapeCast S512x64 x h (ix2 r e) = x (ix5 u0 r u2 u3 e) :=
  shapeCast_apply x h _ _ (by
    have h0 : u0.val = 0 := by omega
    have h2 : u2.val = 0 := by omega
    have h3 : u3.val = 0 := by omega
    rw [Shape.rowMajor_val_five, Shape.rowMajor_val_two]
    show (((u0.val * 512 + r.val) * 1 + u2.val) * 1 + u3.val) * 64 + e.val = r.val * 64 + e.val
    omega)

/-- A `[512, 1, 1]` column viewed `[512, 1]`. -/
theorem cast_col3_col2_apply (x : S512x1x1.Idx → α) (h : S512x1x1.ShapeCasts S512x1) (r : Fin 512) (u v w : Fin 1) :
    shapeCast S512x1 x h (ix2 r u) = x (ix3 r v w) :=
  shapeCast_apply x h _ _ (by
    have hu : u.val = 0 := by omega
    have hv : v.val = 0 := by omega
    have hw : w.val = 0 := by omega
    rw [Shape.rowMajor_val_three, Shape.rowMajor_val_two]
    show (r.val * 1 + v.val) * 1 + w.val = r.val * 1 + u.val
    omega)

/-- A `[512, 1]` column viewed `[512, 1, 1]`. -/
theorem cast_col2_col3_apply (x : S512x1.Idx → α) (h : S512x1.ShapeCasts S512x1x1) (r : Fin 512) (u v w : Fin 1) :
    shapeCast S512x1x1 x h (ix3 r v w) = x (ix2 r u) :=
  shapeCast_apply x h _ _ (by
    have hu : u.val = 0 := by omega
    have hv : v.val = 0 := by omega
    have hw : w.val = 0 := by omega
    rw [Shape.rowMajor_val_three, Shape.rowMajor_val_two]
    show r.val * 1 + u.val = (r.val * 1 + v.val) * 1 + w.val
    omega)

/-- A vector of 512 rows viewed as a `[512, 1]` column. -/
theorem cast_vec_col_apply (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_one, Shape.rowMajor_val_two]
    show r.val = r.val * 1 + u.val
    omega)

/-- A `[512, 1, 64]` slab viewed `[512, 64]`. -/
theorem cast_slab_mat_apply (x : S512x1x64.Idx → α) (h : S512x1x64.ShapeCasts S512x64) (r : Fin 512) (d : Fin 64) (u : Fin 1) :
    shapeCast S512x64 x h (ix2 r d) = x (ix3 r u d) :=
  shapeCast_apply x h _ _ (by
    have hu : u.val = 0 := by omega
    rw [Shape.rowMajor_val_three, Shape.rowMajor_val_two]
    show (r.val * 1 + u.val) * 64 + d.val = r.val * 64 + d.val
    omega)

/-- A `[512, 64]` matrix viewed as a `[512, 1, 64]` slab. -/
theorem cast_mat_slab_apply (x : S512x64.Idx → α) (h : S512x64.ShapeCasts S512x1x64) (r : Fin 512) (d : Fin 64) (u : Fin 1) :
    shapeCast S512x1x64 x h (ix3 r u d) = x (ix2 r d) :=
  shapeCast_apply x h _ _ (by
    have hu : u.val = 0 := by omega
    rw [Shape.rowMajor_val_three, Shape.rowMajor_val_two]
    show r.val * 64 + d.val = (r.val * 1 + u.val) * 64 + d.val
    omega)

/-- A `[512, 1]` column broadcast along 512 columns reads its row's one entry. -/
theorem bcast_col_512_apply (x : S512x1.Idx → α) (h : S512x1.Broadcasts S512x512) (r c : Fin 512) (u : Fin 1) :
    broadcastTo S512x512 x h (ix2 r c) = x (ix2 r u) := by
  refine broadcastTo_apply x h (ix2 r c) (ix2 r u) fun ax => ?_
  match ax with
  | ⟨0, _⟩ => rfl
  | ⟨1, _⟩ =>
    show u.val = 0
    omega

/-- A `[512, 1]` column broadcast along 64 columns reads its row's one entry. -/
theorem bcast_col_64_apply (x : S512x1.Idx → α) (h : S512x1.Broadcasts S512x64) (r : Fin 512) (d : Fin 64) (u : Fin 1) :
    broadcastTo S512x64 x h (ix2 r d) = x (ix2 r u) := by
  refine broadcastTo_apply x h (ix2 r d) (ix2 r u) fun ax => ?_
  match ax with
  | ⟨0, _⟩ => rfl
  | ⟨1, _⟩ =>
    show u.val = 0
    omega

end Layout

/-! ## The product of the queries with the transposed keys -/

/-- The dimension numbers of a product against a transposed right operand: `[M, K] · [N, K]ᵀ → [M, N]`, both operands
    contracted on their axis 1. -/
abbrev ntDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- That product into the zero accumulator, at `(p, q)`, is `∑ e, l[p, e] · r[q, e]`: the contraction index is its
    one coordinate, the left operand's index at `(p, q)` and `e` is `(p, e)`, the right operand's `(q, e)`. -/
theorem matmul_nt_lit {M K N : Nat} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    FloatOps.matmul (ntDims M K N wf) prec l r (constant ⟨2, ![M, N]⟩ .f32 0x00000000#32) (ix2 p q)
      = ∑ e : Fin K, l (ix2 p e) * r (ix2 q e) := by
  rw [Ideal.matmul_constant_zero_apply, ← Equiv.sum_comp (contrEquiv1 (ntDims M K N wf) K rfl rfl).symm]
  refine Finset.sum_congr rfl fun e _ => ?_
  have he := contrEquiv1_symm_val (ntDims M K N wf) K rfl rfl e
  have el : (ntDims M K N wf).lhsIdx (ix2 p q) ((contrEquiv1 (ntDims M K N wf) K rfl rfl).symm e) = ix2 p e :=
    funext fun a => Fin.ext (by
      match a with
      | ⟨0, _⟩ =>
        show ((ntDims M K N wf).lhsIdx (ix2 p q) _ 0).val = p.val
        unfold DotDims.lhsIdx
        rw [dif_neg (show ¬ (0 : Fin 2) ∈ (ntDims M K N wf).lhsBatch from List.not_mem_nil),
          dif_pos (show (0 : Fin 2) ∈ (ntDims M K N wf).lhsNonContracting from List.mem_singleton.mpr rfl)]
        rfl
      | ⟨1, _⟩ => exact ((ntDims M K N wf).lhsIdx_val_of_single rfl _ _).trans he)
  have er : (ntDims M K N wf).rhsIdx (ix2 p q) ((contrEquiv1 (ntDims M K N wf) K rfl rfl).symm e) = ix2 q e :=
    funext fun a => Fin.ext (by
      match a with
      | ⟨0, _⟩ =>
        show ((ntDims M K N wf).rhsIdx (ix2 p q) _ 0).val = q.val
        unfold DotDims.rhsIdx
        rw [dif_neg (show ¬ (0 : Fin 2) ∈ (ntDims M K N wf).rhsBatch from List.not_mem_nil),
          dif_pos (show (0 : Fin 2) ∈ (ntDims M K N wf).rhsNonContracting from List.mem_singleton.mpr rfl)]
        rfl
      | ⟨1, _⟩ => exact ((ntDims M K N wf).rhsIdx_val_of_single rfl _ _).trans he)
  rw [el, er]

/-- The same for any record of dimension numbers of these shapes whose fields are those of such a product. -/
theorem matmul_nt_apply {M K N : Nat} {φ₁ φ₂ : FTy}
    (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ e : Fin K, l (ix2 p e) * r (ix2 q e) := by
  obtain ⟨lc, rc, ln, rn, lb, rb, wf⟩ := d
  simp only at hlc hrc hln hrn hlb hrb
  subst hlc hrc hln hrn hlb hrb
  exact matmul_nt_lit wf prec l r p q

/-! ## The row maximum and the row sum -/

/-- The word of the row maximum's neutral value is `⊥`. -/
theorem neutral_max_eq_bot : FloatOps.ofBits (F := Ideal) .f32 0xFF800000#32 = (⊥ : EReal) := by
  simp [Ideal.ofBits, Ideal.ieee]

/-- The maximum over axis 1 of a `[512, 512]` matrix, from `⊥`, is at row `r` the supremum of the row. -/
theorem rowMax_apply (src : FVec Ideal S512x512 .f32) (h : S512x512.Reduces [1] S512) (hφ : FKind.Formats .f32)
    (hacc : (0xFF800000#32 : BitVec 32) = FKind.maximumf.neutral .f32 hφ) (r : Fin 512) :
    multiReduction (F := Ideal) .maximumf [1] S512 src 0xFF800000#32 h hφ hacc (ix1 r)
      = Finset.univ.sup fun c : Fin 512 => src (ix2 r c) := by
  refine (Ideal.multiReduction_maximumf_single src _ h hφ hacc (ix1 r)).trans ?_
  have hf : (src ∘ h.lift (ix1 r)) = fun c : Fin 512 => src (ix2 r c) :=
    funext fun c => congrArg src (funext fun a => Fin.ext (by match a with | ⟨0, _⟩ => rfl | ⟨1, _⟩ => rfl))
  rw [hf, neutral_max_eq_bot]
  rfl

/-- The sum over axis 1 of a `[512, 512]` matrix is at row `r` the sum of the row. -/
theorem rowSum_apply (src : FVec Ideal S512x512 .f32) (h : S512x512.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r) = ∑ c : Fin 512, src (ix2 r c) :=
  (Ideal.multiReduction_add_single src _ h hφ hacc (ix1 r)).trans
    (Finset.sum_congr rfl fun c _ => congrArg src (funext fun a => Fin.ext (by match a with | ⟨0, _⟩ => rfl | ⟨1, _⟩ => rfl)))

/-- The exponential of a vector, read at an index. -/
theorem vexp_apply {s : Shape} {φ : FTy} (a : FVec Ideal s φ) (i : s.Idx) :
    Idealize.ShloMosaic.exp a i = Ideal.exp (a i) := rfl

/-! ## The scores of a tile -/

/-- The score of key `c` for query `r` of a tile: the dot product of the query row with the key row, scaled by
    `1/8`, where the mask keeps the key, and `⊥` where it does not. -/
def tileScore (v3 v4 : BitVec 32) (q k : Vec Ideal S1x512x1x1x64 .f32) (r c : Fin 512) : EReal :=
  Scalar.select (k1_pay8 v3 v4 (ix2 r c))
    ((∑ e : Fin 64, q (ix5 (0 : Fin 1) r (0 : Fin 1) (0 : Fin 1) e) * k (ix5 (0 : Fin 1) c (0 : Fin 1) (0 : Fin 1) e))
      * Ideal.ofBits .f32 0x3E000000#32) ⊥

/-- The fill value of the masked scores is named in the certificate's table, and denotes `⊥`. -/
theorem neg_big_eq : Named.named (F := Ideal) κ "neg_big" (φ := .f32) 0xFF333332#32 = (⊥ : EReal) :=
  IdealRules.named_const.ideal_named_scalar _ _ _ _ rfl

/-- The masked scaled scores at row `r`, column `c`. Narrowing the two slices to the 16-bit format changes nothing
    over the extended reals, and the accumulator of the product is zero. -/
theorem k1_pay10_apply (v3 v4 : BitVec 32) (q k : Vec Ideal S1x512x1x1x64 .f32) (r c : Fin 512) :
    k1_pay10 (F := Ideal) v3 v4 q k (ix2 r c) = tileScore v3 v4 q k r c := by
  unfold k1_pay10 tileScore
  refine (select_apply _ _ _ _).trans ?_
  refine congrArg₂ (Scalar.select (k1_pay8 v3 v4 (ix2 r c))) ?_ neg_big_eq
  refine (mulf_apply _ _ _).trans ?_
  refine congrArg (· * Ideal.ofBits .f32 0x3E000000#32) ?_
  refine (matmul_nt_apply dot_S512x64_S512x64_S512x512_1_1_0_0_n_n rfl rfl rfl rfl rfl rfl none _ _ r c).trans ?_
  exact Finset.sum_congr rfl fun e _ =>
    congrArg₂ (· * ·) (cast_slice_apply q _ r e (0 : Fin 1) (0 : Fin 1) (0 : Fin 1)) (cast_slice_apply k _ c e (0 : Fin 1) (0 : Fin 1) (0 : Fin 1))

/-- The value rows, narrowed: row `c`, lane `d`. -/
theorem k1_pay9_apply (vv : Vec Ideal S1x512x1x1x64 .f32) (c : Fin 512) (d : Fin 64) :
    k1_pay9 (F := Ideal) vv (ix2 c d) = vv (ix5 (0 : Fin 1) c (0 : Fin 1) (0 : Fin 1) d) := by
  unfold k1_pay9
  exact cast_slice_apply vv _ c d (0 : Fin 1) (0 : Fin 1) (0 : Fin 1)

/-- The old maximum as a column. -/
theorem k1_pay11_apply (mp : Vec Ideal S512x1x1 .f32) (r : Fin 512) (u : Fin 1) :
    k1_pay11 (F := Ideal) mp (ix2 r u) = mp (ix3 r (0 : Fin 1) (0 : Fin 1)) := by
  unfold k1_pay11
  exact cast_col3_col2_apply mp _ r u (0 : Fin 1) (0 : Fin 1)

/-! ## The new maximum, the rescaling factor and the weights -/

/-- The new maximum of row `r`: the old one against the supremum of the row's scores. -/
theorem k1_pay12_apply (v3 v4 : BitVec 32) (q k : Vec Ideal S1x512x1x1x64 .f32) (mp : Vec Ideal S512x1x1 .f32)
    (r : Fin 512) (u : Fin 1) :
    k1_pay12 (F := Ideal) v3 v4 q k mp (ix2 r u) = max (mp (ix3 r (0 : Fin 1) (0 : Fin 1))) (Finset.univ.sup (tileScore v3 v4 q k r)) := by
  unfold k1_pay12
  refine (maximumf_apply _ _ _).trans ?_
  refine congrArg₂ max (k1_pay11_apply mp r u) ?_
  refine (cast_vec_col_apply _ _ r u).trans ?_
  refine (rowMax_apply _ _ _ _ r).trans ?_
  exact congrArg (fun f : Fin 512 → EReal => Finset.univ.sup f) (funext fun c => k1_pay10_apply v3 v4 q k r c)

/-- The factor that rescales row `r`'s old sums to the new maximum. -/
theorem k1_pay13_apply (v3 v4 : BitVec 32) (q k : Vec Ideal S1x512x1x1x64 .f32) (mp : Vec Ideal S512x1x1 .f32)
    (r : Fin 512) (u : Fin 1) :
    k1_pay13 (F := Ideal) v3 v4 q k mp (ix2 r u) = Ideal.exp (mp (ix3 r (0 : Fin 1) (0 : Fin 1)) - max (mp (ix3 r (0 : Fin 1) (0 : Fin 1))) (Finset.univ.sup (tileScore v3 v4 q k r))) := by
  unfold k1_pay13
  refine (vexp_apply _ _).trans ?_
  refine congrArg Ideal.exp ?_
  refine (subf_apply _ _ _).trans ?_
  exact congrArg₂ (· - ·) (k1_pay11_apply mp r u) (k1_pay12_apply v3 v4 q k mp r u)

/-- The weight of key `c` for query `r`: the exponential of its score less the new maximum. -/
theorem k1_pay14_apply (v3 v4 : BitVec 32) (q k : Vec Ideal S1x512x1x1x64 .f32) (mp : Vec Ideal S512x1x1 .f32)
    (r c : Fin 512) :
    k1_pay14 (F := Ideal) v3 v4 q k mp (ix2 r c) = Ideal.exp (tileScore v3 v4 q k r c - max (mp (ix3 r (0 : Fin 1) (0 : Fin 1))) (Finset.univ.sup (tileScore v3 v4 q k r))) := by
  unfold k1_pay14
  refine (vexp_apply _ _).trans ?_
  refine congrArg Ideal.exp ?_
  refine (subf_apply _ _ _).trans ?_
  exact congrArg₂ (· - ·) (k1_pay10_apply v3 v4 q k r c)
    ((bcast_col_512_apply _ _ r c (0 : Fin 1)).trans (k1_pay12_apply v3 v4 q k mp r (0 : Fin 1)))

/-- The old normaliser of row `r`, rescaled. -/
theorem k1_pay15_apply (v3 v4 : BitVec 32) (q k : Vec Ideal S1x512x1x1x64 .f32) (mp lp : Vec Ideal S512x1x1 .f32)
    (r : Fin 512) (u : Fin 1) :
    k1_pay15 (F := Ideal) v3 v4 q k mp lp (ix2 r u)
      = Ideal.exp (mp (ix3 r (0 : Fin 1) (0 : Fin 1)) - max (mp (ix3 r (0 : Fin 1) (0 : Fin 1))) (Finset.univ.sup (tileScore v3 v4 q k r))) * lp (ix3 r (0 : Fin 1) (0 : Fin 1)) := by
  unfold k1_pay15
  refine (mulf_apply _ _ _).trans ?_
  exact congrArg₂ (· * ·) (k1_pay13_apply v3 v4 q k mp r u) (cast_col3_col2_apply lp _ r u (0 : Fin 1) (0 : Fin 1))

/-! ## What a head stores -/

/-- The new running maximum of row `r`. -/
theorem headM_apply (v3 v4 : BitVec 32) (q k : Vec Ideal S1x512x1x1x64 .f32) (mp : Vec Ideal S512x1x1 .f32) (r : Fin 512) :
    headM (F := Ideal) v3 v4 q k mp (ix3 r (0 : Fin 1) (0 : Fin 1)) = max (mp (ix3 r (0 : Fin 1) (0 : Fin 1))) (Finset.univ.sup (tileScore v3 v4 q k r)) := by
  unfold headM k1_pay18
  exact (cast_col2_col3_apply _ _ r (0 : Fin 1) (0 : Fin 1) (0 : Fin 1)).trans (k1_pay12_apply v3 v4 q k mp r (0 : Fin 1))

/-- The new normaliser of row `r`: the old one rescaled, plus the sum of the tile's weights. -/
theorem headL_apply (v3 v4 : BitVec 32) (q k : Vec Ideal S1x512x1x1x64 .f32) (mp lp : Vec Ideal S512x1x1 .f32) (r : Fin 512) :
    headL (F := Ideal) v3 v4 q k mp lp (ix3 r (0 : Fin 1) (0 : Fin 1))
      = Ideal.exp (mp (ix3 r (0 : Fin 1) (0 : Fin 1)) - max (mp (ix3 r (0 : Fin 1) (0 : Fin 1))) (Finset.univ.sup (tileScore v3 v4 q k r))) * lp (ix3 r (0 : Fin 1) (0 : Fin 1))
        + ∑ c : Fin 512, Ideal.exp (tileScore v3 v4 q k r c - max (mp (ix3 r (0 : Fin 1) (0 : Fin 1))) (Finset.univ.sup (tileScore v3 v4 q k r))) := by
  unfold headL k1_pay16
  refine (cast_col2_col3_apply _ _ r (0 : Fin 1) (0 : Fin 1) (0 : Fin 1)).trans ?_
  refine (addf_apply _ _ _).trans ?_
  refine congrArg₂ (· + ·) (k1_pay15_apply v3 v4 q k mp lp r (0 : Fin 1)) ?_
  refine (cast_vec_col_apply _ _ r (0 : Fin 1)).trans ?_
  refine (rowSum_apply _ _ _ _ r).trans ?_
  exact Finset.sum_congr rfl fun c _ => k1_pay14_apply v3 v4 q k mp r c

/-- The new accumulator of row `r`, lane `d`: the old one rescaled, plus the tile's weights against the value rows. -/
theorem headA_apply (v3 v4 : BitVec 32) (q k vv : Vec Ideal S1x512x1x1x64 .f32) (mp : Vec Ideal S512x1x1 .f32)
    (ap : Vec Ideal S512x1x64 .f32) (r : Fin 512) (d : Fin 64) :
    headA (F := Ideal) v3 v4 q k vv mp ap (ix3 r (0 : Fin 1) d)
      = Ideal.exp (mp (ix3 r (0 : Fin 1) (0 : Fin 1)) - max (mp (ix3 r (0 : Fin 1) (0 : Fin 1))) (Finset.univ.sup (tileScore v3 v4 q k r))) * ap (ix3 r (0 : Fin 1) d)
        + ∑ c : Fin 512, Ideal.exp (tileScore v3 v4 q k r c - max (mp (ix3 r (0 : Fin 1) (0 : Fin 1))) (Finset.univ.sup (tileScore v3 v4 q k r))) * vv (ix5 (0 : Fin 1) c (0 : Fin 1) (0 : Fin 1) d) := by
  unfold headA k1_pay17
  refine (cast_mat_slab_apply _ _ r d (0 : Fin 1)).trans ?_
  refine (addf_apply _ _ _).trans ?_
  refine congrArg₂ (· + ·) ?_ ?_
  · refine (mulf_apply _ _ _).trans ?_
    exact congrArg₂ (· * ·) ((bcast_col_64_apply _ _ r d (0 : Fin 1)).trans (k1_pay13_apply v3 v4 q k mp r (0 : Fin 1)))
      (cast_slab_mat_apply ap _ r d (0 : Fin 1))
  · refine (PlainMatmul.matmul_plain_apply dot_S512x512_S512x64_S512x64_1_0_0_1_n_n rfl rfl rfl rfl rfl rfl none _ _ r d).trans ?_
    exact Finset.sum_congr rfl fun c _ => congrArg₂ (· * ·) (k1_pay14_apply v3 v4 q k mp r c) (k1_pay9_apply vv c d)

/-- The three stored values of row `r` (lane `d` of the accumulator) are one step of the online-softmax recurrence:
    the tile's 512 keys absorbed into the old state. -/
theorem head_absorb (v3 v4 : BitVec 32) (q k vv : Vec Ideal S1x512x1x1x64 .f32) (mp lp : Vec Ideal S512x1x1 .f32)
    (ap : Vec Ideal S512x1x64 .f32) (r : Fin 512) (d : Fin 64) :
    ((headM (F := Ideal) v3 v4 q k mp (ix3 r (0 : Fin 1) (0 : Fin 1)), headL (F := Ideal) v3 v4 q k mp lp (ix3 r (0 : Fin 1) (0 : Fin 1)),
        headA (F := Ideal) v3 v4 q k vv mp ap (ix3 r (0 : Fin 1) d)) : EReal × EReal × EReal)
      = absorb (tileScore v3 v4 q k r) (fun c : Fin 512 => vv (ix5 (0 : Fin 1) c (0 : Fin 1) (0 : Fin 1) d)) Finset.univ
          (mp (ix3 r (0 : Fin 1) (0 : Fin 1)), lp (ix3 r (0 : Fin 1) (0 : Fin 1)), ap (ix3 r (0 : Fin 1) d)) := by
  rw [headM_apply, headL_apply, headA_apply]
  rfl

end Cert.KernelIdeal.Hand

end
-- ==== Proof.KI.FlashStep.lean ====
/-
  The attention region at the ideal instance: one processed key tile as one step of the online-softmax recurrence.

  Row r, head h of the three scratch buffers after a point that absorbs its key tile into a carried state is the
  recurrence's step applied to the same row and head before the point: the tile's masked scaled scores of row r against
  the 512 keys of the tile, and the tile's value rows.
-/
import proofs.«109116_j51110110822880_2_alg».proof.Proof.KI.Flash
import proofs.«109116_j51110110822880_2_alg».proof.Proof.KI.FlashRead
import proofs.«109116_j51110110822880_2_alg».proof.Proof.KI.FlashMath
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.OnlineSoftmax

/-! ## Loads at an index (any instance) -/

section Loads
variable {F : FTy → Type} [FloatOps F] [Named F]

theorem ldQ_apply (arg : Memref sig .tc .vmem S1x512x1x16x64 .f32) (harg : arg.IsWhole) (X : Vec F S1x512x1x16x64 .f32) (h : Fin 16)
    (r : Fin 512) (e : Fin 64) :
    ldQ arg harg X h (ix5 (0 : Fin 1) r (0 : Fin 1) (0 : Fin 1) e) = X (ix5 (0 : Fin 1) r (0 : Fin 1) h e) := by
  show View.readAt (Elt F) arg.view (rectQ h).toLoadRect (harg.unread X) _ = _
  rw [View.readAt_eq_ld, harg.read_unread]
  show X ((rectQ h).idx _) = _
  refine congrArg X (funext fun a => Fin.ext ?_)
  match a with
  | ⟨0, _⟩ => show 0 + 1 * 0 = 0; omega
  | ⟨1, _⟩ => show 0 + 1 * r.val = r.val; omega
  | ⟨2, _⟩ => show 0 + 1 * 0 = 0; omega
  | ⟨3, _⟩ => show h.val + 1 * 0 = h.val; omega
  | ⟨4, _⟩ => show 0 + 1 * e.val = e.val; omega

theorem ldS_apply (arg : Memref sig .tc .vmem S512x16x1 .f32) (harg : arg.IsWhole) (X : Vec F S512x16x1 .f32) (h : Fin 16) (r : Fin 512) :
    ldS arg harg X h (ix3 r (0 : Fin 1) (0 : Fin 1)) = X (ix3 r h (0 : Fin 1)) := by
  show View.readAt (Elt F) arg.view (rectS h).toLoadRect (harg.unread X) _ = _
  rw [View.readAt_eq_ld, harg.read_unread]
  show X ((rectS h).idx _) = _
  refine congrArg X (funext fun a => Fin.ext ?_)
  match a with
  | ⟨0, _⟩ => show 0 + 1 * r.val = r.val; omega
  | ⟨1, _⟩ => show h.val + 1 * 0 = h.val; omega
  | ⟨2, _⟩ => show 0 + 1 * 0 = 0; omega

theorem ldA_apply (arg : Memref sig .tc .vmem S512x16x64 .f32) (harg : arg.IsWhole) (X : Vec F S512x16x64 .f32) (h : Fin 16) (r : Fin 512) (d : Fin 64) :
    ldA arg harg X h (ix3 r (0 : Fin 1) d) = X (ix3 r h d) := by
  show View.readAt (Elt F) arg.view (rectA h).toLoadRect (harg.unread X) _ = _
  rw [View.readAt_eq_ld, harg.read_unread]
  show X ((rectA h).idx _) = _
  refine congrArg X (funext fun a => Fin.ext ?_)
  match a with
  | ⟨0, _⟩ => show 0 + 1 * r.val = r.val; omega
  | ⟨1, _⟩ => show h.val + 1 * 0 = h.val; omega
  | ⟨2, _⟩ => show 0 + 1 * d.val = d.val; omega

end Loads

/-! ## The row state, and one step of it -/

section Step
variable (V : (c : Dev nD) → (b : Ref sig .tc) → Buf (Elt Ideal) ((c : Thread nD τ).loc b)) (c : Dev nD)

/-- Row r, head h (and lane d of the accumulator) of the three scratch buffers after point `t`. -/
def rowState (t : Fin cfg1.N) (r : Fin 512) (h : Fin 16) (d : Fin 64) : EReal × EReal × EReal :=
  ((outsAt1 V c t.val t.isLt).2.1 (ix3 r h (0 : Fin 1)), (outsAt1 V c t.val t.isLt).2.2.1 (ix3 r h (0 : Fin 1)),
    (outsAt1 V c t.val t.isLt).2.2.2 (ix3 r h d))

/-- The tile's masked scaled scores of row r of head h at point `t`, key by key within the tile. -/
def tileScoreAt (t : Fin cfg1.N) (h : Fin 16) (r cc : Fin 512) : EReal :=
  tileScore (tq (grid1.coords t)) (tk (grid1.coords t)) (ldQ (ms1_0 t) (hs1_0 t) (iblk1 V c 0 t) h) (ldQ (ms1_1 t) (hs1_1 t) (iblk1 V c 1 t) h) r cc
/-- The tile's value rows of head h, lane d. -/
def tileValueAt (t : Fin cfg1.N) (h : Fin 16) (d : Fin 64) (cc : Fin 512) : EReal :=
  ldQ (ms1_2 t) (hs1_2 t) (iblk1 V c 2 t) h (ix5 (0 : Fin 1) cc (0 : Fin 1) (0 : Fin 1) d)

set_option maxHeartbeats 4000000 in
theorem rowState_B (t : Fin cfg1.N) (h0 : ¬t.val % 4 = 0) (h1 : t.val % 4 ≤ t.val / 4 % 4) (h2 : ¬t.val % 4 = 3)
    (r : Fin 512) (h : Fin 16) (d : Fin 64) :
    rowState V c t r h d = absorb (tileScoreAt V c t h r) (tileValueAt V c t h d) Finset.univ
      (rowState V c ⟨t.val - 1, Nat.lt_of_le_of_lt (Nat.sub_le _ _) t.isLt⟩ r h d) := by
  have hc := hB t h0 h1 h2
  unfold rowState tileScoreAt tileValueAt
  rw [outsAt1_B V c t h0 h1 h2]
  dsimp only
  rw [← ldS_apply scM1_0 (Memref.isWhole_whole _) (outsAt1 V c (t.val - 1) (Nat.lt_of_le_of_lt (Nat.sub_le _ _) t.isLt)).2.1 h r, ← ldS_apply scM1_1 (Memref.isWhole_whole _) (outsAt1 V c (t.val - 1) (Nat.lt_of_le_of_lt (Nat.sub_le _ _) t.isLt)).2.2.1 h r, ← ldA_apply scM1_2 (Memref.isWhole_whole _) (outsAt1 V c (t.val - 1) (Nat.lt_of_le_of_lt (Nat.sub_le _ _) t.isLt)).2.2.2 h r d]
  rw [← head_absorb]
  refine Prod.ext ?_ (Prod.ext ?_ ?_)
  · show sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (ix3 r h (0 : Fin 1)) = _
    rw [ix3_eq_embS r h]
    exact sout1_B_0_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 hc.1 hc.2.1 hc.2.2 h _
  · show sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (ix3 r h (0 : Fin 1)) = _
    rw [ix3_eq_embS r h]
    exact sout1_B_1_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 hc.1 hc.2.1 hc.2.2 h _
  · show sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (ix3 r h d) = _
    rw [ix3_eq_embA r h d]
    exact sout1_B_2_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 hc.1 hc.2.1 hc.2.2 h _

set_option maxHeartbeats 4000000 in
theorem rowState_D (t : Fin cfg1.N) (h0 : ¬t.val % 4 = 0) (h1 : t.val % 4 ≤ t.val / 4 % 4) (h2 : t.val % 4 = 3)
    (r : Fin 512) (h : Fin 16) (d : Fin 64) :
    rowState V c t r h d = absorb (tileScoreAt V c t h r) (tileValueAt V c t h d) Finset.univ
      (rowState V c ⟨t.val - 1, Nat.lt_of_le_of_lt (Nat.sub_le _ _) t.isLt⟩ r h d) := by
  have hc := hD t h0 h1 h2
  unfold rowState tileScoreAt tileValueAt
  rw [outsAt1_D V c t h0 h1 h2]
  dsimp only
  rw [← ldS_apply scM1_0 (Memref.isWhole_whole _) (outsAt1 V c (t.val - 1) (Nat.lt_of_le_of_lt (Nat.sub_le _ _) t.isLt)).2.1 h r, ← ldS_apply scM1_1 (Memref.isWhole_whole _) (outsAt1 V c (t.val - 1) (Nat.lt_of_le_of_lt (Nat.sub_le _ _) t.isLt)).2.2.1 h r, ← ldA_apply scM1_2 (Memref.isWhole_whole _) (outsAt1 V c (t.val - 1) (Nat.lt_of_le_of_lt (Nat.sub_le _ _) t.isLt)).2.2.2 h r d]
  rw [← head_absorb]
  refine Prod.ext ?_ (Prod.ext ?_ ?_)
  · show sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (ix3 r h (0 : Fin 1)) = _
    rw [ix3_eq_embS r h]
    exact sout1_D_0_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 hc.1 hc.2.1 hc.2.2 h _
  · show sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (ix3 r h (0 : Fin 1)) = _
    rw [ix3_eq_embS r h]
    exact sout1_D_1_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 hc.1 hc.2.1 hc.2.2 h _
  · show sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 (ix3 r h d) = _
    rw [ix3_eq_embA r h d]
    exact sout1_D_2_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 hc.1 hc.2.1 hc.2.2 h _

theorem rowState_C (t : Fin cfg1.N) (h0 : ¬t.val % 4 = 0) (h1 : ¬t.val % 4 ≤ t.val / 4 % 4) (h2 : ¬t.val % 4 = 3)
    (r : Fin 512) (h : Fin 16) (d : Fin 64) :
    rowState V c t r h d = rowState V c ⟨t.val - 1, Nat.lt_of_le_of_lt (Nat.sub_le _ _) t.isLt⟩ r h d := by
  unfold rowState
  rw [outsAt1_C V c t h0 h1 h2]

theorem rowState_E (t : Fin cfg1.N) (h0 : ¬t.val % 4 = 0) (h1 : ¬t.val % 4 ≤ t.val / 4 % 4) (h2 : t.val % 4 = 3)
    (r : Fin 512) (h : Fin 16) (d : Fin 64) :
    rowState V c t r h d = rowState V c ⟨t.val - 1, Nat.lt_of_le_of_lt (Nat.sub_le _ _) t.isLt⟩ r h d := by
  unfold rowState
  rw [outsAt1_E V c t h0 h1 h2]

end Step

end Cert.KernelIdeal.Hand

end
-- ==== Proof.KI.FlashBlocks.lean ====
import proofs.«109116_j51110110822880_2_alg».proof.Proof.KI.Flash
import proofs.«109116_j51110110822880_2_alg».proof.Proof.Attn5Spec
import Idealize.ShloMosaic.Lib.ValueIdx
import Idealize.ShloMosaic.Lib.Pipeline.Value

/-!
# The attention region's blocks

The region runs over a grid of 4 batches × 4 query tiles × 4 key tiles, 64 points in row-major order: point `t` has
batch `t / 16`, query tile `t / 4 % 4` and key tile `t % 4`. Its three input windows read one array
`[4, 2048, 3, 16, 64]` (batch, row, stack, head, lane) in blocks of 512 rows of one batch and one stack: the queries
at the query tile, the keys and the values at the smaller of the key tile and the query tile. Its output window
writes `[4, 2048, 16, 64]` in blocks of 512 rows of one batch, at the query tile, and only the last key tile of each
query tile writes its block back. This file reads the input blocks at coordinates and assembles the output array
from what the writing points leave.
-/

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.Attn5Spec (SOut)

/-! ## The grid and the index maps, decided over the 64 points -/

/-- Point `t` is batch `t / 16`, query tile `t / 4 % 4`, key tile `t % 4`. -/
theorem coords1 : ∀ t : Fin cfg1.N,
    (grid1.coords t 0).val = t.val / 16 ∧ (grid1.coords t 1).val = t.val / 4 % 4 ∧ (grid1.coords t 2).val = t.val % 4 :=
  (by decide +kernel : ∀ t : Fin grid1.N, _)

theorem idx_facts1_0 : ∀ t : Fin cfg1.N,
    win1_0.index t (0 : Fin 5) = t.val / 16 ∧ win1_0.index t (1 : Fin 5) = t.val / 4 % 4
    ∧ win1_0.index t (2 : Fin 5) = 0 ∧ win1_0.index t (3 : Fin 5) = 0 ∧ win1_0.index t (4 : Fin 5) = 0 :=
  (by decide +kernel : ∀ t : Fin grid1.N, _)

theorem idx_facts1_1 : ∀ t : Fin cfg1.N,
    win1_1.index t (0 : Fin 5) = t.val / 16 ∧ win1_1.index t (1 : Fin 5) = min (t.val % 4) (t.val / 4 % 4)
    ∧ win1_1.index t (2 : Fin 5) = 1 ∧ win1_1.index t (3 : Fin 5) = 0 ∧ win1_1.index t (4 : Fin 5) = 0 :=
  (by decide +kernel : ∀ t : Fin grid1.N, _)

theorem idx_facts1_2 : ∀ t : Fin cfg1.N,
    win1_2.index t (0 : Fin 5) = t.val / 16 ∧ win1_2.index t (1 : Fin 5) = min (t.val % 4) (t.val / 4 % 4)
    ∧ win1_2.index t (2 : Fin 5) = 2 ∧ win1_2.index t (3 : Fin 5) = 0 ∧ win1_2.index t (4 : Fin 5) = 0 :=
  (by decide +kernel : ∀ t : Fin grid1.N, _)

theorem idx_facts1_3 : ∀ t : Fin cfg1.N,
    win1_3.index t (0 : Fin 4) = t.val / 16 ∧ win1_3.index t (1 : Fin 4) = t.val / 4 % 4
    ∧ win1_3.index t (2 : Fin 4) = 0 ∧ win1_3.index t (3 : Fin 4) = 0 :=
  (by decide +kernel : ∀ t : Fin grid1.N, _)

-- the core's array contents when the region is entered
variable (V : (c : Dev nD) → (b : Ref sig .tc) → Buf (Elt Ideal) ((c : Thread nD τ).loc b))

/-! ## The three input blocks at coordinates -/

/-- The query block at point `t`: rows `512 q … 512 q + 511` of batch `t / 16`, stack 0, at the query tile `q = t / 4 % 4`. -/
theorem iblk1_0_apply (c : Dev nD) (t : Fin cfg1.N) (r : Fin 512) (h : Fin 16) (e : Fin 64) :
    iblk1 V c 0 t (ix5 (0 : Fin 1) r (0 : Fin 1) h e)
      = V c main_v6 (ix5 (⟨t.val / 16, by have hN : cfg1.N = 64 := N_1; have := t.isLt; omega⟩ : Fin 4)
          (⟨(t.val / 4 % 4) * 512 + r.val, by have := r.isLt; omega⟩ : Fin 2048) (0 : Fin 3) h e) := by
  obtain ⟨e0, e1, e2, e3, e4⟩ := idx_facts1_0 t
  show V c main_v6 (((cfg1.win 0).blk t).view.emb (ix5 (0 : Fin 1) r (0 : Fin 1) h e)) = V c main_v6 _
  refine congrArg (V c main_v6) ?_
  funext a; apply Fin.ext
  match a with
  | ⟨0, _⟩ => show win1_0.index t (0 : Fin 5) * 1 + 1 * 0 = t.val / 16; omega
  | ⟨1, _⟩ => show win1_0.index t (1 : Fin 5) * 512 + 1 * r.val = (t.val / 4 % 4) * 512 + r.val; omega
  | ⟨2, _⟩ => show win1_0.index t (2 : Fin 5) * 1 + 1 * 0 = 0; omega
  | ⟨3, _⟩ => show win1_0.index t (3 : Fin 5) * 16 + 1 * h.val = h.val; omega
  | ⟨4, _⟩ => show win1_0.index t (4 : Fin 5) * 64 + 1 * e.val = e.val; omega

/-- The key block at point `t`: stack 1, at the smaller of the key tile and the query tile. -/
theorem iblk1_1_apply (c : Dev nD) (t : Fin cfg1.N) (r : Fin 512) (h : Fin 16) (e : Fin 64) :
    iblk1 V c 1 t (ix5 (0 : Fin 1) r (0 : Fin 1) h e)
      = V c main_v6 (ix5 (⟨t.val / 16, by have hN : cfg1.N = 64 := N_1; have := t.isLt; omega⟩ : Fin 4)
          (⟨(min (t.val % 4) (t.val / 4 % 4)) * 512 + r.val, by have := r.isLt; omega⟩ : Fin 2048) (1 : Fin 3) h e) := by
  obtain ⟨e0, e1, e2, e3, e4⟩ := idx_facts1_1 t
  show V c main_v6 (((cfg1.win 1).blk t).view.emb (ix5 (0 : Fin 1) r (0 : Fin 1) h e)) = V c main_v6 _
  refine congrArg (V c main_v6) ?_
  funext a; apply Fin.ext
  match a with
  | ⟨0, _⟩ => show win1_1.index t (0 : Fin 5) * 1 + 1 * 0 = t.val / 16; omega
  | ⟨1, _⟩ => show win1_1.index t (1 : Fin 5) * 512 + 1 * r.val = (min (t.val % 4) (t.val / 4 % 4)) * 512 + r.val; omega
  | ⟨2, _⟩ => show win1_1.index t (2 : Fin 5) * 1 + 1 * 0 = 1; omega
  | ⟨3, _⟩ => show win1_1.index t (3 : Fin 5) * 16 + 1 * h.val = h.val; omega
  | ⟨4, _⟩ => show win1_1.index t (4 : Fin 5) * 64 + 1 * e.val = e.val; omega

/-- The value block at point `t`: stack 2, at the smaller of the key tile and the query tile. -/
theorem iblk1_2_apply (c : Dev nD) (t : Fin cfg1.N) (r : Fin 512) (h : Fin 16) (e : Fin 64) :
    iblk1 V c 2 t (ix5 (0 : Fin 1) r (0 : Fin 1) h e)
      = V c main_v6 (ix5 (⟨t.val / 16, by have hN : cfg1.N = 64 := N_1; have := t.isLt; omega⟩ : Fin 4)
          (⟨(min (t.val % 4) (t.val / 4 % 4)) * 512 + r.val, by have := r.isLt; omega⟩ : Fin 2048) (2 : Fin 3) h e) := by
  obtain ⟨e0, e1, e2, e3, e4⟩ := idx_facts1_2 t
  show V c main_v6 (((cfg1.win 2).blk t).view.emb (ix5 (0 : Fin 1) r (0 : Fin 1) h e)) = V c main_v6 _
  refine congrArg (V c main_v6) ?_
  funext a; apply Fin.ext
  match a with
  | ⟨0, _⟩ => show win1_2.index t (0 : Fin 5) * 1 + 1 * 0 = t.val / 16; omega
  | ⟨1, _⟩ => show win1_2.index t (1 : Fin 5) * 512 + 1 * r.val = (min (t.val % 4) (t.val / 4 % 4)) * 512 + r.val; omega
  | ⟨2, _⟩ => show win1_2.index t (2 : Fin 5) * 1 + 1 * 0 = 2; omega
  | ⟨3, _⟩ => show win1_2.index t (3 : Fin 5) * 16 + 1 * h.val = h.val; omega
  | ⟨4, _⟩ => show win1_2.index t (4 : Fin 5) * 64 + 1 * e.val = e.val; omega

/-! ## The output array from what the writing points leave -/

/-- A block `X` that agrees with the array `G` at rows `512 nq … 512 nq + 511` of batch `nb` agrees with it at any
    pair of a block index `y` and an array index `i` related in that way. -/
theorem out_block_eq (X : S1x512x16x64.Idx → EReal) (G : SOut.Idx → EReal) (nb nq : Nat) (hb : nb < 4) (hq : nq < 4)
    (hX : ∀ (r : Fin 512) (h : Fin 16) (d : Fin 64),
      X (ix4 (0 : Fin 1) r h d) = G (ix4 (⟨nb, hb⟩ : Fin 4) (⟨nq * 512 + r.val, by have := r.isLt; omega⟩ : Fin 2048) h d))
    (y : S1x512x16x64.Idx) (i : SOut.Idx)
    (h0 : (i 0).val = nb) (h1 : (i 1).val = nq * 512 + (y 1).val) (h2 : (i 2).val = (y 2).val) (h3 : (i 3).val = (y 3).val) :
    X y = G i := by
  have y0 : (y 0).val < 1 := (y 0).isLt
  have y1 : (y 1).val < 512 := (y 1).isLt
  have y2 : (y 2).val < 16 := (y 2).isLt
  have y3 : (y 3).val < 64 := (y 3).isLt
  have ey : y = ix4 (0 : Fin 1) (⟨(y 1).val, y1⟩ : Fin 512) (⟨(y 2).val, y2⟩ : Fin 16) (⟨(y 3).val, y3⟩ : Fin 64) := by
    funext a; apply Fin.ext
    match a with
    | ⟨0, _⟩ => show (y 0).val = 0; omega
    | ⟨1, _⟩ => rfl
    | ⟨2, _⟩ => rfl
    | ⟨3, _⟩ => rfl
  have ei : i = ix4 (⟨nb, hb⟩ : Fin 4) (⟨nq * 512 + (y 1).val, by omega⟩ : Fin 2048) (⟨(y 2).val, y2⟩ : Fin 16) (⟨(y 3).val, y3⟩ : Fin 64) := by
    funext a; apply Fin.ext
    match a with
    | ⟨0, _⟩ => exact h0
    | ⟨1, _⟩ => exact h1
    | ⟨2, _⟩ => exact h2
    | ⟨3, _⟩ => exact h3
  exact (congrArg X ey).trans ((hX _ _ _).trans (congrArg G ei).symm)

/-- An index of the output array is in point `t`'s block iff each coordinate is in the block's range on its axis. -/
theorem mem_blk1_3 (t : Fin cfg1.N) (i : SOut.Idx) :
    i ∈ ((cfg1.win 3).blk t).view.set ↔ ∀ a : Fin 4, win1_3.index t a * S1x512x16x64.size a ≤ (i a).val ∧ (i a).val < win1_3.index t a * S1x512x16x64.size a + S1x512x16x64.size a := by
  show i ∈ ((View.whole main_v7).slice (win1_3.rect t)).set ↔ _
  rw [View.set_slice_whole, Rect.mem_set_unit]
  exact Iff.rfl

/-- Every index `(b, q, h, d)` of the output array is in the block of a point that writes back: the last key tile of
    batch `b` and query tile `q / 512`. -/
theorem cover1_3_arr (i : SOut.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 16 := (i 2).isLt
  have hi3 : (i 3).val < 64 := (i 3).isLt
  have hN : cfg1.N = 64 := N_1
  have ht : ((i 0).val * 4 + (i 1).val / 512) * 4 + 3 < cfg1.N := by rw [hN]; omega
  obtain ⟨e0, e1, e2, e3⟩ := idx_facts1_3 ⟨((i 0).val * 4 + (i 1).val / 512) * 4 + 3, ht⟩
  have q0 : win1_3.index ⟨((i 0).val * 4 + (i 1).val / 512) * 4 + 3, ht⟩ (0 : Fin 4) = (((i 0).val * 4 + (i 1).val / 512) * 4 + 3) / 16 := e0
  have q1 : win1_3.index ⟨((i 0).val * 4 + (i 1).val / 512) * 4 + 3, ht⟩ (1 : Fin 4) = (((i 0).val * 4 + (i 1).val / 512) * 4 + 3) / 4 % 4 := e1
  refine ⟨⟨((i 0).val * 4 + (i 1).val / 512) * 4 + 3, ht⟩, (flush1_3 _).mpr (by show (((i 0).val * 4 + (i 1).val / 512) * 4 + 3) % 4 = 3; omega), ?_⟩
  rw [mem_blk1_3]
  intro a
  match a with
  | ⟨0, _⟩ => show win1_3.index ⟨((i 0).val * 4 + (i 1).val / 512) * 4 + 3, ht⟩ (0 : Fin 4) * 1 ≤ (i 0).val ∧ (i 0).val < win1_3.index ⟨((i 0).val * 4 + (i 1).val / 512) * 4 + 3, ht⟩ (0 : Fin 4) * 1 + 1; omega
  | ⟨1, _⟩ => show win1_3.index ⟨((i 0).val * 4 + (i 1).val / 512) * 4 + 3, ht⟩ (1 : Fin 4) * 512 ≤ (i 1).val ∧ (i 1).val < win1_3.index ⟨((i 0).val * 4 + (i 1).val / 512) * 4 + 3, ht⟩ (1 : Fin 4) * 512 + 512; omega
  | ⟨2, _⟩ => show win1_3.index ⟨((i 0).val * 4 + (i 1).val / 512) * 4 + 3, ht⟩ (2 : Fin 4) * 16 ≤ (i 2).val ∧ (i 2).val < win1_3.index ⟨((i 0).val * 4 + (i 1).val / 512) * 4 + 3, ht⟩ (2 : Fin 4) * 16 + 16; omega
  | ⟨3, _⟩ => show win1_3.index ⟨((i 0).val * 4 + (i 1).val / 512) * 4 + 3, ht⟩ (3 : Fin 4) * 64 ≤ (i 3).val ∧ (i 3).val < win1_3.index ⟨((i 0).val * 4 + (i 1).val / 512) * 4 + 3, ht⟩ (3 : Fin 4) * 64 + 64; omega

/-- What a writing point `t` moves out is block `t` of `G`, as soon as the output block it leaves agrees with `G` at
    the rows of its batch and query tile. -/
theorem flushed1_3_eq (c : Dev nD) (G : SOut.Idx → EReal) (t : Fin cfg1.N)
    (hX : ∀ (r : Fin 512) (h : Fin 16) (d : Fin 64), (outsAt1 V c t.val t.isLt).1 (ix4 (0 : Fin 1) r h d)
        = G (ix4 (⟨t.val / 16, by have hN : cfg1.N = 64 := N_1; have := t.isLt; omega⟩ : Fin 4) (⟨(t.val / 4 % 4) * 512 + r.val, by have := r.isLt; omega⟩ : Fin 2048) h d)) :
    (dat1 V c).flushed 3 t = ((cfg1.win 3).blk t).view.read (Elt Ideal) G := by
  show (cfg1.win 3).cut (grid1.coords t) ((dat1 V c).after 3 t) = _
  rw [after1_3]
  obtain ⟨e0, e1, e2, e3⟩ := idx_facts1_3 t
  funext j
  refine out_block_eq (outsAt1 V c t.val t.isLt).1 G (t.val / 16) (t.val / 4 % 4) (by have hN : cfg1.N = 64 := N_1; have := t.isLt; omega) (Nat.mod_lt _ (by decide)) hX j
    (((cfg1.win 3).blk t).view.emb j) ?_ ?_ ?_ ?_
  · show win1_3.index t (0 : Fin 4) * 1 + 1 * (j 0).val = t.val / 16
    have : (j 0).val < 1 := (j 0).isLt
    omega
  · show win1_3.index t (1 : Fin 4) * 512 + 1 * (j 1).val = t.val / 4 % 4 * 512 + (j 1).val
    omega
  · show win1_3.index t (2 : Fin 4) * 16 + 1 * (j 2).val = (j 2).val
    omega
  · show win1_3.index t (3 : Fin 4) * 64 + 1 * (j 3).val = (j 3).val
    omega

/-- The output array after the region is `G`, as soon as every writing point (the last key tile of each batch and
    query tile) leaves in its output block the rows of `G` of its batch and query tile. -/
theorem arr1_3_of_points (c : Dev nD) (G : SOut.Idx → EReal)
    (hpt : ∀ (t : Fin cfg1.N), t.val % 4 = 3 → ∀ (r : Fin 512) (h : Fin 16) (d : Fin 64),
      (outsAt1 V c t.val t.isLt).1 (ix4 (0 : Fin 1) r h d)
        = G (ix4 (⟨t.val / 16, by have hN : cfg1.N = 64 := N_1; have := t.isLt; omega⟩ : Fin 4) (⟨(t.val / 4 % 4) * 512 + r.val, by have := r.isLt; omega⟩ : Fin 2048) h d)) :
    (dat1 V c).arrAt 3 cfg1.N = G :=
  (dat1 V c).arrAt_eq_of_cover 3 G (fun t hf => flushed1_3_eq V c G t (hpt t ((flush1_3 t).mp hf))) cover1_3_arr

end Cert.KernelIdeal.Hand

end
-- ==== Proof.KI.FlashTile.lean ====
/-
  One key tile, as mathematics.  The keys are the 2048 rows; tile n holds the keys n * 512 + c, c < 512.  Absorbing tile n,
  its keys named by their position c in the tile, into the closed form over the keys below n * 512 gives the closed form
  over the keys below (n + 1) * 512.  All entries of the projected array being real, a score is real or ⊥ (never ⊤),
  the diagonal key's score is real, and the values are real.
-/
import proofs.«109116_j51110110822880_2_alg».proof.Proof.Attn5Spec
import proofs.«109116_j51110110822880_2_alg».proof.Proof.Finite

noncomputable section

namespace Cert.Attn5Spec

open Idealize.ShloMosaic Idealize.ShloMosaic.ValueIdx Cert.Lib.OnlineSoftmax
open scoped BigOperators

variable {qkv : SQkv.Idx → EReal}

/-! ## Finiteness -/

theorem score5_real (hq : ∀ i, ∃ r : ℝ, qkv i = r) (b : Fin 4) (h : Fin 16) (q k : Fin 2048) : ∃ r : ℝ, score5 qkv b h q k = r :=
  Cert.Finite.real_mul (Cert.Finite.real_sum _ _ fun d _ => Cert.Finite.real_mul (hq _) (hq _)) Cert.Finite.scale_real

theorem masked5_ne_top (hq : ∀ i, ∃ r : ℝ, qkv i = r) (b : Fin 4) (h : Fin 16) (q k : Fin 2048) : masked5 qkv b h q k ≠ ⊤ := by
  unfold masked5
  split
  · obtain ⟨r, hr⟩ := score5_real hq b h q k
    rw [hr]; exact EReal.coe_ne_top r
  · exact bot_ne_top

theorem masked5_diag_ne_bot (hq : ∀ i, ∃ r : ℝ, qkv i = r) (b : Fin 4) (h : Fin 16) (q : Fin 2048) : masked5 qkv b h q q ≠ ⊥ := by
  unfold masked5
  rw [if_pos (le_refl _)]
  obtain ⟨r, hr⟩ := score5_real hq b h q q
  rw [hr]; exact EReal.coe_ne_bot r

theorem value5_real (hq : ∀ i, ∃ r : ℝ, qkv i = r) (b : Fin 4) (h : Fin 16) (d : Fin 64) (k : Fin 2048) : ∃ r : ℝ, value5 qkv b h d k = r :=
  hq _

/-! ## Tiles of keys -/

/-- The keys below n. -/
def keysBelow (n : ℕ) : Finset (Fin 2048) := Finset.univ.filter fun k => k.val < n

/-- Key c of tile n. -/
def tileKey (n : ℕ) (hn : (n + 1) * 512 ≤ 2048) : Fin 512 ↪ Fin 2048 where
  toFun c := ⟨n * 512 + c.val, by have := c.isLt; omega⟩
  inj' a b e := Fin.ext (by have := congrArg Fin.val e; simp only at this; omega)

theorem keysBelow_succ (n : ℕ) (hn : (n + 1) * 512 ≤ 2048) :
    keysBelow (n * 512) ∪ Finset.univ.map (tileKey n hn) = keysBelow ((n + 1) * 512) := by
  ext k
  simp only [keysBelow, Finset.mem_union, Finset.mem_filter, Finset.mem_univ, true_and, Finset.mem_map, tileKey,
    Function.Embedding.coeFn_mk]
  constructor
  · rintro (h | ⟨c, rfl⟩)
    · omega
    · have := c.isLt; show n * 512 + c.val < (n + 1) * 512; omega
  · intro h
    by_cases hk : k.val < n * 512
    · exact Or.inl hk
    · exact Or.inr ⟨⟨k.val - n * 512, by omega⟩, Fin.ext (by show n * 512 + (k.val - n * 512) = k.val; omega)⟩

theorem keysBelow_disjoint (n : ℕ) (hn : (n + 1) * 512 ≤ 2048) : Disjoint (keysBelow (n * 512)) (Finset.univ.map (tileKey n hn)) := by
  rw [Finset.disjoint_left]
  intro k hk hm
  simp only [keysBelow, Finset.mem_filter, Finset.mem_univ, true_and] at hk
  obtain ⟨c, -, rfl⟩ := Finset.mem_map.1 hm
  have hv : (tileKey n hn c).val = n * 512 + c.val := rfl
  omega

/-- Absorbing a batch named through an embedding is absorbing its image. -/
theorem absorb_map {κ ι : Type} [DecidableEq κ] [DecidableEq ι] (t v : κ → EReal) (f : ι ↪ κ) (T : Finset ι) (st : EReal × EReal × EReal) :
    absorb (fun c => t (f c)) (fun c => v (f c)) T st = absorb t v (T.map f) st := by
  simp only [absorb, Finset.sup_map, Finset.sum_map, Function.comp_def]

/-- ONE TILE: the closed form over the keys below n * 512, tile n absorbed, is the closed form over the keys below
    (n + 1) * 512. -/
theorem tile_step (hq : ∀ i, ∃ r : ℝ, qkv i = r) (b : Fin 4) (h : Fin 16) (q : Fin 2048) (d : Fin 64) (n : ℕ) (hn : (n + 1) * 512 ≤ 2048) :
    absorb (fun c : Fin 512 => masked5 qkv b h q (tileKey n hn c)) (fun c => value5 qkv b h d (tileKey n hn c)) Finset.univ
        (closed (masked5 qkv b h q) (value5 qkv b h d) (keysBelow (n * 512)))
      = closed (masked5 qkv b h q) (value5 qkv b h d) (keysBelow ((n + 1) * 512)) := by
  rw [absorb_map (masked5 qkv b h q) (value5 qkv b h d) (tileKey n hn) Finset.univ,
    absorb_closed (masked5_ne_top hq b h q) (value5_real hq b h d) (keysBelow_disjoint n hn), keysBelow_succ n hn]

theorem keysBelow_zero : keysBelow 0 = ∅ := by
  ext k; simp [keysBelow]

end Cert.Attn5Spec

end
-- ==== Proof.KI.FlashTileId.lean ====
/-
  The attention region at the ideal instance: a processed tile's scores and values are the region's masked scores and
  value rows at the tile's keys.

  At point t = (batch b, query tile qi, key tile ki) with ki ≤ qi, row r of the query block is row q = qi * 512 + r of the
  array, the key block is block ki (the clamp min ki qi is ki), its row c is key ki * 512 + c, and the tile's mask
  "ki * 512 + c ≤ qi * 512 + r" is the causal mask "key ≤ query".
-/
import proofs.«109116_j51110110822880_2_alg».proof.Proof.KI.FlashStep
import proofs.«109116_j51110110822880_2_alg».proof.Proof.KI.FlashBlocks
import proofs.«109116_j51110110822880_2_alg».proof.Proof.KI.FlashTile
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.OnlineSoftmax Cert.Attn5Spec

section Tile
variable (V : (c : Dev nD) → (b : Ref sig .tc) → Buf (Elt Ideal) ((c : Thread nD τ).loc b)) (c : Dev nD)

/-- The region's input array as it finds it. -/
abbrev qkvOf : SQkv.Idx → EReal := V c main_v6

/-- Batch, query row and key-tile bound of a point. -/
def bOf (t : Fin cfg1.N) : Fin 4 := ⟨t.val / 16, by have hN : cfg1.N = 64 := N_1; have := t.isLt; omega⟩
def rowOf (t : Fin cfg1.N) (r : Fin 512) : Fin 2048 := ⟨(t.val / 4 % 4) * 512 + r.val, by have := r.isLt; omega⟩
theorem tile_le (t : Fin cfg1.N) : (t.val % 4 + 1) * 512 ≤ 2048 := by omega

theorem tileScoreAt_eq (t : Fin cfg1.N) (h1 : t.val % 4 ≤ t.val / 4 % 4) (h : Fin 16) (r cc : Fin 512) :
    tileScoreAt V c t h r cc = masked5 (qkvOf V c) (bOf t) h (rowOf t r) (tileKey (t.val % 4) (tile_le t) cc) := by
  obtain ⟨hc0, hc1, hc2⟩ := coords1 t
  have hmin : min (t.val % 4) (t.val / 4 % 4) = t.val % 4 := Nat.min_eq_left h1
  unfold tileScoreAt tileScore
  rw [show tq (grid1.coords t) = Scalar.muli (BitVec.ofNat 32 (grid1.coords t 1).val) 512#32 from rfl,
    show tk (grid1.coords t) = Scalar.muli (BitVec.ofNat 32 (grid1.coords t 2).val) 512#32 from rfl,
    k1_pay8_apply (grid1.coords t 1) (grid1.coords t 2) r cc]
  simp only [ldQ_apply, iblk1_0_apply, iblk1_1_apply]
  unfold masked5 score5
  by_cases hle : (grid1.coords t 2).val * 512 + cc.val ≤ (grid1.coords t 1).val * 512 + r.val
  · rw [if_pos hle, ValueIdx.select_one, if_pos (show (tileKey (t.val % 4) (tile_le t) cc).val ≤ (rowOf t r).val from by
      show t.val % 4 * 512 + cc.val ≤ t.val / 4 % 4 * 512 + r.val; omega)]
    refine congrArg (· * _) (Finset.sum_congr rfl fun e _ => ?_)
    refine congrArg₂ (· * ·) rfl ?_
    refine congrArg (qkvOf V c) (funext fun a => Fin.ext ?_)
    match a with
    | ⟨0, _⟩ => rfl
    | ⟨1, _⟩ => show min (t.val % 4) (t.val / 4 % 4) * 512 + cc.val = t.val % 4 * 512 + cc.val; rw [hmin]
    | ⟨2, _⟩ => rfl
    | ⟨3, _⟩ => rfl
    | ⟨4, _⟩ => rfl
  · rw [if_neg hle, ValueIdx.select_zero, if_neg (show ¬(tileKey (t.val % 4) (tile_le t) cc).val ≤ (rowOf t r).val from by
      show ¬(t.val % 4 * 512 + cc.val ≤ t.val / 4 % 4 * 512 + r.val); omega)]

theorem tileValueAt_eq (t : Fin cfg1.N) (h1 : t.val % 4 ≤ t.val / 4 % 4) (h : Fin 16) (d : Fin 64) (cc : Fin 512) :
    tileValueAt V c t h d cc = value5 (qkvOf V c) (bOf t) h d (tileKey (t.val % 4) (tile_le t) cc) := by
  have hmin : min (t.val % 4) (t.val / 4 % 4) = t.val % 4 := Nat.min_eq_left h1
  unfold tileValueAt value5
  rw [ldQ_apply, iblk1_2_apply]
  refine congrArg (qkvOf V c) (funext fun a => Fin.ext ?_)
  match a with
  | ⟨0, _⟩ => rfl
  | ⟨1, _⟩ => show min (t.val % 4) (t.val / 4 % 4) * 512 + cc.val = t.val % 4 * 512 + cc.val; rw [hmin]
  | ⟨2, _⟩ => rfl
  | ⟨3, _⟩ => rfl
  | ⟨4, _⟩ => rfl

end Tile

end Cert.KernelIdeal.Hand

end
-- ==== Proof.KI.FlashInv.lean ====
/-
  The attention region at the ideal instance: the carried state after every point, in closed form.

  For a fixed batch and query tile the four key tiles are visited in order.  After key tile ki the row state (running
  maximum, normaliser, accumulator) of row r, head h is the closed form of the online softmax over the keys below
  (min ki qi + 1) * 512: the first tile starts from the empty state, a tile at or below the diagonal absorbs its 512 keys,
  a tile above the diagonal changes nothing.  At the last tile all keys up to the query row have been absorbed and the
  keys not yet seen are masked, so accumulator over normaliser is the softmax-weighted sum over all 2048 keys.
-/
import proofs.«109116_j51110110822880_2_alg».proof.Proof.KI.FlashTileId
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.OnlineSoftmax Cert.Attn5Spec

namespace Softmax5

variable {qkv : SQkv.Idx → EReal}

/-- Once every key up to the query row lies below n, the weighted sum over the keys below n divided by their normaliser is
    the attention output: the keys from n on are masked and drop out. -/
theorem attn5_eq_div (hq : ∀ i, ∃ r : ℝ, qkv i = r) (b : Fin 4) (h : Fin 16) (q : Fin 2048) (d : Fin 64) (n : ℕ) (hn : q.val < n) :
    attn5 qkv b h q d = Ideal.div (num (masked5 qkv b h q) (value5 qkv b h d) (keysBelow n)) (den (masked5 qkv b h q) (keysBelow n)) := by
  have hb : ∀ k ∈ (Finset.univ : Finset (Fin 2048)), k ∉ keysBelow n → masked5 qkv b h q k = ⊥ := fun k _ hk => by
    have hk' : ¬k.val < n := fun hlt => hk (Finset.mem_filter.2 ⟨Finset.mem_univ _, hlt⟩)
    unfold masked5
    rw [if_neg (by omega)]
  unfold attn5
  rw [softmax_eq (masked5_ne_top hq b h q) (value5_real hq b h d) (U := Finset.univ) ⟨q, Finset.mem_univ _, masked5_diag_ne_bot hq b h q⟩,
    num_of_bot (Finset.subset_univ _) hb, den_of_bot (Finset.subset_univ _) hb]

end Softmax5

section Inv
variable (V : (c : Dev nD) → (b : Ref sig .tc) → Buf (Elt Ideal) ((c : Thread nD τ).loc b)) (c : Dev nD)

/-- The keys seen after point `t`. -/
def seen (t : Fin cfg1.N) : ℕ := (min (t.val % 4) (t.val / 4 % 4) + 1) * 512

/-- The first key tile absorbs its keys into the empty state (the reset values): stated here as what the read-back of
    that case gives. -/
def FirstTile : Prop := ∀ (t : Fin cfg1.N), t.val % 4 = 0 → ∀ (r : Fin 512) (h : Fin 16) (d : Fin 64),
  rowState V c t r h d = absorb (tileScoreAt V c t h r) (tileValueAt V c t h d) Finset.univ ((⊥ : EReal), (0 : EReal), (0 : EReal))

variable (hq : ∀ i, ∃ r : ℝ, qkvOf V c i = (r : EReal)) (hA : FirstTile V c)
include hq hA

/-- A processed tile absorbs its 512 keys into the closed form. -/
theorem absorb_tile (t : Fin cfg1.N) (h1 : t.val % 4 ≤ t.val / 4 % 4) (r : Fin 512) (h : Fin 16) (d : Fin 64) :
    absorb (tileScoreAt V c t h r) (tileValueAt V c t h d) Finset.univ
        (closed (masked5 (qkvOf V c) (bOf t) h (rowOf t r)) (value5 (qkvOf V c) (bOf t) h d) (keysBelow (t.val % 4 * 512)))
      = closed (masked5 (qkvOf V c) (bOf t) h (rowOf t r)) (value5 (qkvOf V c) (bOf t) h d) (keysBelow ((t.val % 4 + 1) * 512)) := by
  rw [show tileScoreAt V c t h r = fun cc => masked5 (qkvOf V c) (bOf t) h (rowOf t r) (tileKey (t.val % 4) (tile_le t) cc) from
      funext fun cc => tileScoreAt_eq V c t h1 h r cc,
    show tileValueAt V c t h d = fun cc => value5 (qkvOf V c) (bOf t) h d (tileKey (t.val % 4) (tile_le t) cc) from
      funext fun cc => tileValueAt_eq V c t h1 h d cc]
  exact tile_step hq (bOf t) h (rowOf t r) d (t.val % 4) (tile_le t)

theorem rowState_closed : ∀ (n : ℕ) (hn : n < cfg1.N) (r : Fin 512) (h : Fin 16) (d : Fin 64),
    rowState V c ⟨n, hn⟩ r h d
      = closed (masked5 (qkvOf V c) (bOf ⟨n, hn⟩) h (rowOf ⟨n, hn⟩ r)) (value5 (qkvOf V c) (bOf ⟨n, hn⟩) h d) (keysBelow (seen ⟨n, hn⟩)) := by
  intro n
  induction n with
  | zero =>
    intro hn r h d
    rw [hA ⟨0, hn⟩ (Nat.zero_mod 4) r h d]
    have e := absorb_tile V c hq hA ⟨0, hn⟩ (Nat.zero_le _) r h d
    rw [show (⟨0, hn⟩ : Fin cfg1.N).val % 4 * 512 = 0 from rfl, keysBelow_zero, closed_empty] at e
    exact e
  | succ n ih =>
    intro hn r h d
    have hN : cfg1.N = 64 := N_1
    have hn' : n < cfg1.N := Nat.lt_of_succ_lt hn
    by_cases h0 : (n + 1) % 4 = 0
    · rw [hA ⟨n + 1, hn⟩ h0 r h d]
      have e := absorb_tile V c hq hA ⟨n + 1, hn⟩ (by show (n + 1) % 4 ≤ (n + 1) / 4 % 4; omega) r h d
      rw [show (⟨n + 1, hn⟩ : Fin cfg1.N).val % 4 * 512 = 0 from by show (n + 1) % 4 * 512 = 0; omega, keysBelow_zero, closed_empty] at e
      rw [e]
      refine congrArg _ (congrArg keysBelow ?_)
      show ((n + 1) % 4 + 1) * 512 = (min ((n + 1) % 4) ((n + 1) / 4 % 4) + 1) * 512
      omega
    · have eb : bOf ⟨n, hn'⟩ = bOf ⟨n + 1, hn⟩ := Fin.ext (by show n / 16 = (n + 1) / 16; omega)
      have er : rowOf ⟨n, hn'⟩ r = rowOf ⟨n + 1, hn⟩ r := Fin.ext (by show n / 4 % 4 * 512 + r.val = (n + 1) / 4 % 4 * 512 + r.val; omega)
      have ihn := ih hn' r h d
      rw [eb, er] at ihn
      by_cases h1 : (n + 1) % 4 ≤ (n + 1) / 4 % 4
      · have hs : seen ⟨n, hn'⟩ = (n + 1) % 4 * 512 := by
          show (min (n % 4) (n / 4 % 4) + 1) * 512 = (n + 1) % 4 * 512
          omega
        have hs' : seen ⟨n + 1, hn⟩ = ((n + 1) % 4 + 1) * 512 := by
          show (min ((n + 1) % 4) ((n + 1) / 4 % 4) + 1) * 512 = ((n + 1) % 4 + 1) * 512
          omega
        have e := absorb_tile V c hq hA ⟨n + 1, hn⟩ h1 r h d
        rw [hs] at ihn
        by_cases h2 : (n + 1) % 4 = 3
        · rw [rowState_D V c ⟨n + 1, hn⟩ h0 h1 h2 r h d, show (⟨(⟨n + 1, hn⟩ : Fin cfg1.N).val - 1, _⟩ : Fin cfg1.N) = ⟨n, hn'⟩ from rfl, ihn, hs']
          exact e
        · rw [rowState_B V c ⟨n + 1, hn⟩ h0 h1 h2 r h d, show (⟨(⟨n + 1, hn⟩ : Fin cfg1.N).val - 1, _⟩ : Fin cfg1.N) = ⟨n, hn'⟩ from rfl, ihn, hs']
          exact e
      · have hs : seen ⟨n, hn'⟩ = seen ⟨n + 1, hn⟩ := by
          show (min (n % 4) (n / 4 % 4) + 1) * 512 = (min ((n + 1) % 4) ((n + 1) / 4 % 4) + 1) * 512
          omega
        rw [hs] at ihn
        by_cases h2 : (n + 1) % 4 = 3
        · rw [rowState_E V c ⟨n + 1, hn⟩ h0 h1 h2 r h d, show (⟨(⟨n + 1, hn⟩ : Fin cfg1.N).val - 1, _⟩ : Fin cfg1.N) = ⟨n, hn'⟩ from rfl]
          exact ihn
        · rw [rowState_C V c ⟨n + 1, hn⟩ h0 h1 h2 r h d, show (⟨(⟨n + 1, hn⟩ : Fin cfg1.N).val - 1, _⟩ : Fin cfg1.N) = ⟨n, hn'⟩ from rfl]
          exact ihn

end Inv

end Cert.KernelIdeal.Hand

end
-- ==== Proof.KI.FlashOut.lean ====
import proofs.«109116_j51110110822880_2_alg».proof.Proof.KI.FlashRead
import proofs.«109116_j51110110822880_2_alg».proof.Proof.KI.FlashOuts
import Idealize.ShloMosaic.Lib.ValueIdx
import Idealize.ShloMosaic.Lib.Pipeline.Value
import Idealize.ShloMosaic.Lib.ValueLayout
import Idealize.ShloMosaic.PureOps.Ideal.Laws

/-!
# The attention region: what the last key tile writes to the output block

At the last key tile the body loads the whole accumulator `[512, 16, 64]` and the whole normaliser `[512, 16, 1]`
and stores, over the whole output block `[1, 512, 16, 64]`, the accumulator divided lane by lane by the normaliser
of its row and head. When the tile lies above the diagonal nothing was absorbed first, and the two loads read the
carried state as it was; when the tile is absorbed first, they read what its sixteen per-head stores left. Either
way the output block at `(0, r, h, d)` is the accumulator at `(r, h, d)` over the normaliser at `(r, h, 0)`.
-/

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The zero offsets of a rectangle that starts at the origin, in three and in four axes. -/
theorem zero3 : (![0, 0, 0] : Fin 3 → Nat) = fun _ => 0 := funext fun a => by fin_cases a <;> rfl
theorem zero4 : (![0, 0, 0, 0] : Fin 4 → Nat) = fun _ => 0 := funext fun a => by fin_cases a <;> rfl

section AnyFormat

variable {F : FTy → Type} [FloatOps F] [Named F]

variable (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole)
variable (x0 x1 x2 : Vec F S1x512x1x16x64 .f32) (xs0 xs1 : Vec F S512x16x1 .f32) (xs2 : Vec F S512x16x64 .f32)

/-- A load of a whole buffer reads its contents. -/
theorem readAt_wholeA (arg : Memref sig .tc .vmem S512x16x64 .f32) (harg : arg.IsWhole) (X : Vec F S512x16x64 .f32) :
    View.readAt (Elt F) arg.view (Rect.unit (s := S512x16x64) ![0, 0, 0] S512x16x64.size inb_S512x16x64_S512x16x64_0_0_0).toLoadRect (harg.unread X) = X :=
  (View.readAt_eq_ld arg.view (harg.unread X) (Rect.unit (s := S512x16x64) ![0, 0, 0] S512x16x64.size inb_S512x16x64_S512x16x64_0_0_0)).trans (by rw [harg.read_unread, View.ld_unit_zero zero3])
theorem readAt_wholeS (arg : Memref sig .tc .vmem S512x16x1 .f32) (harg : arg.IsWhole) (X : Vec F S512x16x1 .f32) :
    View.readAt (Elt F) arg.view (Rect.unit (s := S512x16x1) ![0, 0, 0] S512x16x1.size inb_S512x16x1_S512x16x1_0_0_0).toLoadRect (harg.unread X) = X :=
  (View.readAt_eq_ld arg.view (harg.unread X) (Rect.unit (s := S512x16x1) ![0, 0, 0] S512x16x1.size inb_S512x16x1_S512x16x1_0_0_0)).trans (by rw [harg.read_unread, View.ld_unit_zero zero3])

/-! ## The last tile above the diagonal: the carried state is read as it was -/

/-- The one store into the output block: over the whole block, the quotient of the two whole loads. -/
theorem LO_E (hc0 : ¬cond1_0 i) (hc1 : ¬cond1_1 i) (hc2 : cond1_2 i) :
    (kernelRun1_E c i arg3 harg3 arg4 harg4 arg5 harg5 arg6 harg6 arg7 harg7 arg8 harg8 arg9 harg9 hc0 hc1 hc2 x0 x1 x2 xs0 xs1 xs2).1
      = [(⟨Rect.unit (s := S1x512x16x64) ![0, 0, 0, 0] S1x512x16x64.size inb_S1x512x16x64_S1x512x16x64_0_0_0_0,
          k1_pay7 (View.readAt (Elt F) arg9.view (Rect.unit (s := S512x16x64) ![0, 0, 0] S512x16x64.size inb_S512x16x64_S512x16x64_0_0_0).toLoadRect (harg9.unread xs2))
            (View.readAt (Elt F) arg8.view (Rect.unit (s := S512x16x1) ![0, 0, 0] S512x16x1.size inb_S512x16x1_S512x16x1_0_0_0).toLoadRect (harg8.unread xs1))⟩ : View.Piece (Elt F) S1x512x16x64 .f32)] := rfl

/-- The output block is the quotient of the carried accumulator by the carried normaliser. -/
theorem out1_E_3_eq (hc0 : ¬cond1_0 i) (hc1 : ¬cond1_1 i) (hc2 : cond1_2 i) :
    out1_E_3 c i arg3 harg3 arg4 harg4 arg5 harg5 arg6 harg6 arg7 harg7 arg8 harg8 arg9 harg9 hc0 hc1 hc2 x0 x1 x2 xs0 xs1 xs2 = k1_pay7 xs2 xs1 := by
  unfold out1_E_3
  rw [View.read_writes_junk_eq_canon, LO_E c i arg3 harg3 arg4 harg4 arg5 harg5 arg6 harg6 arg7 harg7 arg8 harg8 arg9 harg9 x0 x1 x2 xs0 xs1 xs2 hc0 hc1 hc2, View.canon_unit_zero zero4,
    readAt_wholeA, readAt_wholeS]

/-! ## The last tile on the diagonal: the tile is absorbed, then the state it leaves is read -/

set_option maxHeartbeats 8000000 in
/-- The one store into the output block: the quotient of the two whole loads, each of what the tile's sixteen
    per-head stores left in its buffer. -/
theorem LO_D (hc0 : ¬cond1_0 i) (hc1 : cond1_1 i) (hc2 : cond1_2 i) :
    (kernelRun1_D c i arg3 harg3 arg4 harg4 arg5 harg5 arg6 harg6 arg7 harg7 arg8 harg8 arg9 harg9 hc0 hc1 hc2 x0 x1 x2 xs0 xs1 xs2).1
      = [(⟨Rect.unit (s := S1x512x16x64) ![0, 0, 0, 0] S1x512x16x64.size inb_S1x512x16x64_S1x512x16x64_0_0_0_0,
          k1_pay7 (arg9.view.readCov (kernelRun1_D c i arg3 harg3 arg4 harg4 arg5 harg5 arg6 harg6 arg7 harg7 arg8 harg8 arg9 harg9 hc0 hc1 hc2 x0 x1 x2 xs0 xs1 xs2).2.2.2.1 (Rect.unit (s := S512x16x64) ![0, 0, 0] S512x16x64.size inb_S512x16x64_S512x16x64_0_0_0).toLoadRect)
            (arg8.view.readCov (kernelRun1_D c i arg3 harg3 arg4 harg4 arg5 harg5 arg6 harg6 arg7 harg7 arg8 harg8 arg9 harg9 hc0 hc1 hc2 x0 x1 x2 xs0 xs1 xs2).2.2.1 (Rect.unit (s := S512x16x1) ![0, 0, 0] S512x16x1.size inb_S512x16x1_S512x16x1_0_0_0).toLoadRect)⟩ : View.Piece (Elt F) S1x512x16x64 .f32)] := rfl

/-- A whole load of what the tile's sixteen stores left in the accumulator is the accumulator the tile leaves. -/
theorem readCov_D_2 (hc0 : ¬cond1_0 i) (hc1 : cond1_1 i) (hc2 : cond1_2 i) :
    arg9.view.readCov (kernelRun1_D c i arg3 harg3 arg4 harg4 arg5 harg5 arg6 harg6 arg7 harg7 arg8 harg8 arg9 harg9 hc0 hc1 hc2 x0 x1 x2 xs0 xs1 xs2).2.2.2.1 (Rect.unit (s := S512x16x64) ![0, 0, 0] S512x16x64.size inb_S512x16x64_S512x16x64_0_0_0).toLoadRect
      = sout1_D_2 c i arg3 harg3 arg4 harg4 arg5 harg5 arg6 harg6 arg7 harg7 arg8 harg8 arg9 harg9 hc0 hc1 hc2 x0 x1 x2 xs0 xs1 xs2 :=
  (View.readCov_eq_canon_ld arg9.view _ (Rect.unit (s := S512x16x64) ![0, 0, 0] S512x16x64.size inb_S512x16x64_S512x16x64_0_0_0) (scover1_D_2 c i arg3 harg3 arg4 harg4 arg5 harg5 arg6 harg6 arg7 harg7 arg8 harg8 arg9 harg9 hc0 hc1 hc2 x0 x1 x2 xs0 xs1 xs2)).trans
    ((View.ld_unit_zero zero3 _ _).trans (View.read_writes_junk_eq_canon VS1_2 _).symm)

/-- and likewise for the normaliser. -/
theorem readCov_D_1 (hc0 : ¬cond1_0 i) (hc1 : cond1_1 i) (hc2 : cond1_2 i) :
    arg8.view.readCov (kernelRun1_D c i arg3 harg3 arg4 harg4 arg5 harg5 arg6 harg6 arg7 harg7 arg8 harg8 arg9 harg9 hc0 hc1 hc2 x0 x1 x2 xs0 xs1 xs2).2.2.1 (Rect.unit (s := S512x16x1) ![0, 0, 0] S512x16x1.size inb_S512x16x1_S512x16x1_0_0_0).toLoadRect
      = sout1_D_1 c i arg3 harg3 arg4 harg4 arg5 harg5 arg6 harg6 arg7 harg7 arg8 harg8 arg9 harg9 hc0 hc1 hc2 x0 x1 x2 xs0 xs1 xs2 :=
  (View.readCov_eq_canon_ld arg8.view _ (Rect.unit (s := S512x16x1) ![0, 0, 0] S512x16x1.size inb_S512x16x1_S512x16x1_0_0_0) (scover1_D_1 c i arg3 harg3 arg4 harg4 arg5 harg5 arg6 harg6 arg7 harg7 arg8 harg8 arg9 harg9 hc0 hc1 hc2 x0 x1 x2 xs0 xs1 xs2)).trans
    ((View.ld_unit_zero zero3 _ _).trans (View.read_writes_junk_eq_canon VS1_1 _).symm)

/-- The output block is the quotient of the accumulator the tile leaves by the normaliser it leaves. -/
theorem out1_D_3_eq (hc0 : ¬cond1_0 i) (hc1 : cond1_1 i) (hc2 : cond1_2 i) :
    out1_D_3 c i arg3 harg3 arg4 harg4 arg5 harg5 arg6 harg6 arg7 harg7 arg8 harg8 arg9 harg9 hc0 hc1 hc2 x0 x1 x2 xs0 xs1 xs2
      = k1_pay7 (sout1_D_2 c i arg3 harg3 arg4 harg4 arg5 harg5 arg6 harg6 arg7 harg7 arg8 harg8 arg9 harg9 hc0 hc1 hc2 x0 x1 x2 xs0 xs1 xs2) (sout1_D_1 c i arg3 harg3 arg4 harg4 arg5 harg5 arg6 harg6 arg7 harg7 arg8 harg8 arg9 harg9 hc0 hc1 hc2 x0 x1 x2 xs0 xs1 xs2) :=
  show VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1) = _ from
  (View.read_writes_junk_eq_canon VO1_3 _).trans
    ((congrArg (fun L => View.canon L) (LO_D c i arg3 harg3 arg4 harg4 arg5 harg5 arg6 harg6 arg7 harg7 arg8 harg8 arg9 harg9 x0 x1 x2 xs0 xs1 xs2 hc0 hc1 hc2)).trans
      ((View.canon_unit_zero zero4 _ _).trans
        (congrArg₂ k1_pay7 (readCov_D_2 c i arg3 harg3 arg4 harg4 arg5 harg5 arg6 harg6 arg7 harg7 arg8 harg8 arg9 harg9 x0 x1 x2 xs0 xs1 xs2 hc0 hc1 hc2) (readCov_D_1 c i arg3 harg3 arg4 harg4 arg5 harg5 arg6 harg6 arg7 harg7 arg8 harg8 arg9 harg9 x0 x1 x2 xs0 xs1 xs2 hc0 hc1 hc2))))

end AnyFormat

/-! ## Over the extended reals, at an index -/

/-- The quotient payload at `(0, r, h, d)`: the accumulator at `(r, h, d)` divided by the normaliser at `(r, h, 0)`. -/
theorem k1_pay7_apply (acc : Vec Ideal S512x16x64 .f32) (l : Vec Ideal S512x16x1 .f32) (r : Fin 512) (h : Fin 16) (d : Fin 64) :
    k1_pay7 (F := Ideal) acc l (ix4 (0 : Fin 1) r h d) = Ideal.div (acc (ix3 r h d)) (l (ix3 r h (0 : Fin 1))) := by
  unfold k1_pay7
  refine (shapeCast_abc_1abc_apply _ shapeCasts_S512x16x64_S1x512x16x64 (0 : Fin 1) r h d).trans ?_
  show Ideal.div (acc (ix3 r h d)) (broadcastTo S512x16x64 l broadcasts_S512x16x1_S512x16x64 (ix3 r h d)) = _
  rw [broadcastTo_apply l broadcasts_S512x16x1_S512x16x64 (ix3 r h d) (ix3 r h (0 : Fin 1)) (fun a => match a with
    | ⟨0, _⟩ => rfl
    | ⟨1, _⟩ => rfl
    | ⟨2, _⟩ => rfl)]

section Ideal

variable (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole)
variable (x0 x1 x2 : Vec Ideal S1x512x1x16x64 .f32) (xs0 xs1 : Vec Ideal S512x16x1 .f32) (xs2 : Vec Ideal S512x16x64 .f32)

/-- Above the diagonal: the carried accumulator over the carried normaliser. -/
theorem out1_E_3_at (hc0 : ¬cond1_0 i) (hc1 : ¬cond1_1 i) (hc2 : cond1_2 i) (r : Fin 512) (h : Fin 16) (d : Fin 64) :
    out1_E_3 c i arg3 harg3 arg4 harg4 arg5 harg5 arg6 harg6 arg7 harg7 arg8 harg8 arg9 harg9 hc0 hc1 hc2 x0 x1 x2 xs0 xs1 xs2 (ix4 (0 : Fin 1) r h d)
      = Ideal.div (xs2 (ix3 r h d)) (xs1 (ix3 r h (0 : Fin 1))) := by
  rw [out1_E_3_eq]
  exact k1_pay7_apply xs2 xs1 r h d

/-- On the diagonal: the accumulator the tile leaves over the normaliser it leaves. -/
theorem out1_D_3_at (hc0 : ¬cond1_0 i) (hc1 : cond1_1 i) (hc2 : cond1_2 i) (r : Fin 512) (h : Fin 16) (d : Fin 64) :
    out1_D_3 c i arg3 harg3 arg4 harg4 arg5 harg5 arg6 harg6 arg7 harg7 arg8 harg8 arg9 harg9 hc0 hc1 hc2 x0 x1 x2 xs0 xs1 xs2 (ix4 (0 : Fin 1) r h d)
      = Ideal.div (sout1_D_2 c i arg3 harg3 arg4 harg4 arg5 harg5 arg6 harg6 arg7 harg7 arg8 harg8 arg9 harg9 hc0 hc1 hc2 x0 x1 x2 xs0 xs1 xs2 (ix3 r h d))
          (sout1_D_1 c i arg3 harg3 arg4 harg4 arg5 harg5 arg6 harg6 arg7 harg7 arg8 harg8 arg9 harg9 hc0 hc1 hc2 x0 x1 x2 xs0 xs1 xs2 (ix3 r h (0 : Fin 1))) := by
  rw [out1_D_3_eq]
  exact k1_pay7_apply _ _ r h d

end Ideal

end Cert.KernelIdeal.Hand

end
-- ==== Proof.KI.FlashReadA.lean ====
/-
  The attention region: the stores of the first key tile, read back.

  At the first key tile the body first resets the three scratch buffers by whole-buffer stores (the running maximum
  to the word of -∞, the normaliser and the accumulator to zero) and then absorbs the tile head by head.  Head h loads
  its columns of the scratch buffers before it stores into them, and what it finds there is what the reset left: the
  stores of the heads before it went to other columns.  So reading a buffer back at row r of head h gives head h's
  stored vector at row r, computed from the reset values.
-/
import proofs.«109116_j51110110822880_2_alg».proof.Proof.KI.FlashRead
import Idealize.ShloMosaic.Lib.ValueIdx
import Idealize.ShloMosaic.Lib.Pipeline.Value
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Stores made head by head on top of earlier stores -/

section Grow

variable {s : Shape} {e : EltTy} {Val : EltTy → Type} {ι : Type}

/-- The stores made head by head, last head first, on top of a first list of stores `base`. What a head stores may
    depend on the heads before it and on all the stores made before its own. -/
def grow (R : ι → Rect s) (pay : (h : ι) → List ι → List (View.Piece Val s e) → (R h).shape.Idx → Val e)
    (base : List (View.Piece Val s e)) : List ι → List (View.Piece Val s e)
  | [] => base
  | h :: hs => ⟨R h, pay h hs (grow R pay base hs)⟩ :: grow R pay base hs

theorem grow_cons (R : ι → Rect s) (pay : (h : ι) → List ι → List (View.Piece Val s e) → (R h).shape.Idx → Val e)
    (base : List (View.Piece Val s e)) (h : ι) (hs : List ι) :
    grow R pay base (h :: hs) = ⟨R h, pay h hs (grow R pay base hs)⟩ :: grow R pay base hs := rfl

/-- At a place of the rectangle of a head that has not stored yet, the stores read as the first list does: the heads'
    rectangles are pairwise apart. -/
theorem canon_grow_of_not_mem [∀ e, Nonempty (Val e)] (R : ι → Rect s)
    (pay : (h : ι) → List ι → List (View.Piece Val s e) → (R h).shape.Idx → Val e) (base : List (View.Piece Val s e))
    (hsep : ∀ h h', h ≠ h' → ∀ x, (R h).emb x ∉ (R h').set) (h : ι) (x : (R h).shape.Idx) :
    ∀ hs : List ι, h ∉ hs → View.canon (grow R pay base hs) ((R h).emb x) = View.canon base ((R h).emb x)
  | [], _ => rfl
  | h' :: hs, hn => by
    have hne : h ≠ h' := fun e' => hn (e' ▸ List.mem_cons_self)
    rw [grow_cons, View.canon_cons_of_not_mem _ _ (hsep h h' hne x)]
    exact canon_grow_of_not_mem R pay base hsep h x hs (fun hm => hn (List.mem_cons_of_mem _ hm))

/-- At a place of head `h`'s rectangle, after the heads `post`, then `h`, then the heads `pre` have stored, the
    stores read as `h`'s own store. -/
theorem canon_grow_mid [∀ e, Nonempty (Val e)] (R : ι → Rect s)
    (pay : (h : ι) → List ι → List (View.Piece Val s e) → (R h).shape.Idx → Val e) (base : List (View.Piece Val s e))
    (hsep : ∀ h h', h ≠ h' → ∀ x, (R h).emb x ∉ (R h').set) (h : ι) (post : List ι) (x : (R h).shape.Idx) :
    ∀ pre : List ι, h ∉ pre →
      View.canon (grow R pay base (pre ++ h :: post)) ((R h).emb x) = pay h post (grow R pay base post) x
  | [], _ => View.canon_cons_emb _ _ _ x
  | h' :: pre, hn => by
    have hne : h ≠ h' := fun e' => hn (e' ▸ List.mem_cons_self)
    rw [List.cons_append, grow_cons, View.canon_cons_of_not_mem _ _ (hsep h h' hne x)]
    exact canon_grow_mid R pay base hsep h post x pre (fun hm => hn (List.mem_cons_of_mem _ hm))

/-- A load through the rectangle of a head that has not stored yet reads what the first list left there. -/
theorem readCov_grow_of_not_mem [∀ e, Nonempty (Val e)] {sig : RefSig} {κ : Kind} {sp : Space} (v : View sig κ sp s e)
    (R : ι → Rect s) (pay : (h : ι) → List ι → List (View.Piece Val s e) → (R h).shape.Idx → Val e)
    (base : List (View.Piece Val s e)) (hsep : ∀ h h', h ≠ h' → ∀ x, (R h).emb x ∉ (R h').set) (h : ι) (hs : List ι)
    (hn : h ∉ hs) : v.readCov (grow R pay base hs) (R h).toLoadRect = v.readCov base (R h).toLoadRect := by
  rw [View.readCov_eq_canon', View.readCov_eq_canon']
  funext j
  exact canon_grow_of_not_mem R pay base hsep h j hs hn

/-- A load through a rectangle of what ONE whole-buffer store left reads the stored vector at the rectangle's places. -/
theorem readCov_reset [∀ e, Nonempty (Val e)] {sig : RefSig} {κ : Kind} {sp : Space} (v : View sig κ sp s e)
    {off : Fin s.rank → Nat} (hz : off = fun _ => 0) (inb : ∀ a, off a + s.size a ≤ s.size a) (w : s.Idx → Val e)
    (r : Rect s) :
    v.readCov [(⟨Rect.unit off s.size inb, w⟩ : View.Piece Val s e)] r.toLoadRect = View.ld w r := by
  rw [View.readCov_eq_canon', View.canon_unit_zero hz]

end Grow

/-- Every head splits the list of heads into the heads that store after it and those that store before it, and it is
    in neither part. -/
theorem split_headsRev (h : Fin 16) : ∃ pre post, headsRev = pre ++ h :: post ∧ h ∉ pre ∧ h ∉ post := by
  obtain ⟨pre, post, e'⟩ := List.append_of_mem (mem_headsRev h)
  have nd : headsRev.Nodup := by decide
  rw [e', List.nodup_middle, List.nodup_cons, List.mem_append, not_or] at nd
  exact ⟨pre, post, e', nd.1.1, nd.1.2⟩

/-- Three zero offsets, as a constant function. -/
theorem hz3 : (![0, 0, 0] : Fin 3 → Nat) = fun _ => 0 := funext fun a => by fin_cases a <;> rfl

section Cases

variable (c : Dev nD) (i : grid1.Coords) (arg3 : Memref sig .tc .vmem S1x512x1x16x64 .f32) (harg3 : arg3.IsWhole) (arg4 : Memref sig .tc .vmem S1x512x1x16x64 .f32) (harg4 : arg4.IsWhole) (arg5 : Memref sig .tc .vmem S1x512x1x16x64 .f32) (harg5 : arg5.IsWhole) (arg6 : Memref sig .tc .vmem S1x512x16x64 .f32) (harg6 : arg6.IsWhole) (arg7 : Memref sig .tc .vmem S512x16x1 .f32) (harg7 : arg7.IsWhole) (arg8 : Memref sig .tc .vmem S512x16x1 .f32) (harg8 : arg8.IsWhole) (arg9 : Memref sig .tc .vmem S512x16x64 .f32) (harg9 : arg9.IsWhole)
variable (x0 x1 x2 : Vec F S1x512x1x16x64 .f32)

/-! ## The three lists of stores, head by head -/

/-- The stores into the running maximum: the reset, then head by head the new maximum, computed from the head's column
    as the stores before it left it. -/
def preM : List (Fin 16) → List (View.Piece (Elt F) S512x16x1 .f32) :=
  grow rectS (fun h _ L => headM (tq i) (tk i) (ldQ arg3 harg3 x0 h) (ldQ arg4 harg4 x1 h)
      (arg7.view.readCov L (rectS h).toLoadRect))
    [⟨Rect.unit ![0, 0, 0] S512x16x1.size inb_S512x16x1_S512x16x1_0_0_0, k1_pay1⟩]

/-- The stores into the normaliser. -/
def preL : List (Fin 16) → List (View.Piece (Elt F) S512x16x1 .f32) :=
  grow rectS (fun h hs L => headL (tq i) (tk i) (ldQ arg3 harg3 x0 h) (ldQ arg4 harg4 x1 h)
      (arg7.view.readCov (preM i arg3 harg3 arg4 harg4 arg7 x0 x1 hs) (rectS h).toLoadRect) (arg8.view.readCov L (rectS h).toLoadRect))
    [⟨Rect.unit ![0, 0, 0] S512x16x1.size inb_S512x16x1_S512x16x1_0_0_0, k1_pay2⟩]

/-- The stores into the accumulator. -/
def preA : List (Fin 16) → List (View.Piece (Elt F) S512x16x64 .f32) :=
  grow rectA (fun h hs L => headA (tq i) (tk i) (ldQ arg3 harg3 x0 h) (ldQ arg4 harg4 x1 h) (ldQ arg5 harg5 x2 h)
      (arg7.view.readCov (preM i arg3 harg3 arg4 harg4 arg7 x0 x1 hs) (rectS h).toLoadRect) (arg9.view.readCov L (rectA h).toLoadRect))
    [⟨Rect.unit ![0, 0, 0] S512x16x64.size inb_S512x16x64_S512x16x64_0_0_0, k1_pay3⟩]

set_option maxHeartbeats 8000000 in
theorem LS0_A (hc0 : cond1_0 i) (hc1 : cond1_1 i) (hc2 : ¬cond1_2 i) :
    (kernelRun1_A c i arg3 harg3 arg4 harg4 arg5 harg5 arg6 harg6 arg7 harg7 arg8 harg8 arg9 harg9 hc0 hc1 hc2 x0 x1 x2).1 = preM i arg3 harg3 arg4 harg4 arg7 x0 x1 headsRev := rfl

set_option maxHeartbeats 8000000 in
theorem LS1_A (hc0 : cond1_0 i) (hc1 : cond1_1 i) (hc2 : ¬cond1_2 i) :
    (kernelRun1_A c i arg3 harg3 arg4 harg4 arg5 harg5 arg6 harg6 arg7 harg7 arg8 harg8 arg9 harg9 hc0 hc1 hc2 x0 x1 x2).2.1 = preL i arg3 harg3 arg4 harg4 arg7 arg8 x0 x1 headsRev := rfl

set_option maxHeartbeats 8000000 in
theorem LS2_A (hc0 : cond1_0 i) (hc1 : cond1_1 i) (hc2 : ¬cond1_2 i) :
    (kernelRun1_A c i arg3 harg3 arg4 harg4 arg5 harg5 arg6 harg6 arg7 harg7 arg8 harg8 arg9 harg9 hc0 hc1 hc2 x0 x1 x2).2.2.1 = preA i arg3 harg3 arg4 harg4 arg5 harg5 arg7 arg9 x0 x1 x2 headsRev := rfl

/-! ## What a head finds in its columns: the reset values -/

/-- Head `h`'s load of its column of the running maximum, before it or any later head has stored: the reset value. -/
theorem loadM_reset (h : Fin 16) (post : List (Fin 16)) (hpost : h ∉ post) :
    arg7.view.readCov (preM i arg3 harg3 arg4 harg4 arg7 x0 x1 post) (rectS h).toLoadRect = View.ld (k1_pay1 (F := F)) (rectS h) := by
  unfold preM
  exact (readCov_grow_of_not_mem arg7.view rectS _ _ rectS_sep h post hpost).trans
    (readCov_reset arg7.view hz3 _ _ (rectS h))

/-- Its load of its column of the normaliser. -/
theorem loadL_reset (h : Fin 16) (post : List (Fin 16)) (hpost : h ∉ post) :
    arg8.view.readCov (preL i arg3 harg3 arg4 harg4 arg7 arg8 x0 x1 post) (rectS h).toLoadRect = View.ld (k1_pay2 (F := F)) (rectS h) := by
  unfold preL
  exact (readCov_grow_of_not_mem arg8.view rectS _ _ rectS_sep h post hpost).trans
    (readCov_reset arg8.view hz3 _ _ (rectS h))

/-- Its load of its slab of the accumulator. -/
theorem loadA_reset (h : Fin 16) (post : List (Fin 16)) (hpost : h ∉ post) :
    arg9.view.readCov (preA i arg3 harg3 arg4 harg4 arg5 harg5 arg7 arg9 x0 x1 x2 post) (rectA h).toLoadRect = View.ld (k1_pay3 (F := F)) (rectA h) := by
  unfold preA
  exact (readCov_grow_of_not_mem arg9.view rectA _ _ rectA_sep h post hpost).trans
    (readCov_reset arg9.view hz3 _ _ (rectA h))

/-! ## The buffers read back -/

/-- The running maximum after the first tile, at row `x` of head `h`: the head's new maximum from the reset value. -/
theorem sout1_A_0_at (hc0 : cond1_0 i) (hc1 : cond1_1 i) (hc2 : ¬cond1_2 i) (h : Fin 16) (x : (rectS h).shape.Idx) :
    sout1_A_0 c i arg3 harg3 arg4 harg4 arg5 harg5 arg6 harg6 arg7 harg7 arg8 harg8 arg9 harg9 hc0 hc1 hc2 x0 x1 x2 ((rectS h).emb x)
      = headM (tq i) (tk i) (ldQ arg3 harg3 x0 h) (ldQ arg4 harg4 x1 h) (View.ld (k1_pay1 (F := F)) (rectS h)) x := by
  unfold sout1_A_0
  rw [View.read_writes_junk_eq_canon, LS0_A c i arg3 harg3 arg4 harg4 arg5 harg5 arg6 harg6 arg7 harg7 arg8 harg8 arg9 harg9 x0 x1 x2 hc0 hc1 hc2]
  obtain ⟨pre, post, e', hpre, hpost⟩ := split_headsRev h
  rw [e']
  unfold preM
  rw [canon_grow_mid rectS _ _ rectS_sep h post x pre hpre]
  exact congrArg (fun m : Vec F S512x1x1 .f32 => headM (tq i) (tk i) (ldQ arg3 harg3 x0 h) (ldQ arg4 harg4 x1 h) m x)
    (loadM_reset i arg3 harg3 arg4 harg4 arg7 x0 x1 h post hpost)

/-- The normaliser after the first tile, at row `x` of head `h`. -/
theorem sout1_A_1_at (hc0 : cond1_0 i) (hc1 : cond1_1 i) (hc2 : ¬cond1_2 i) (h : Fin 16) (x : (rectS h).shape.Idx) :
    sout1_A_1 c i arg3 harg3 arg4 harg4 arg5 harg5 arg6 harg6 arg7 harg7 arg8 harg8 arg9 harg9 hc0 hc1 hc2 x0 x1 x2 ((rectS h).emb x)
      = headL (tq i) (tk i) (ldQ arg3 harg3 x0 h) (ldQ arg4 harg4 x1 h) (View.ld (k1_pay1 (F := F)) (rectS h))
          (View.ld (k1_pay2 (F := F)) (rectS h)) x := by
  unfold sout1_A_1
  rw [View.read_writes_junk_eq_canon, LS1_A c i arg3 harg3 arg4 harg4 arg5 harg5 arg6 harg6 arg7 harg7 arg8 harg8 arg9 harg9 x0 x1 x2 hc0 hc1 hc2]
  obtain ⟨pre, post, e', hpre, hpost⟩ := split_headsRev h
  rw [e']
  unfold preL
  rw [canon_grow_mid rectS _ _ rectS_sep h post x pre hpre]
  exact congrArg₂ (fun m l : Vec F S512x1x1 .f32 => headL (tq i) (tk i) (ldQ arg3 harg3 x0 h) (ldQ arg4 harg4 x1 h) m l x)
    (loadM_reset i arg3 harg3 arg4 harg4 arg7 x0 x1 h post hpost) (loadL_reset i arg3 harg3 arg4 harg4 arg7 arg8 x0 x1 h post hpost)

/-- The accumulator after the first tile, at place `x` of head `h`'s slab. -/
theorem sout1_A_2_at (hc0 : cond1_0 i) (hc1 : cond1_1 i) (hc2 : ¬cond1_2 i) (h : Fin 16) (x : (rectA h).shape.Idx) :
    sout1_A_2 c i arg3 harg3 arg4 harg4 arg5 harg5 arg6 harg6 arg7 harg7 arg8 harg8 arg9 harg9 hc0 hc1 hc2 x0 x1 x2 ((rectA h).emb x)
      = headA (tq i) (tk i) (ldQ arg3 harg3 x0 h) (ldQ arg4 harg4 x1 h) (ldQ arg5 harg5 x2 h)
          (View.ld (k1_pay1 (F := F)) (rectS h)) (View.ld (k1_pay3 (F := F)) (rectA h)) x := by
  unfold sout1_A_2
  rw [View.read_writes_junk_eq_canon, LS2_A c i arg3 harg3 arg4 harg4 arg5 harg5 arg6 harg6 arg7 harg7 arg8 harg8 arg9 harg9 x0 x1 x2 hc0 hc1 hc2]
  obtain ⟨pre, post, e', hpre, hpost⟩ := split_headsRev h
  rw [e']
  unfold preA
  rw [canon_grow_mid rectA _ _ rectA_sep h post x pre hpre]
  exact congrArg₂ (fun (m : Vec F S512x1x1 .f32) (a : Vec F S512x1x64 .f32) =>
      headA (tq i) (tk i) (ldQ arg3 harg3 x0 h) (ldQ arg4 harg4 x1 h) (ldQ arg5 harg5 x2 h) m a x)
    (loadM_reset i arg3 harg3 arg4 harg4 arg7 x0 x1 h post hpost) (loadA_reset i arg3 harg3 arg4 harg4 arg5 harg5 arg7 arg9 x0 x1 x2 h post hpost)

end Cases

/-! ## The reset values over the extended reals -/

/-- The running maximum is reset to `⊥`. -/
theorem k1_pay1_ideal (j : S512x16x1.Idx) : k1_pay1 (F := Ideal) j = (⊥ : EReal) := by
  unfold k1_pay1
  refine (congrFun (shapeCast_self _ _) j).trans ?_
  show Ideal.ofBits .f32 0xFF800000#32 = ⊥
  simp [Ideal.ofBits, Ideal.ieee]

/-- The normaliser is reset to zero. -/
theorem k1_pay2_ideal (j : S512x16x1.Idx) : k1_pay2 (F := Ideal) j = (0 : EReal) := by
  unfold k1_pay2
  refine (congrFun (shapeCast_self _ _) j).trans ?_
  exact Ideal.ofBits_zero_f32

/-- The accumulator is reset to zero. -/
theorem k1_pay3_ideal (j : S512x16x64.Idx) : k1_pay3 (F := Ideal) j = (0 : EReal) := by
  unfold k1_pay3
  refine (congrFun (shapeCast_self _ _) j).trans ?_
  exact Ideal.ofBits_zero_f32

end Cert.KernelIdeal.Hand

end
-- ==== Proof.KI.FlashValue.lean ====
/-
  The attention region's value at the ideal instance: its output array is the causal softmax attention of the projected
  array it finds.  At a last key tile the body stores accumulator over normaliser; by the closed form of the carried state
  over the keys seen — every key up to the query row — that quotient is the softmax-weighted sum over all keys; and the
  blocks written back at the sixteen last-tile points cover the output array.
-/
import proofs.«109116_j51110110822880_2_alg».proof.Proof.KI.FlashInv
import proofs.«109116_j51110110822880_2_alg».proof.Proof.KI.FlashOut
import proofs.«109116_j51110110822880_2_alg».proof.Proof.KI.FlashReadA
import proofs.«109116_j51110110822880_2_alg».proof.Proof.KI.KernelValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib.OnlineSoftmax Cert.Attn5Spec

section Value
variable (V : (c : Dev nD) → (b : Ref sig .tc) → Buf (Elt Ideal) ((c : Thread nD τ).loc b)) (c : Dev nD)

set_option maxHeartbeats 4000000 in
/-- At a first key tile the scratch buffers are reset to (-inf, 0, 0) and the tile is absorbed into that empty state. -/
theorem firstTile : FirstTile V c := by
  intro t h0 r h d
  have hc := hA t h0
  unfold rowState tileScoreAt tileValueAt
  rw [outsAt1_A V c t h0]
  dsimp only
  have e1 : View.ld (Val := Elt Ideal) (e' := .f32) (k1_pay1 (F := Ideal)) (rectS h) (ix3 r (0 : Fin 1) (0 : Fin 1)) = (⊥ : EReal) := k1_pay1_ideal _
  have e2 : View.ld (Val := Elt Ideal) (e' := .f32) (k1_pay2 (F := Ideal)) (rectS h) (ix3 r (0 : Fin 1) (0 : Fin 1)) = (0 : EReal) := k1_pay2_ideal _
  have e3 : View.ld (Val := Elt Ideal) (e' := .f32) (k1_pay3 (F := Ideal)) (rectA h) (ix3 r (0 : Fin 1) d) = (0 : EReal) := k1_pay3_ideal _
  rw [show (((⊥ : EReal), (0 : EReal), (0 : EReal)) : EReal × EReal × EReal)
      = (View.ld (Val := Elt Ideal) (e' := .f32) (k1_pay1 (F := Ideal)) (rectS h) (ix3 r (0 : Fin 1) (0 : Fin 1)),
         View.ld (Val := Elt Ideal) (e' := .f32) (k1_pay2 (F := Ideal)) (rectS h) (ix3 r (0 : Fin 1) (0 : Fin 1)),
         View.ld (Val := Elt Ideal) (e' := .f32) (k1_pay3 (F := Ideal)) (rectA h) (ix3 r (0 : Fin 1) d)) from by rw [e1, e2, e3]]
  rw [← head_absorb]
  refine Prod.ext ?_ (Prod.ext ?_ ?_)
  · show sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (ix3 r h (0 : Fin 1)) = _
    rw [ix3_eq_embS r h]
    exact sout1_A_0_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) hc.1 hc.2.1 hc.2.2 h _
  · show sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (ix3 r h (0 : Fin 1)) = _
    rw [ix3_eq_embS r h]
    exact sout1_A_1_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) hc.1 hc.2.1 hc.2.2 h _
  · show sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc.1 hc.2.1 hc.2.2 (iblk1 V c 0 t) (iblk1 V c 1 t) (iblk1 V c 2 t) (ix3 r h d) = _
    rw [ix3_eq_embA r h d]
    exact sout1_A_2_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) hc.1 hc.2.1 hc.2.2 h _

set_option maxHeartbeats 4000000 in
/-- At a last key tile the output block holds, at row r, head h, lane d, the accumulator over the normaliser. -/
theorem out_eq_div (t : Fin cfg1.N) (h3 : t.val % 4 = 3) (r : Fin 512) (h : Fin 16) (d : Fin 64) :
    (outsAt1 V c t.val t.isLt).1 (ix4 (0 : Fin 1) r h d) = Ideal.div (rowState V c t r h d).2.2 (rowState V c t r h d).2.1 := by
  have h0 : ¬t.val % 4 = 0 := by omega
  by_cases h1 : t.val % 4 ≤ t.val / 4 % 4
  · have hc := hD t h0 h1 h3
    unfold rowState
    rw [outsAt1_D V c t h0 h1 h3]
    dsimp only
    exact out1_D_3_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 hc.1 hc.2.1 hc.2.2 r h d
  · have hc := hE t h0 h1 h3
    unfold rowState
    rw [outsAt1_E V c t h0 h1 h3]
    dsimp only
    exact out1_E_3_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 hc.1 hc.2.1 hc.2.2 r h d

end Value

/-- THE ATTENTION REGION'S VALUE. -/
theorem flash_value : FlashValue := by
  intro V c hreal
  refine arr1_3_of_points V c _ (fun t h3 r h d => ?_)
  rw [out_eq_div V c t h3 r h d, rowState_closed V c hreal (firstTile V c) t.val t.isLt r h d]
  exact (Softmax5.attn5_eq_div hreal (bOf t) h (rowOf t r) d (seen t) (by
    show t.val / 4 % 4 * 512 + r.val < (min (t.val % 4) (t.val / 4 % 4) + 1) * 512
    have := r.isLt; omega)).symm

end Cert.KernelIdeal.Hand

end
-- ==== Proof.lean ====
/-
  Causal multi-head self-attention, B = 4, T = 2048, C = 1024, 16 heads of 64 lanes: a kernel of three regions against
  its jnp reference, at the ideal instance (floats are extended reals, operations exact, format changes the identity).

  The kernel: (1) the projection  p = x · w_qkvᵀ  of the 8192 rows, tiled by 512 rows; (2) flash attention over the
  projection viewed as [4, 2048, 3, 16, 64] (queries, keys, values; heads; lanes): for each batch and query tile the four
  key tiles are visited in order, a tile above the diagonal is skipped, and the others are absorbed, head by head, into a
  running maximum m, a normaliser l and an accumulator a kept in scratch buffers:
      m' = max m (row max of s),   l' = exp (m - m') l + Σ exp (s - m'),   a' = exp (m - m') a + exp (s - m') · v,
  with s the scores q·kᵀ / 8, a key after the query masked to -∞ (the kernel's finite fill is named -∞); the last tile
  writes a / l; (3) the output projection  y · w_outᵀ.  The reference: the same two projections around
  softmax (where (k ≤ q, q·kᵀ / 8, -∞)) · v,  softmax as  exp (s - max) / Σ exp (s - max)  over all 2048 keys.

  Why they agree.  For real inputs every score is real, so the maxima are real after the first tile and
  exp (m - m') · exp (x - m) = exp (x - m') moves through the finite real sums: after key tile ki the carried state of a
  row is the closed form (max, Σ exp (s - max), Σ exp (s - max) v) over the keys below (min ki qi + 1) · 512.  At the last
  tile these are all keys up to the query row; the later keys are masked and weigh 0; the normaliser is a positive real,
  and (Σ e v) / L = Σ (e / L) v.  The projections are the same sums of products on both sides, re-indexed by the free
  reshapes and the transposes of the weights.

  The frames (each program runs to the end, faults nowhere, leaves its inputs as they were) are proved from the body of
  each region run at every grid point: the two projections store one block per point; the attention region is run in its
  five control cases, the three scratch buffers named in the invariant between points, and its three input windows, which
  read one array, hold that array's share in three parts.  The idealization's sixteen rewrites are each the naming of
  the mask fill.
-/
import proofs.«109116_j51110110822880_2_alg».proof.Defs
import proofs.«109116_j51110110822880_2_alg».proof.Proof.Gen.Kernel
import proofs.«109116_j51110110822880_2_alg».proof.Proof.Gen.Kernel.Skeleton
import proofs.«109116_j51110110822880_2_alg».proof.Proof.Gen.Kernel.Launch
import proofs.«109116_j51110110822880_2_alg».proof.Proof.Gen.Kernel.Regions
import proofs.«109116_j51110110822880_2_alg».proof.Proof.Gen.Kernel.Points
import proofs.«109116_j51110110822880_2_alg».proof.Proof.Gen.KernelIdeal
import proofs.«109116_j51110110822880_2_alg».proof.Proof.Gen.KernelIdeal.Skeleton
import proofs.«109116_j51110110822880_2_alg».proof.Proof.Gen.KernelIdeal.Launch
import proofs.«109116_j51110110822880_2_alg».proof.Proof.Gen.KernelIdeal.Regions
import proofs.«109116_j51110110822880_2_alg».proof.Proof.Gen.KernelIdeal.Points
import proofs.«109116_j51110110822880_2_alg».proof.Proof.Gen.ReferenceIdeal
import proofs.«109116_j51110110822880_2_alg».proof.Proof.Gen.Pre_finite_inputs
import proofs.«109116_j51110110822880_2_alg».proof.Proof.Assemble
import proofs.«109116_j51110110822880_2_alg».proof.Proof.KI.FlashValue
import Idealize.ShloMosaic.Adequacy
import Idealize.ShloMosaic.Init

noncomputable section

namespace Cert.Proof

open Idealize.ShloMosaic Idealize.SL.Sem Cert.Kernel

/-- The three frames, the idealization's rewrites, and the equality of the two idealized programs' results. -/
theorem claim : Cert.Claim := ⟨Cert.Kernel.Gen.facts, Cert.KernelIdeal.Gen.facts, Cert.ReferenceIdeal.Gen.facts, Cert.Pre_finite_inputs.Gen.facts,
  Cert.Proof.Parts.frame_k, Cert.Proof.Parts.frame_ki, Cert.Proof.Parts.frame_ri, Cert.Proof.Parts.preserves,
  Cert.Proof.Parts.algebraic Cert.KernelIdeal.Hand.flash_value⟩

end Cert.Proof

end
